-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_v208) = v1 c
          ∧ r.2.mem ((c.tc : Thread Cert.ReferenceIdeal.nD Cert.ReferenceIdeal.τ).loc Cert.ReferenceIdeal.main_v213) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S4x128x1024 : Shape := ⟨3, ![4, 128, 1024]⟩
abbrev S4x4096x1024 : Shape := ⟨3, ![4, 4096, 1024]⟩
abbrev S4x4096 : Shape := ⟨2, ![4, 4096]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S4x128x1024 : S_.BroadcastsInDim S4x128x1024 (![] : Fin 0 → Fin S4x128x1024.rank)
  reducesTo_S4x128x1024_S_d0_1_2 : S4x128x1024.ReducesTo [0, 1, 2] S_
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg4 : FVec F S4x4096x1024 .f32) (main_arg5 : FVec F S4x4096 .f32) (main_arg6 : FVec F S4x4096 .f32) (main_v13 : IVec S_ 1) (main_v16 : IVec S4x4096x1024 1) : IVec S_ 1 :=
  let main_c_5 : IVec S_ 1 := constantI S_ 1 1#1
  let main_v17 : IVec S_ 1 := (fun x v => Host.reduce IntOp.andi x v reducesTo_S4x4096x1024_S_d0_1_2 h_S_) main_v16 main_c_5
  let main_v18 : IVec S_ 1 := andi main_v13 main_v17
  let main_v19 : FVec F S4x4096x1024 .f32 := Host.absf main_arg4
  let main_cst_6 : FVec F S_ .f32 := constant S_ .f32 0x7F800000#32
  let main_v20 : FVec F S4x4096x1024 .f32 := broadcastInDim S4x4096x1024 ![] bcast_S_S4x4096x1024 main_cst_6
  let main_v21 : IVec S4x4096x1024 1 := cmpf .olt main_v19 main_v20
  let main_c_7 : IVec S_ 1 := constantI S_ 1 1#1
  let main_v22 : IVec S_ 1 := (fun x v => Host.reduce IntOp.andi x v reducesTo_S4x4096x1024_S_d0_1_2 h_S_) main_v21 main_c_7
  let main_v23 : IVec S_ 1 := andi main_v18 main_v22
  let main_v24 : FVec F S4x4096 .f32 := Host.absf main_arg5
  let main_cst_8 : FVec F S_ .f32 := constant S_ .f32 0x7F800000#32
  let main_v25 : FVec F S4x4096 .f32 := broadcastInDim S4x4096 ![] bcast_S_S4x4096 main_cst_8
  let main_v26 : IVec S4x4096 1 := cmpf .olt main_v24 main_v25
  let main_c_9 : IVec S_ 1 := constantI S_ 1 1#1
  let main_v27 : IVec S_ 1 := (fun x v => Host.reduce IntOp.andi x v reducesTo_S4x4096_S_d0_1 h_S_) main_v26 main_c_9
  let main_v28 : IVec S_ 1 := andi main_v23 main_v27
  let main_v29 : FVec F S4x4096 .f32 := Host.absf main_arg6
  let main_cst_10 : FVec F S_ .f32 := constant S_ .f32 0x7F800000#32
  let main_v30 : FVec F S4x4096 .f32 := broadcastInDim S4x4096 ![] bcast_S_S4x4096 main_cst_10
  let main_v31 : IVec S4x4096 1 := cmpf .olt main_v29 main_v30
  let main_c_11 : IVec S_ 1 := constantI S_ 1 1#1
  let main_v32 : IVec S_ 1 := (fun x v => Host.reduce IntOp.andi x v reducesTo_S4x4096_S_d0_1 h_S_) main_v31 main_c_11
  let main_v33 : IVec S_ 1 := andi main_v28 main_v32
  main_v33

def fn {F : FTy → Type} [FloatOps F] (main_arg0 : FVec F S128x1024 .f32) (main_arg1 : FVec F S4x128x1024 .f32) (main_arg2 : FVec F S4x128x1024 .f32) (main_arg3 : FVec F S4x4096x1024 .f32) (main_arg4 : FVec F S4x4096x1024 .f32) (main_arg5 : FVec F S4x4096 .f32) (main_arg6 : FVec F S4x4096 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S4x128x1024 .f32 := Host.absf main_arg1
  let main_cst_0 : FVec F S_ .f32 := constant S_ .f32 0x7F800000#32
  let main_v5 : FVec F S4x128x1024 .f32 := broadcastInDim S4x128x1024 ![] bcast_S_S4x128x1024 main_cst_0
  let main_v6 : IVec S4x128x1024 1 := cmpf .olt main_v4 main_v5
  let main_c_1 : IVec S_ 1 := constantI S_ 1 1#1
  let main_v7 : IVec S_ 1 := (fun x v => Host.reduce IntOp.andi x v reducesTo_S4x128x1024_S_d0_1_2 h_S_) main_v6 main_c_1
  let main_v8 : IVec S_ 1 := andi main_v3 main_v7
  let main_v9 : FVec F S4x128x1024 .f32 := Host.absf main_arg2
  let main_cst_2 : FVec F S_ .f32 := constant S_ .f32 0x7F800000#32
  let main_v10 : FVec F S4x128x1024 .f32 := broadcastInDim S4x128x1024 ![] bcast_S_S4x128x1024 main_cst_2
  let main_v11 : IVec S4x128x1024 1 := cmpf .olt main_v9 main_v10
  let main_c_3 : IVec S_ 1 := constantI S_ 1 1#1
  let main_v12 : IVec S_ 1 := (fun x v => Host.reduce IntOp.andi x v reducesTo_S4x128x1024_S_d0_1_2 h_S_) main_v11 main_c_3
  let main_v13 : IVec S_ 1 := andi main_v8 main_v12
  let main_v14 : FVec F S4x4096x1024 .f32 := Host.absf main_arg3
  let main_cst_4 : FVec F S_ .f32 := constant S_ .f32 0x7F800000#32
  let main_v15 : FVec F S4x4096x1024 .f32 := broadcastInDim S4x4096x1024 ![] bcast_S_S4x4096x1024 main_cst_4
  let main_v16 : IVec S4x4096x1024 1 := cmpf .olt main_v14 main_v15
  fn_part1 (F := F) main_arg4 main_arg5 main_arg6 main_v13 main_v16
-- ==== Kernel.lean ====
abbrev S128x1024 : Shape := ⟨2, ![128, 1024]⟩
abbrev S4x128x1024 : Shape := ⟨3, ![4, 128, 1024]⟩
abbrev S4x4096x1024 : Shape := ⟨3, ![4, 4096, 1024]⟩
abbrev S4x4096 : Shape := ⟨2, ![4, 4096]⟩
abbrev S4x1x4096 : Shape := ⟨3, ![4, 1, 4096]⟩
abbrev S4x128x4096 : Shape := ⟨3, ![4, 128, 4096]⟩
abbrev S1x128x1024 : Shape := ⟨3, ![1, 128, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 14
  | .vmem => 27
  | .smem => 0
  | _ => 0

abbrev bufTy : (tb : Table) → Fin (tcTables nBuf tb) → BufTy
  | .hbm, ⟨0, _⟩ => ⟨S128x1024, .f32⟩
  | .hbm, ⟨1, _⟩ => ⟨S4x128x1024, .f32⟩
  | .hbm, ⟨2, _⟩ => ⟨S4x128x1024, .f32⟩
  | .hbm, ⟨3, _⟩ => ⟨S4x4096x1024, .f32⟩
  | .hbm, ⟨4, _⟩ => ⟨S4x4096x1024, .f32⟩
  | .hbm, ⟨5, _⟩ => ⟨S4x4096, .f32⟩
  | .hbm, ⟨6, _⟩ => ⟨S4x4096, .f32⟩
  | .hbm, ⟨7, _⟩ => ⟨S4x1x4096, .f32⟩
  | .hbm, ⟨8, _⟩ => ⟨S4x1x4096, .f32⟩
  | .hbm, ⟨9, _⟩ => ⟨S4x128x4096, .f32⟩
  | .hbm, ⟨10, _⟩ => ⟨S4x128x1024, .f32⟩
  | .hbm, ⟨11, _⟩ => ⟨S4x128x1024, .f32⟩
  | .hbm, ⟨12, _⟩ => ⟨S1x128x1024, .f32⟩
  | .hbm, ⟨13, _⟩ => ⟨S128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x128x1024, .f32⟩
  | .local _ .vmem, ⟨7, _⟩ => ⟨S1x128x1024, .f32⟩
  | .local _ .vmem, ⟨8, _⟩ => ⟨S128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S128x1024, .f32⟩
  | .local _ .vmem, ⟨22, _⟩ => ⟨S128x1024, .bf16⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc1_scratch4 : Ref sig .tc := ⟨.vmem, 25, rfl⟩
abbrev cc1_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def k1_cond7 (i : grid1.Coords) : BitVec 1 :=
  let arg1 : BitVec 32 := BitVec.ofNat 32 (i 1).val
  let c3_i32_19 : BitVec 32 := 3#32
  let v33 : BitVec 1 := Scalar.cmpi .eq arg1 c3_i32_19
  let v34 : BitVec 32 := Scalar.extui v33
  let c0_i32_20 : BitVec 32 := 0#32
  let v35 : BitVec 1 := Scalar.cmpi .ne v34 c0_i32_20
  v35

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S4x4096_S4x1x4096 : S4x4096.ShapeCasts S4x1x4096
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S128x1024 : S1x1024.Broadcasts S128x1024
  shapeCasts_S128x1024_S1x128x1024 : S128x1024.ShapeCasts S1x128x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  packedbf16_S128x1024_S128x1024_0_0 : (Rect.unit (s := S128x1024) ![0, 0] S128x1024.size inb_S128x1024_S128x1024_0_0).PackedRows (EltTy.packing .bf16)
  slices_S4x128x1024_S1x128x1024_3_0_0 : S4x128x1024.Slices ![3, 0, 0] S1x128x1024
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S4x128x1024.size a
  hwx0_0 : ∀ i : grid0.Coords, EltTy.bits .f32 = 32 ∨ (Rect.block (s := S4x128x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S4x4096x1024.size a
  hwx0_1 : ∀ i : grid0.Coords, EltTy.bits .f32 = 32 ∨ (Rect.block (s := S4x4096x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x4096.size a
  hwx0_2 : ∀ i : grid0.Coords, EltTy.bits .f32 = 32 ∨ (Rect.block (s := S4x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S4x128x4096.size a
  hwx0_3 : ∀ i : grid0.Coords, EltTy.bits .f32 = 32 ∨ (Rect.block (s := S4x128x4096) S1x128x1024.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S128x1024.size a
  hwx1_0 : ∀ i : grid1.Coords, EltTy.bits .f32 = 32 ∨ (Rect.block (s := S128x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x1024.size a ≤ S4x128x1024.size a
  hwx1_1 : ∀ i : grid1.Coords, EltTy.bits .f32 = 32 ∨ (Rect.block (s := S4x128x1024) S1x128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x4096x1024.size a
  hwx1_2 : ∀ i : grid1.Coords, EltTy.bits .f32 = 32 ∨ (Rect.block (s := S4x4096x1024) S1x1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S4x1x4096.size a
  hwx1_3 : ∀ i : grid1.Coords, EltTy.bits .f32 = 32 ∨ (Rect.block (s := S4x1x4096) S1x1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x1024.size a ≤ S4x128x4096.size a
  hwx1_4 : ∀ i : grid1.Coords, EltTy.bits .f32 = 32 ∨ (Rect.block (s := S4x128x4096) S1x128x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x1024.size a ≤ S4x128x1024.size a
  hwx1_5 : ∀ i : grid1.Coords, EltTy.bits .f32 = 32 ∨ (Rect.block (s := S4x128x1024) S1x128x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128x1024.size a ≤ S4x128x1024.size a
  hwx1_6 : ∀ i : grid1.Coords, EltTy.bits .f32 = 32 ∨ (Rect.block (s := S4x128x1024) S1x128x1024.size (cc1_transform_6 i) (hinb1_6 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_arg1) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S128x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S1x128x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S1x128x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond7 i == 1#1) | 6 => fun i => !(k1_cond7 i == 1#1) | ⟨_ + 7, h⟩ => absurd h (Nat.not_lt.2 (Nat.le_add_left _ _))

class Facts : Prop extends Facts₀ where

variable [Facts]
-- ==== ReferenceIdeal.lean ====
abbrev S128x1024 : Shape := ⟨2, ![128, 1024]⟩
abbrev S4x128x1024 : Shape := ⟨3, ![4, 128, 1024]⟩
abbrev S4x4096x1024 : Shape := ⟨3, ![4, 4096, 1024]⟩
abbrev S4x4096 : Shape := ⟨2, ![4, 4096]⟩
abbrev S1x128x1024 : Shape := ⟨3, ![1, 128, 1024]⟩
abbrev S1x4096x1024 : Shape := ⟨3, ![1, 4096, 1024]⟩
abbrev S4096x1024 : Shape := ⟨2, ![4096, 1024]⟩
abbrev S1x4096 : Shape := ⟨2, ![1, 4096]⟩
abbrev S4096 : Shape := ⟨1, ![4096]⟩
abbrev S1024x4096 : Shape := ⟨2, ![1024, 4096]⟩
abbrev S128x4096 : Shape := ⟨2, ![128, 4096]⟩
abbrev S_ : Shape := ⟨0, ![]⟩

abbrev nBuf : Space → Nat
  | .hbm => 245
  | .vmem => 0
  | .smem => 0
  | _ => 0

abbrev hbmTy0_0 (i : Nat) : BufTy := match i % 128 with
  | 0 => ⟨S128x1024, .f32⟩
  | 1 => ⟨S4x128x1024, .f32⟩
  | 2 => ⟨S4x128x1024, .f32⟩
  | 3 => ⟨S4x4096x1024, .f32⟩
  | 4 => ⟨S4x4096x1024, .f32⟩
  | 5 => ⟨S4x4096, .f32⟩
  | 6 => ⟨S4x4096, .f32⟩
  | 7 => ⟨S1x128x1024, .f32⟩
  | 8 => ⟨S128x1024, .f32⟩
  | 9 => ⟨S1x128x1024, .f32⟩
  | 10 => ⟨S128x1024, .f32⟩
  | 11 => ⟨S1x4096x1024, .f32⟩
  | 12 => ⟨S4096x1024, .f32⟩
  | 13 => ⟨S1x4096x1024, .f32⟩
  | 14 => ⟨S4096x1024, .f32⟩
  | 15 => ⟨S1x4096, .f32⟩
  | 16 => ⟨S4096, .f32⟩
  | 17 => ⟨S1x4096, .f32⟩
  | 18 => ⟨S4096, .f32⟩
  | 19 => ⟨S1024x4096, .f32⟩
  | 20 => ⟨S128x4096, .f32⟩
  | 21 => ⟨S1x4096, .f32⟩
  | 22 => ⟨S128x4096, .f32⟩
  | 23 => ⟨S128x4096, .f32⟩
  | 24 => ⟨S1024x4096, .f32⟩
  | 25 => ⟨S128x4096, .f32⟩
  | 26 => ⟨S128x4096, .f32⟩
  | 27 => ⟨S1x4096, .f32⟩
  | 28 => ⟨S128x4096, .f32⟩
  | 29 => ⟨S128x4096, .f32⟩
  | 30 => ⟨S128x1024, .f32⟩
  | 31 => ⟨S128x1024, .f32⟩
  | 32 => ⟨S128x1024, .f32⟩
  | 33 => ⟨S128x1024, .f32⟩
  | 34 => ⟨S128x1024, .f32⟩
  | 35 => ⟨S128x1024, .f32⟩
  | 36 => ⟨S_, .f32⟩
  | 37 => ⟨S128x1024, .f32⟩
  | 38 => ⟨S128x1024, .f32⟩
  | 39 => ⟨S_, .f32⟩
  | 40 => ⟨S128x1024, .f32⟩
  | 41 => ⟨S128x1024, .f32⟩
  | 42 => ⟨S128x1024, .f32⟩
  | 43 => ⟨S128x1024, .f32⟩
  | 44 => ⟨S_, .f32⟩
  | 45 => ⟨S128x1024, .f32⟩
  | 46 => ⟨S128x1024, .f32⟩
  | 47 => ⟨S_, .f32⟩
  | 48 => ⟨S128x1024, .f32⟩
  | 49 => ⟨S128x1024, .f32⟩
  | 50 => ⟨S128x1024, .f32⟩
  | 51 => ⟨S128x1024, .f32⟩
  | 52 => ⟨S128x1024, .f32⟩
  | 53 => ⟨S_, .f32⟩
  | 54 => ⟨S128x1024, .f32⟩
  | 55 => ⟨S128x1024, .f32⟩
  | 56 => ⟨S_, .f32⟩
  | 57 => ⟨S128x1024, .f32⟩
  | 58 => ⟨S128x1024, .f32⟩
  | 59 => ⟨S128x1024, .f32⟩
  | 60 => ⟨S128x1024, .f32⟩
  | 61 => ⟨S128x1024, .f32⟩
  | 62 => ⟨S128x1024, .f32⟩
  | 63 => ⟨S128x1024, .f32⟩
  | 64 => ⟨S1x128x1024, .f32⟩
  | 65 => ⟨S128x1024, .f32⟩
  | 66 => ⟨S1x128x1024, .f32⟩
  | 67 => ⟨S128x1024, .f32⟩
  | 68 => ⟨S1x4096x1024, .f32⟩
  | 69 => ⟨S4096x1024, .f32⟩
  | 70 => ⟨S1x4096x1024, .f32⟩
  | 71 => ⟨S4096x1024, .f32⟩
  | 72 => ⟨S1x4096, .f32⟩
  | 73 => ⟨S4096, .f32⟩
  | 74 => ⟨S1x4096, .f32⟩
  | 75 => ⟨S4096, .f32⟩
  | 76 => ⟨S1024x4096, .f32⟩
  | 77 => ⟨S128x4096, .f32⟩
  | 78 => ⟨S1x4096, .f32⟩
  | 79 => ⟨S128x4096, .f32⟩
  | 80 => ⟨S128x4096, .f32⟩
  | 81 => ⟨S1024x4096, .f32⟩
  | 82 => ⟨S128x4096, .f32⟩
  | 83 => ⟨S128x4096, .f32⟩
  | 84 => ⟨S1x4096, .f32⟩
  | 85 => ⟨S128x4096, .f32⟩
  | 86 => ⟨S128x4096, .f32⟩
  | 87 => ⟨S128x1024, .f32⟩
  | 88 => ⟨S128x1024, .f32⟩
  | 89 => ⟨S128x1024, .f32⟩
  | 90 => ⟨S128x1024, .f32⟩
  | 91 => ⟨S128x1024, .f32⟩
  | 92 => ⟨S128x1024, .f32⟩
  | 93 => ⟨S_, .f32⟩
  | 94 => ⟨S128x1024, .f32⟩
  | 95 => ⟨S128x1024, .f32⟩
  | 96 => ⟨S_, .f32⟩
  | 97 => ⟨S128x1024, .f32⟩
  | 98 => ⟨S128x1024, .f32⟩
  | 99 => ⟨S128x1024, .f32⟩
  | 100 => ⟨S128x1024, .f32⟩
  | 101 => ⟨S_, .f32⟩
  | 102 => ⟨S128x1024, .f32⟩
  | 103 => ⟨S128x1024, .f32⟩
  | 104 => ⟨S_, .f32⟩
  | 105 => ⟨S128x1024, .f32⟩
  | 106 => ⟨S128x1024, .f32⟩
  | 107 => ⟨S128x1024, .f32⟩
  | 108 => ⟨S128x1024, .f32⟩
  | 109 => ⟨S128x1024, .f32⟩
  | 110 => ⟨S_, .f32⟩
  | 111 => ⟨S128x1024, .f32⟩
  | 112 => ⟨S128x1024, .f32⟩
  | 113 => ⟨S_, .f32⟩
  | 114 => ⟨S128x1024, .f32⟩
  | 115 => ⟨S128x1024, .f32⟩
  | 116 => ⟨S128x1024, .f32⟩
  | 117 => ⟨S128x1024, .f32⟩
  | 118 => ⟨S128x1024, .f32⟩
  | 119 => ⟨S128x1024, .f32⟩
  | 120 => ⟨S128x1024, .f32⟩
  | 121 => ⟨S1x128x1024, .f32⟩
  | 122 => ⟨S128x1024, .f32⟩
  | 123 => ⟨S1x128x1024, .f32⟩
  | 124 => ⟨S128x1024, .f32⟩
  | 125 => ⟨S1x4096x1024, .f32⟩
  | 126 => ⟨S4096x1024, .f32⟩
  | 127 => ⟨S1x4096x1024, .f32⟩
  | _ => ⟨S128x1024, .f32⟩

abbrev hbmTy0_1 (i : Nat) : BufTy := match i % 128 with
  | 0 => ⟨S4096x1024, .f32⟩
  | 1 => ⟨S1x4096, .f32⟩
  | 2 => ⟨S4096, .f32⟩
  | 3 => ⟨S1x4096, .f32⟩
  | 4 => ⟨S4096, .f32⟩
  | 5 => ⟨S1024x4096, .f32⟩
  | 6 => ⟨S128x4096, .f32⟩
  | 7 => ⟨S1x4096, .f32⟩
  | 8 => ⟨S128x4096, .f32⟩
  | 9 => ⟨S128x4096, .f32⟩
  | 10 => ⟨S1024x4096, .f32⟩
  | 11 => ⟨S128x4096, .f32⟩
  | 12 => ⟨S128x4096, .f32⟩
  | 13 => ⟨S1x4096, .f32⟩
  | 14 => ⟨S128x4096, .f32⟩
  | 15 => ⟨S128x4096, .f32⟩
  | 16 => ⟨S128x1024, .f32⟩
  | 17 => ⟨S128x1024, .f32⟩
  | 18 => ⟨S128x1024, .f32⟩
  | 19 => ⟨S128x1024, .f32⟩
  | 20 => ⟨S128x1024, .f32⟩
  | 21 => ⟨S128x1024, .f32⟩
  | 22 => ⟨S_, .f32⟩
  | 23 => ⟨S128x1024, .f32⟩
  | 24 => ⟨S128x1024, .f32⟩
  | 25 => ⟨S_, .f32⟩
  | 26 => ⟨S128x1024, .f32⟩
  | 27 => ⟨S128x1024, .f32⟩
  | 28 => ⟨S128x1024, .f32⟩
  | 29 => ⟨S128x1024, .f32⟩
  | 30 => ⟨S_, .f32⟩
  | 31 => ⟨S128x1024, .f32⟩
  | 32 => ⟨S128x1024, .f32⟩
  | 33 => ⟨S_, .f32⟩
  | 34 => ⟨S128x1024, .f32⟩
  | 35 => ⟨S128x1024, .f32⟩
  | 36 => ⟨S128x1024, .f32⟩
  | 37 => ⟨S128x1024, .f32⟩
  | 38 => ⟨S128x1024, .f32⟩
  | 39 => ⟨S_, .f32⟩
  | 40 => ⟨S128x1024, .f32⟩
  | 41 => ⟨S128x1024, .f32⟩
  | 42 => ⟨S_, .f32⟩
  | 43 => ⟨S128x1024, .f32⟩
  | 44 => ⟨S128x1024, .f32⟩
  | 45 => ⟨S128x1024, .f32⟩
  | 46 => ⟨S128x1024, .f32⟩
  | 47 => ⟨S128x1024, .f32⟩
  | 48 => ⟨S128x1024, .f32⟩
  | 49 => ⟨S128x1024, .f32⟩
  | 50 => ⟨S1x128x1024, .f32⟩
  | 51 => ⟨S128x1024, .f32⟩
  | 52 => ⟨S1x128x1024, .f32⟩
  | 53 => ⟨S128x1024, .f32⟩
  | 54 => ⟨S1x4096x1024, .f32⟩
  | 55 => ⟨S4096x1024, .f32⟩
  | 56 => ⟨S1x4096x1024, .f32⟩
  | 57 => ⟨S4096x1024, .f32⟩
  | 58 => ⟨S1x4096, .f32⟩
  | 59 => ⟨S4096, .f32⟩
  | 60 => ⟨S1x4096, .f32⟩
  | 61 => ⟨S4096, .f32⟩
  | 62 => ⟨S1024x4096, .f32⟩
  | 63 => ⟨S128x4096, .f32⟩
  | 64 => ⟨S1x4096, .f32⟩
  | 65 => ⟨S128x4096, .f32⟩
  | 66 => ⟨S128x4096, .f32⟩
  | 67 => ⟨S1024x4096, .f32⟩
  | 68 => ⟨S128x4096, .f32⟩
  | 69 => ⟨S128x4096, .f32⟩
  | 70 => ⟨S1x4096, .f32⟩
  | 71 => ⟨S128x4096, .f32⟩
  | 72 => ⟨S128x4096, .f32⟩
  | 73 => ⟨S128x1024, .f32⟩
  | 74 => ⟨S128x1024, .f32⟩
  | 75 => ⟨S128x1024, .f32⟩
  | 76 => ⟨S128x1024, .f32⟩
  | 77 => ⟨S128x1024, .f32⟩
  | 78 => ⟨S128x1024, .f32⟩
  | 79 => ⟨S_, .f32⟩
  | 80 => ⟨S128x1024, .f32⟩
  | 81 => ⟨S128x1024, .f32⟩
  | 82 => ⟨S_, .f32⟩
  | 83 => ⟨S128x1024, .f32⟩
  | 84 => ⟨S128x1024, .f32⟩
  | 85 => ⟨S128x1024, .f32⟩
  | 86 => ⟨S128x1024, .f32⟩
  | 87 => ⟨S_, .f32⟩
  | 88 => ⟨S128x1024, .f32⟩
  | 89 => ⟨S128x1024, .f32⟩
  | 90 => ⟨S_, .f32⟩
  | 91 => ⟨S128x1024, .f32⟩
  | 92 => ⟨S128x1024, .f32⟩
  | 93 => ⟨S128x1024, .f32⟩
  | 94 => ⟨S128x1024, .f32⟩
  | 95 => ⟨S128x1024, .f32⟩
  | 96 => ⟨S_, .f32⟩
  | 97 => ⟨S128x1024, .f32⟩
  | 98 => ⟨S128x1024, .f32⟩
  | 99 => ⟨S_, .f32⟩
  | 100 => ⟨S128x1024, .f32⟩
  | 101 => ⟨S128x1024, .f32⟩
  | 102 => ⟨S128x1024, .f32⟩
  | 103 => ⟨S128x1024, .f32⟩
  | 104 => ⟨S128x1024, .f32⟩
  | 105 => ⟨S128x1024, .f32⟩
  | 106 => ⟨S128x1024, .f32⟩
  | 107 => ⟨S1x128x1024, .f32⟩
  | 108 => ⟨S1x128x1024, .f32⟩
  | 109 => ⟨S1x128x1024, .f32⟩
  | 110 => ⟨S1x128x1024, .f32⟩
  | 111 => ⟨S4x128x1024, .f32⟩
  | 112 => ⟨S1x128x1024, .f32⟩
  | 113 => ⟨S1x128x1024, .f32⟩
  | 114 => ⟨S1x128x1024, .f32⟩
  | 115 => ⟨S1x128x1024, .f32⟩
  | 116 => ⟨S4x128x1024, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_5 : Ref sig .tc := ⟨.hbm, 93, rfl⟩
abbrev main_v80 : Ref sig .tc := ⟨.hbm, 94, rfl⟩
abbrev main_v81 : Ref sig .tc := ⟨.hbm, 95, rfl⟩
abbrev main_cst_6 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_7 : Ref sig .tc := ⟨.hbm, 101, rfl⟩
abbrev main_v86 : Ref sig .tc := ⟨.hbm, 102, rfl⟩
abbrev main_v87 : Ref sig .tc := ⟨.hbm, 103, rfl⟩
abbrev main_cst_8 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_9 : Ref sig .tc := ⟨.hbm, 110, rfl⟩
abbrev main_v93 : Ref sig .tc := ⟨.hbm, 111, rfl⟩
abbrev main_v94 : Ref sig .tc := ⟨.hbm, 112, rfl⟩
abbrev main_cst_10 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_cst_11 : Ref sig .tc := ⟨.hbm, 150, rfl⟩
abbrev main_v131 : Ref sig .tc := ⟨.hbm, 151, rfl⟩
abbrev main_v132 : Ref sig .tc := ⟨.hbm, 152, rfl⟩
abbrev main_cst_12 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_cst_13 : Ref sig .tc := ⟨.hbm, 158, rfl⟩
abbrev main_v137 : Ref sig .tc := ⟨.hbm, 159, rfl⟩
abbrev main_v138 : Ref sig .tc := ⟨.hbm, 160, rfl⟩
abbrev main_cst_14 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_cst_15 : Ref sig .tc := ⟨.hbm, 167, rfl⟩
abbrev main_v144 : Ref sig .tc := ⟨.hbm, 168, rfl⟩
abbrev main_v145 : Ref sig .tc := ⟨.hbm, 169, rfl⟩
abbrev main_cst_16 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_cst_17 : Ref sig .tc := ⟨.hbm, 207, rfl⟩
abbrev main_v182 : Ref sig .tc := ⟨.hbm, 208, rfl⟩
abbrev main_v183 : Ref sig .tc := ⟨.hbm, 209, rfl⟩
abbrev main_cst_18 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_cst_19 : Ref sig .tc := ⟨.hbm, 215, rfl⟩
abbrev main_v188 : Ref sig .tc := ⟨.hbm, 216, rfl⟩
abbrev main_v189 : Ref sig .tc := ⟨.hbm, 217, rfl⟩
abbrev main_cst_20 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_cst_21 : Ref sig .tc := ⟨.hbm, 224, rfl⟩
abbrev main_v195 : Ref sig .tc := ⟨.hbm, 225, rfl⟩
abbrev main_v196 : Ref sig .tc := ⟨.hbm, 226, rfl⟩
abbrev main_cst_22 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩

abbrev nD : Nat := 1
abbrev τ : Topo := Topo.v7x

variable {F : FTy → Type} [FloatOps F]

class Facts₀ : Prop where
  slices_S4x128x1024_S1x128x1024_0_0_0 : S4x128x1024.Slices ![0, 0, 0] S1x128x1024
  shapeCasts_S1x128x1024_S128x1024 : S1x128x1024.ShapeCasts S128x1024
  slices_S4x4096x1024_S1x4096x1024_0_0_0 : S4x4096x1024.Slices ![0, 0, 0] S1x4096x1024
  shapeCasts_S1x4096x1024_S4096x1024 : S1x4096x1024.ShapeCasts S4096x1024
  slices_S4x4096_S1x4096_0_0 : S4x4096.Slices ![0, 0] S1x4096
  shapeCasts_S1x4096_S4096 : S1x4096.ShapeCasts S4096
  transposes_S4096x1024_S1024x4096_1_0 : S4096x1024.Transposes [1, 0] S1024x4096
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  slices_S128x4096_S128x1024_0_0 : S128x4096.Slices ![0, 0] S128x1024
  slices_S128x4096_S128x1024_0_1024 : S128x4096.Slices ![0, 1024] S128x1024
  slices_S128x4096_S128x1024_0_2048 : S128x4096.Slices ![0, 2048] S128x1024
  slices_S128x4096_S128x1024_0_3072 : S128x4096.Slices ![0, 3072] S128x1024
  bcast_S_S128x1024 : S_.BroadcastsInDim S128x1024 (![] : Fin 0 → Fin S128x1024.rank)
  slices_S4x128x1024_S1x128x1024_1_0_0 : S4x128x1024.Slices ![1, 0, 0] S1x128x1024
  slices_S4x4096x1024_S1x4096x1024_1_0_0 : S4x4096x1024.Slices ![1, 0, 0] S1x4096x1024
  slices_S4x4096_S1x4096_1_0 : S4x4096.Slices ![1, 0] S1x4096
  slices_S4x128x1024_S1x128x1024_2_0_0 : S4x128x1024.Slices ![2, 0, 0] S1x128x1024
  slices_S4x4096x1024_S1x4096x1024_2_0_0 : S4x4096x1024.Slices ![2, 0, 0] S1x4096x1024
  slices_S4x4096_S1x4096_2_0 : S4x4096.Slices ![2, 0] S1x4096
  slices_S4x128x1024_S1x128x1024_3_0_0 : S4x128x1024.Slices ![3, 0, 0] S1x128x1024
  slices_S4x4096x1024_S1x4096x1024_3_0_0 : S4x4096x1024.Slices ![3, 0, 0] S1x4096x1024
  slices_S4x4096_S1x4096_3_0 : S4x4096.Slices ![3, 0] S1x4096
  bcast_S128x1024_S1x128x1024_1_2 : S128x1024.BroadcastsInDim S1x128x1024 (![1, 2] : Fin 2 → Fin S1x128x1024.rank)
  concatenates_S1x128x1024_S1x128x1024_S1x128x1024_S1x128x1024_S4x128x1024_d0 : Shape.Concatenates [S1x128x1024, S1x128x1024, S1x128x1024, S1x128x1024] S4x128x1024 0
  dot_S128x1024_S1024x4096_S128x4096_1_0_0_1_n_n_wf : DotDims.WF S128x1024 S1024x4096 S128x4096 [1] [0] [0] [1] [] []

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

class Facts : Prop extends Facts₀ where

variable [Facts]
-- ==== Proof.K.Zhh.lean ====
/-
  The recurrent pre-activation kernel as a pipeline region, at the buffer contents the region is entered with.

  The region walks a 4 × 4 grid (layer, gate). At each point its body reads three blocks whole — the layer's old
  hidden state (128 × 1024), the gate's 1024 rows of the layer's recurrent weights (1024 × 1024) and the gate's
  1024 entries of the layer's reshaped recurrent bias — and stores, whole, the product of the first against the
  transposed second plus the bias row repeated down the 128 rows. This file states what the body leaves in each
  window's buffer as a function of the blocks it read, proves the body's triple, and packages both as the proof
  data of the pipeline with the body obligation the launch theorems ask for. Everything is generic in the
  float model.
-/
import proofs.«115084_j79534204387582_2_alg».proof.Proof.Gen.Kernel.Launch
import proofs.«115084_j79534204387582_2_alg».proof.Proof.Gen.Kernel.Skeleton
import proofs.«115084_j79534204387582_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers when the region is entered
variable (V : (c : Dev nD) → (b : Ref sig .tc) → Buf (Elt F) ((c : Thread nD τ).loc b))

/-! ## The blocks the windows show -/

/-- The block window `w` shows at grid point `t`, cut out of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The hidden-state window's buffer holds the layer's block at every point, although it is fetched only when
    the layer changes: between fetches the block index does not move and the body leaves the buffer alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the (layer, gate) block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window's buffer holds the (layer, gate) block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each buffer whole -/

abbrev rH : Rect S1x128x1024 := Rect.unit (s := S1x128x1024) ![0, 0, 0] S1x128x1024.size inb_S1x128x1024_S1x128x1024_0_0_0
abbrev rW : Rect S1x1024x1024 := Rect.unit (s := S1x1024x1024) ![0, 0, 0] S1x1024x1024.size inb_S1x1024x1024_S1x1024x1024_0_0_0
abbrev rB : Rect S1x1x1024 := Rect.unit (s := S1x1x1024) ![0, 0, 0] S1x1x1024.size inb_S1x1x1024_S1x1x1024_0_0_0

/-! ## What the body leaves in the output window's buffer -/

/-- The output buffer after the body, from the three blocks read: one store of the whole buffer, whose value is
    the product-plus-bias of the three loads. -/
def out0_3 (x0 : Vec F S1x128x1024 .f32) (x1 : Vec F S1x1024x1024 .f32) (x2 : Vec F S1x1x1024 .f32) : Vec F S1x128x1024 .f32 :=
  View.canon [⟨rH, k0_pay1 (View.ld x0 rH) (View.ld x1 rW) (View.ld x2 rB)⟩]

/-- The one store covers the buffer. -/
theorem cover0_3 (p0 : Vec F S1x128x1024 .f32) (y : S1x128x1024.Idx) :
    ∃ pc ∈ ([⟨rH, p0⟩] : List (View.Piece (Elt F) S1x128x1024 .f32)), y ∈ pc.1.set :=
  View.cover_of_tiled [⟨rH, p0⟩] S1x128x1024.size (by rfl) y

/-! ## The body's triple -/

set_option maxHeartbeats 1000000 in
/-- The body, run on whole buffers holding `x0`, `x1`, `x2` and an output buffer holding anything, ends with the
    three inputs as they were and the output at `out0_3 x0 x1 x2`. -/
theorem sound_kernel0 (c : Dev nD) (E : Set ℕ) (i : grid0.Coords)
    (arg2 : Memref sig .tc .vmem S1x128x1024 .f32) (harg2 : arg2.IsWhole)
    (arg3 : Memref sig .tc .vmem S1x1024x1024 .f32) (harg3 : arg3.IsWhole)
    (arg4 : Memref sig .tc .vmem S1x1x1024 .f32) (harg4 : arg4.IsWhole)
    (arg5 : Memref sig .tc .vmem S1x128x1024 .f32) (harg5 : arg5.IsWhole)
    (x0 : Vec F S1x128x1024 .f32) (x1 : Vec F S1x1024x1024 .f32) (x2 : Vec F S1x1x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out0_3 x0 x1 x2)) -∗ K ⟨⟩))
      ⊢ wp frame (wpE (defs₀ (F := F)) Variants.none c none) E (cc0__zhh_kernel i arg2 harg2 arg3 harg3 arg4 harg4 arg5 harg5) K := by
  simp only [cc0__zhh_kernel_eq_skeleton]; unfold cc0__zhh_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them; after the body at point `t`
    each input's buffer still at its block and the output's at `out0_3` of the three blocks; the invariant the
    one that carries the untouched scoped buffers and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's buffer holds its block when the body is called, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.CellDefs.lean ====
/-
  The recurrent kernel's grid, point by point: which of its seven guarded blocks run where, where its two output
  windows are idle, and the buffers its body is called with.

  The grid is 4 layers × 4 gates, the gate varying fastest, so point t is layer t / 4, gate t % 4. The body's guards
  are comparisons of the two grid coordinates with literals; over the 16 points each holds exactly on one residue
  class of t modulo 4 (the very first point for the seeding of the carried input). The output windows (new hidden
  state, new cell state) are stored only at gate 3 and written back only there.
-/
import proofs.«115084_j79534204387582_2_alg».proof.Proof.Gen.Kernel.Launch
import proofs.«115084_j79534204387582_2_alg».proof.Proof.Gen.Kernel.Skeleton
import proofs.«115084_j79534204387582_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The guards, from the grid coordinates -/

/-- "First layer and first gate": the carried input is seeded from the data. -/
abbrev gSeed (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- "Gate 0" (the input gate; also where the input is rounded once for the layer). -/
abbrev gate0 (i : grid1.Coords) : Prop := Scalar.cmpi .ne (Scalar.extui (Scalar.cmpi .eq (BitVec.ofNat 32 (i 1).val) 0#32)) 0#32 = 1#1
/-- "Gate 1" (the forget gate). -/
abbrev gate1 (i : grid1.Coords) : Prop := Scalar.cmpi .ne (Scalar.extui (Scalar.cmpi .eq (BitVec.ofNat 32 (i 1).val) 1#32)) 0#32 = 1#1
/-- "Gate 2" (the cell candidate). -/
abbrev gate2 (i : grid1.Coords) : Prop := Scalar.cmpi .ne (Scalar.extui (Scalar.cmpi .eq (BitVec.ofNat 32 (i 1).val) 2#32)) 0#32 = 1#1
/-- "Gate 3" (the output gate). -/
abbrev gate3 (i : grid1.Coords) : Prop := Scalar.cmpi .ne (Scalar.extui (Scalar.cmpi .eq (BitVec.ofNat 32 (i 1).val) 3#32)) 0#32 = 1#1
/-- "Last gate": the layer's states are combined and stored. -/
abbrev gLast (i : grid1.Coords) : Prop := k1_cond7 i = 1#1

theorem hSeed : ∀ t : Fin cfg1.N, gSeed (grid1.coords t) ↔ t.val = 0 :=
  (by decide +kernel : ∀ t : Fin grid1.N, gSeed (grid1.coords t) ↔ t.val = 0)
theorem hGate0 : ∀ t : Fin cfg1.N, gate0 (grid1.coords t) ↔ t.val % 4 = 0 :=
  (by decide +kernel : ∀ t : Fin grid1.N, gate0 (grid1.coords t) ↔ t.val % 4 = 0)
theorem hGate1 : ∀ t : Fin cfg1.N, gate1 (grid1.coords t) ↔ t.val % 4 = 1 :=
  (by decide +kernel : ∀ t : Fin grid1.N, gate1 (grid1.coords t) ↔ t.val % 4 = 1)
theorem hGate2 : ∀ t : Fin cfg1.N, gate2 (grid1.coords t) ↔ t.val % 4 = 2 :=
  (by decide +kernel : ∀ t : Fin grid1.N, gate2 (grid1.coords t) ↔ t.val % 4 = 2)
theorem hGate3 : ∀ t : Fin cfg1.N, gate3 (grid1.coords t) ↔ t.val % 4 = 3 :=
  (by decide +kernel : ∀ t : Fin grid1.N, gate3 (grid1.coords t) ↔ t.val % 4 = 3)
theorem hLast : ∀ t : Fin cfg1.N, gLast (grid1.coords t) ↔ t.val % 4 = 3 :=
  (by decide +kernel : ∀ t : Fin grid1.N, gLast (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- Away from gate 3 the two output windows are idle and not written back. -/
theorem idle1_5 : ∀ t : Fin cfg1.N, ¬ t.val % 4 = 3 → cfg1.idle 5 (grid1.coords t) = true := by decide +kernel
theorem idle1_6 : ∀ t : Fin cfg1.N, ¬ t.val % 4 = 3 → cfg1.idle 6 (grid1.coords t) = true := by decide +kernel
theorem noFlush1_5 : ∀ t : Fin cfg1.N, ¬ t.val % 4 = 3 → (cfg1.win 5).flush t = false := by decide +kernel
theorem noFlush1_6 : ∀ t : Fin cfg1.N, ¬ t.val % 4 = 3 → (cfg1.win 6).flush t = false := by decide +kernel
/-- At gate 3 they are live. -/
theorem live1_5 : ∀ t : Fin cfg1.N, t.val % 4 = 3 → cfg1.idle 5 (grid1.coords t) = false := by decide +kernel
theorem live1_6 : ∀ t : Fin cfg1.N, t.val % 4 = 3 → cfg1.idle 6 (grid1.coords t) = false := by decide +kernel

/-! ## The buffers the body is called with -/

abbrev ms1_0 (t : Fin cfg1.N) : Memref sig .tc .vmem S128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128x1024 .f32 := win1_6.stage (cfg1.slots t 6)
abbrev hs1_6 (t : Fin cfg1.N) : (ms1_6 t).IsWhole := hstage1_6 ((cfg1.slots t 6).cast nbuf1_6)

/-- The six scratch buffers: the carried input, its rounded copy, and the four gates' activations. -/
abbrev scInp : Memref sig .tc .vmem S128x1024 .f32 := Memref.whole cc1_scratch0
abbrev scInpB : Memref sig .tc .vmem S128x1024 .bf16 := Memref.whole cc1_scratch1
abbrev scI : Memref sig .tc .vmem S128x1024 .f32 := Memref.whole cc1_scratch2
abbrev scF : Memref sig .tc .vmem S128x1024 .f32 := Memref.whole cc1_scratch3
abbrev scG : Memref sig .tc .vmem S128x1024 .f32 := Memref.whole cc1_scratch4
abbrev scO : Memref sig .tc .vmem S128x1024 .f32 := Memref.whole cc1_scratch5

/-- One staging buffer of each output window, through which its contents are stated. -/
abbrev VO5 : View sig .tc .vmem S1x128x1024 .f32 := (Memref.whole cc1_stg5_0 : Memref sig .tc .vmem S1x128x1024 .f32).view
abbrev VO6 : View sig .tc .vmem S1x128x1024 .f32 := (Memref.whole cc1_stg6_0 : Memref sig .tc .vmem S1x128x1024 .f32).view

/-- The eight staging buffers of the other kernel, which this kernel never touches, each at some contents. -/
def otherStaging (c : Dev nD) : sProp 𝕄 :=
  iprop((∃ d, owns (c : Thread nD τ) (Memref.whole cc0_stg0_0 : Memref sig .tc .vmem S1x128x1024 .f32) fullShare d)
    ∗ (∃ d, owns (c : Thread nD τ) (Memref.whole cc0_stg0_1 : Memref sig .tc .vmem S1x128x1024 .f32) fullShare d)
    ∗ (∃ d, owns (c : Thread nD τ) (Memref.whole cc0_stg1_0 : Memref sig .tc .vmem S1x1024x1024 .f32) fullShare d)
    ∗ (∃ d, owns (c : Thread nD τ) (Memref.whole cc0_stg1_1 : Memref sig .tc .vmem S1x1024x1024 .f32) fullShare d)
    ∗ (∃ d, owns (c : Thread nD τ) (Memref.whole cc0_stg2_0 : Memref sig .tc .vmem S1x1x1024 .f32) fullShare d)
    ∗ (∃ d, owns (c : Thread nD τ) (Memref.whole cc0_stg2_1 : Memref sig .tc .vmem S1x1x1024 .f32) fullShare d)
    ∗ (∃ d, owns (c : Thread nD τ) (Memref.whole cc0_stg3_0 : Memref sig .tc .vmem S1x128x1024 .f32) fullShare d)
    ∗ (∃ d, owns (c : Thread nD τ) (Memref.whole cc0_stg3_1 : Memref sig .tc .vmem S1x128x1024 .f32) fullShare d))

/-- The class invariant opened: the other kernel's staging buffers, the six scratch buffers each at some contents, the
    generator register at some state. -/
theorem PhiA1_eq (c : Dev nD) :
    (Pipeline.ΦA spec1 c : sProp 𝕄)
      = iprop(iprop((∃ d, owns (c : Thread nD τ) (Memref.whole cc0_stg0_0 : Memref sig .tc .vmem S1x128x1024 .f32) fullShare d)
          ∗ (∃ d, owns (c : Thread nD τ) (Memref.whole cc0_stg0_1 : Memref sig .tc .vmem S1x128x1024 .f32) fullShare d)
          ∗ (∃ d, owns (c : Thread nD τ) (Memref.whole cc0_stg1_0 : Memref sig .tc .vmem S1x1024x1024 .f32) fullShare d)
          ∗ (∃ d, owns (c : Thread nD τ) (Memref.whole cc0_stg1_1 : Memref sig .tc .vmem S1x1024x1024 .f32) fullShare d)
          ∗ (∃ d, owns (c : Thread nD τ) (Memref.whole cc0_stg2_0 : Memref sig .tc .vmem S1x1x1024 .f32) fullShare d)
          ∗ (∃ d, owns (c : Thread nD τ) (Memref.whole cc0_stg2_1 : Memref sig .tc .vmem S1x1x1024 .f32) fullShare d)
          ∗ (∃ d, owns (c : Thread nD τ) (Memref.whole cc0_stg3_0 : Memref sig .tc .vmem S1x128x1024 .f32) fullShare d)
          ∗ (∃ d, owns (c : Thread nD τ) (Memref.whole cc0_stg3_1 : Memref sig .tc .vmem S1x128x1024 .f32) fullShare d)
          ∗ (∃ d, owns (c : Thread nD τ) scInp fullShare d)
          ∗ (∃ d, owns (c : Thread nD τ) scInpB fullShare d)
          ∗ (∃ d, owns (c : Thread nD τ) scI fullShare d)
          ∗ (∃ d, owns (c : Thread nD τ) scF fullShare d)
          ∗ (∃ d, owns (c : Thread nD τ) scG fullShare d)
          ∗ (∃ d, owns (c : Thread nD τ) scO fullShare d)) ∗ (∃ r, prngReg c r)) := by
  unfold Pipeline.ΦA; rw [scopedRest1_eq]; simp only [scInp, scInpB, scI, scF, scG, scO, owns_whole]; try rfl

/-- The same with the other kernel's buffers as one group. -/
theorem PhiA1_split (c : Dev nD) :
    (Pipeline.ΦA spec1 c : sProp 𝕄)
      ⊢ iprop(otherStaging (F := F) c ∗ (∃ d, owns (c : Thread nD τ) scInp fullShare d) ∗ (∃ d, owns (c : Thread nD τ) scInpB fullShare d) ∗ (∃ d, owns (c : Thread nD τ) scI fullShare d) ∗ (∃ d, owns (c : Thread nD τ) scF fullShare d) ∗ (∃ d, owns (c : Thread nD τ) scG fullShare d) ∗ (∃ d, owns (c : Thread nD τ) scO fullShare d) ∗ (∃ r, prngReg c r)) := by
  rw [PhiA1_eq]; unfold otherStaging
  iintro ⟨⟨H0, H1, H2, H3, H4, H5, H6, H7, H8, H9, H10, H11, H12, H13⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexact H9
  isplitl [H10]; · iexact H10
  isplitl [H11]; · iexact H11
  isplitl [H12]; · iexact H12
  isplitl [H13]; · iexact H13
  iexact Hg

theorem PhiA1_join (c : Dev nD) :
    iprop(otherStaging (F := F) c ∗ (∃ d, owns (c : Thread nD τ) scInp fullShare d) ∗ (∃ d, owns (c : Thread nD τ) scInpB fullShare d) ∗ (∃ d, owns (c : Thread nD τ) scI fullShare d) ∗ (∃ d, owns (c : Thread nD τ) scF fullShare d) ∗ (∃ d, owns (c : Thread nD τ) scG fullShare d) ∗ (∃ d, owns (c : Thread nD τ) scO fullShare d) ∗ (∃ r, prngReg c r))
      ⊢ (Pipeline.ΦA spec1 c : sProp 𝕄) := by
  rw [PhiA1_eq]; unfold otherStaging
  iintro ⟨⟨H0, H1, H2, H3, H4, H5, H6, H7⟩, H8, H9, H10, H11, H12, H13, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact Hg

end Cert.Kernel.Hand

end
-- ==== Proof.K.RunA.lean ====
/-
  The recurrent kernel's body run once, in the control case of the very first point: the carried input is seeded from the data, rounded, and the input gate is stored.

  The run is stated on any whole buffers: the buffers the case reads hold given contents and keep them; each buffer
  the case stores into is handed over at anything and comes back with the case's stores applied, as a list of pieces
  (last store first) that the symbolic run itself determines. Buffers the case does not touch are not mentioned.
-/
import proofs.«115084_j79534204387582_2_alg».proof.Proof.K.CellDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S128x1024 .f32) (harg2 : arg2.IsWhole) (arg3 : Memref sig .tc .vmem S1x128x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole)

set_option maxHeartbeats 4000000 in
/-- The body in this case: the pieces each stored buffer ends with, and the proof that the body runs to its
    continuation with exactly those pieces written. -/
noncomputable def runA (hS : gSeed i) (h0 : gate0 i) (h1 : ¬gate1 i) (h2 : ¬gate2 i) (h3 : ¬gate3 i) (hL : ¬gLast i)
    (x0 : Vec F S128x1024 .f32) (x2 : Vec F S1x1024x1024 .f32) (x3 : Vec F S1x1x1024 .f32) (x4 : Vec F S1x128x1024 .f32) :
    Σ' (L9 : List (View.Piece (Elt F) S128x1024 .f32)) (L10 : List (View.Piece (Elt F) S128x1024 .bf16)), { L11 : List (View.Piece (Elt F) S128x1024 .f32) //
      ∀ (E : Set ℕ) (K : PUnit → sProp 𝕄),
        iprop(owns (c : Thread nD τ) arg2 fullShare x0
            ∗ owns (c : Thread nD τ) arg4 fullShare x2
            ∗ owns (c : Thread nD τ) arg5 fullShare x3
            ∗ owns (c : Thread nD τ) arg6 fullShare x4
            ∗ (∃ d, owns (c : Thread nD τ) arg9 fullShare d)
            ∗ (∃ d, owns (c : Thread nD τ) arg10 fullShare d)
            ∗ (∃ d, owns (c : Thread nD τ) arg11 fullShare d)
            ∗ (iprop(owns (c : Thread nD τ) arg2 fullShare x0
                ∗ owns (c : Thread nD τ) arg4 fullShare x2
                ∗ owns (c : Thread nD τ) arg5 fullShare x3
                ∗ owns (c : Thread nD τ) arg6 fullShare x4
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)) -∗ K ⟨⟩))
          ⊢ wp frame (wpE (defs₀ (F := F)) Variants.none c none) E (cc1__lstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc1__lstm_kernel_eq_skeleton]; unfold cc1__lstm_kernel_skel
    simp only [k1_part1_eq_skeleton]
    unfold owns
    iintro ⟨⟨%f2, %hf2, H2⟩, ⟨%f4, %hf4, H4⟩, ⟨%f5, %hf5, H5⟩, ⟨%f6, %hf6, H6⟩, ⟨%d9, %f9, -, H9⟩, ⟨%d10, %f10, -, H10⟩, ⟨%d11, %f11, -, H11⟩, Hk⟩
    obtain rfl := harg2.eq_unread hf2; obtain rfl := harg4.eq_unread hf4; obtain rfl := harg5.eq_unread hf5; obtain rfl := harg6.eq_unread hf6
    sl_exec (disch := first | exact hS | exact h0 | exact h1 | exact h2 | exact h3 | exact hL)
    sl_step
    iapply Hk
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H9]; · iexists _; iexact H9
    isplitl [H10]; · iexists _; iexact H10
    iexists _; iexact H11

end Cert.Kernel.Hand

end
-- ==== Proof.K.RunB.lean ====
/-
  The recurrent kernel's body run once, in the control case of gate 0 of a later layer: the carried input (the layer below's new hidden state) is rounded and the input gate is stored.

  The run is stated on any whole buffers: the buffers the case reads hold given contents and keep them; each buffer
  the case stores into is handed over at anything and comes back with the case's stores applied, as a list of pieces
  (last store first) that the symbolic run itself determines. Buffers the case does not touch are not mentioned.
-/
import proofs.«115084_j79534204387582_2_alg».proof.Proof.K.CellDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S128x1024 .f32) (harg2 : arg2.IsWhole) (arg3 : Memref sig .tc .vmem S1x128x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole)

set_option maxHeartbeats 4000000 in
/-- The body in this case: the pieces each stored buffer ends with, and the proof that the body runs to its
    continuation with exactly those pieces written. -/
noncomputable def runB (hS : ¬gSeed i) (h0 : gate0 i) (h1 : ¬gate1 i) (h2 : ¬gate2 i) (h3 : ¬gate3 i) (hL : ¬gLast i)
    (xs : Vec F S128x1024 .f32) (x2 : Vec F S1x1024x1024 .f32) (x3 : Vec F S1x1x1024 .f32) (x4 : Vec F S1x128x1024 .f32) :
    Σ' (L10 : List (View.Piece (Elt F) S128x1024 .bf16)), { L11 : List (View.Piece (Elt F) S128x1024 .f32) //
      ∀ (E : Set ℕ) (K : PUnit → sProp 𝕄),
        iprop(owns (c : Thread nD τ) arg9 fullShare xs
            ∗ owns (c : Thread nD τ) arg4 fullShare x2
            ∗ owns (c : Thread nD τ) arg5 fullShare x3
            ∗ owns (c : Thread nD τ) arg6 fullShare x4
            ∗ (∃ d, owns (c : Thread nD τ) arg10 fullShare d)
            ∗ (∃ d, owns (c : Thread nD τ) arg11 fullShare d)
            ∗ (iprop(owns (c : Thread nD τ) arg9 fullShare xs
                ∗ owns (c : Thread nD τ) arg4 fullShare x2
                ∗ owns (c : Thread nD τ) arg5 fullShare x3
                ∗ owns (c : Thread nD τ) arg6 fullShare x4
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)) -∗ K ⟨⟩))
          ⊢ wp frame (wpE (defs₀ (F := F)) Variants.none c none) E (cc1__lstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc1__lstm_kernel_eq_skeleton]; unfold cc1__lstm_kernel_skel
    simp only [k1_part1_eq_skeleton]
    unfold owns
    iintro ⟨⟨%f9, %hf9, H9⟩, ⟨%f4, %hf4, H4⟩, ⟨%f5, %hf5, H5⟩, ⟨%f6, %hf6, H6⟩, ⟨%d10, %f10, -, H10⟩, ⟨%d11, %f11, -, H11⟩, Hk⟩
    obtain rfl := harg9.eq_unread hf9; obtain rfl := harg4.eq_unread hf4; obtain rfl := harg5.eq_unread hf5; obtain rfl := harg6.eq_unread hf6
    sl_exec (disch := first | exact hS | exact h0 | exact h1 | exact h2 | exact h3 | exact hL)
    sl_step
    iapply Hk
    isplitl [H9]
    · iexists _; isplitr; · ipureintro; exact harg9.read_unread _
      iexact H9
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H10]; · iexists _; iexact H10
    iexists _; iexact H11

end Cert.Kernel.Hand

end
-- ==== Proof.K.RunC.lean ====
/-
  The recurrent kernel's body run once, in the control case of gate 1: the forget gate is stored.

  The run is stated on any whole buffers: the buffers the case reads hold given contents and keep them; each buffer
  the case stores into is handed over at anything and comes back with the case's stores applied, as a list of pieces
  (last store first) that the symbolic run itself determines. Buffers the case does not touch are not mentioned.
-/
import proofs.«115084_j79534204387582_2_alg».proof.Proof.K.CellDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S128x1024 .f32) (harg2 : arg2.IsWhole) (arg3 : Memref sig .tc .vmem S1x128x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole)

set_option maxHeartbeats 4000000 in
/-- The body in this case: the pieces each stored buffer ends with, and the proof that the body runs to its
    continuation with exactly those pieces written. -/
noncomputable def runC (hS : ¬gSeed i) (h0 : ¬gate0 i) (h1 : gate1 i) (h2 : ¬gate2 i) (h3 : ¬gate3 i) (hL : ¬gLast i)
    (xb : Vec F S128x1024 .bf16) (x2 : Vec F S1x1024x1024 .f32) (x3 : Vec F S1x1x1024 .f32) (x4 : Vec F S1x128x1024 .f32) :
    { L12 : List (View.Piece (Elt F) S128x1024 .f32) //
      ∀ (E : Set ℕ) (K : PUnit → sProp 𝕄),
        iprop(owns (c : Thread nD τ) arg10 fullShare xb
            ∗ owns (c : Thread nD τ) arg4 fullShare x2
            ∗ owns (c : Thread nD τ) arg5 fullShare x3
            ∗ owns (c : Thread nD τ) arg6 fullShare x4
            ∗ (∃ d, owns (c : Thread nD τ) arg12 fullShare d)
            ∗ (iprop(owns (c : Thread nD τ) arg10 fullShare xb
                ∗ owns (c : Thread nD τ) arg4 fullShare x2
                ∗ owns (c : Thread nD τ) arg5 fullShare x3
                ∗ owns (c : Thread nD τ) arg6 fullShare x4
                ∗ (∃ f, arg12.view.loc (c : Thread nD τ) ↦[arg12.view.set]{fullShare} arg12.view.writes (Elt F) f L12)) -∗ K ⟨⟩))
          ⊢ wp frame (wpE (defs₀ (F := F)) Variants.none c none) E (cc1__lstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc1__lstm_kernel_eq_skeleton]; unfold cc1__lstm_kernel_skel
    simp only [k1_part1_eq_skeleton]
    unfold owns
    iintro ⟨⟨%f10, %hf10, H10⟩, ⟨%f4, %hf4, H4⟩, ⟨%f5, %hf5, H5⟩, ⟨%f6, %hf6, H6⟩, ⟨%d12, %f12, -, H12⟩, Hk⟩
    obtain rfl := harg10.eq_unread hf10; obtain rfl := harg4.eq_unread hf4; obtain rfl := harg5.eq_unread hf5; obtain rfl := harg6.eq_unread hf6
    sl_exec (disch := first | exact hS | exact h0 | exact h1 | exact h2 | exact h3 | exact hL)
    sl_step
    iapply Hk
    isplitl [H10]
    · iexists _; isplitr; · ipureintro; exact harg10.read_unread _
      iexact H10
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H12

end Cert.Kernel.Hand

end
-- ==== Proof.K.RunD.lean ====
/-
  The recurrent kernel's body run once, in the control case of gate 2: the cell candidate is stored.

  The run is stated on any whole buffers: the buffers the case reads hold given contents and keep them; each buffer
  the case stores into is handed over at anything and comes back with the case's stores applied, as a list of pieces
  (last store first) that the symbolic run itself determines. Buffers the case does not touch are not mentioned.
-/
import proofs.«115084_j79534204387582_2_alg».proof.Proof.K.CellDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S128x1024 .f32) (harg2 : arg2.IsWhole) (arg3 : Memref sig .tc .vmem S1x128x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole)

set_option maxHeartbeats 4000000 in
/-- The body in this case: the pieces each stored buffer ends with, and the proof that the body runs to its
    continuation with exactly those pieces written. -/
noncomputable def runD (hS : ¬gSeed i) (h0 : ¬gate0 i) (h1 : ¬gate1 i) (h2 : gate2 i) (h3 : ¬gate3 i) (hL : ¬gLast i)
    (xb : Vec F S128x1024 .bf16) (x2 : Vec F S1x1024x1024 .f32) (x3 : Vec F S1x1x1024 .f32) (x4 : Vec F S1x128x1024 .f32) :
    { L13 : List (View.Piece (Elt F) S128x1024 .f32) //
      ∀ (E : Set ℕ) (K : PUnit → sProp 𝕄),
        iprop(owns (c : Thread nD τ) arg10 fullShare xb
            ∗ owns (c : Thread nD τ) arg4 fullShare x2
            ∗ owns (c : Thread nD τ) arg5 fullShare x3
            ∗ owns (c : Thread nD τ) arg6 fullShare x4
            ∗ (∃ d, owns (c : Thread nD τ) arg13 fullShare d)
            ∗ (iprop(owns (c : Thread nD τ) arg10 fullShare xb
                ∗ owns (c : Thread nD τ) arg4 fullShare x2
                ∗ owns (c : Thread nD τ) arg5 fullShare x3
                ∗ owns (c : Thread nD τ) arg6 fullShare x4
                ∗ (∃ f, arg13.view.loc (c : Thread nD τ) ↦[arg13.view.set]{fullShare} arg13.view.writes (Elt F) f L13)) -∗ K ⟨⟩))
          ⊢ wp frame (wpE (defs₀ (F := F)) Variants.none c none) E (cc1__lstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc1__lstm_kernel_eq_skeleton]; unfold cc1__lstm_kernel_skel
    simp only [k1_part1_eq_skeleton]
    unfold owns
    iintro ⟨⟨%f10, %hf10, H10⟩, ⟨%f4, %hf4, H4⟩, ⟨%f5, %hf5, H5⟩, ⟨%f6, %hf6, H6⟩, ⟨%d13, %f13, -, H13⟩, Hk⟩
    obtain rfl := harg10.eq_unread hf10; obtain rfl := harg4.eq_unread hf4; obtain rfl := harg5.eq_unread hf5; obtain rfl := harg6.eq_unread hf6
    sl_exec (disch := first | exact hS | exact h0 | exact h1 | exact h2 | exact h3 | exact hL)
    sl_step
    iapply Hk
    isplitl [H10]
    · iexists _; isplitr; · ipureintro; exact harg10.read_unread _
      iexact H10
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H13

end Cert.Kernel.Hand

end
-- ==== Proof.K.RunE.lean ====
/-
  The recurrent kernel's body run once, in the control case of gate 3: the output gate is stored, then the layer's new cell and hidden states are formed from the four gates and the old cell state, stored into the two output windows, and the hidden state becomes the carried input.

  The run is stated on any whole buffers: the buffers the case reads hold given contents and keep them; each buffer
  the case stores into is handed over at anything and comes back with the case's stores applied, as a list of pieces
  (last store first) that the symbolic run itself determines. Buffers the case does not touch are not mentioned.
-/
import proofs.«115084_j79534204387582_2_alg».proof.Proof.K.CellDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S128x1024 .f32) (harg2 : arg2.IsWhole) (arg3 : Memref sig .tc .vmem S1x128x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole)

set_option maxHeartbeats 4000000 in
/-- The body in this case: the pieces each stored buffer ends with, and the proof that the body runs to its
    continuation with exactly those pieces written. -/
noncomputable def runE (hS : ¬gSeed i) (h0 : ¬gate0 i) (h1 : ¬gate1 i) (h2 : ¬gate2 i) (h3 : gate3 i) (hL : gLast i)
    (xb : Vec F S128x1024 .bf16) (x2 : Vec F S1x1024x1024 .f32) (x3 : Vec F S1x1x1024 .f32) (x4 : Vec F S1x128x1024 .f32) (x1 : Vec F S1x128x1024 .f32) (xi : Vec F S128x1024 .f32) (xf : Vec F S128x1024 .f32) (xg : Vec F S128x1024 .f32) :
    Σ' (L14 : List (View.Piece (Elt F) S128x1024 .f32)) (L7 : List (View.Piece (Elt F) S1x128x1024 .f32)) (L8 : List (View.Piece (Elt F) S1x128x1024 .f32)), { L9 : List (View.Piece (Elt F) S128x1024 .f32) //
      ∀ (E : Set ℕ) (K : PUnit → sProp 𝕄),
        iprop(owns (c : Thread nD τ) arg10 fullShare xb
            ∗ owns (c : Thread nD τ) arg4 fullShare x2
            ∗ owns (c : Thread nD τ) arg5 fullShare x3
            ∗ owns (c : Thread nD τ) arg6 fullShare x4
            ∗ owns (c : Thread nD τ) arg3 fullShare x1
            ∗ owns (c : Thread nD τ) arg11 fullShare xi
            ∗ owns (c : Thread nD τ) arg12 fullShare xf
            ∗ owns (c : Thread nD τ) arg13 fullShare xg
            ∗ (∃ d, owns (c : Thread nD τ) arg14 fullShare d)
            ∗ (∃ d, owns (c : Thread nD τ) arg7 fullShare d)
            ∗ (∃ d, owns (c : Thread nD τ) arg8 fullShare d)
            ∗ (∃ d, owns (c : Thread nD τ) arg9 fullShare d)
            ∗ (iprop(owns (c : Thread nD τ) arg10 fullShare xb
                ∗ owns (c : Thread nD τ) arg4 fullShare x2
                ∗ owns (c : Thread nD τ) arg5 fullShare x3
                ∗ owns (c : Thread nD τ) arg6 fullShare x4
                ∗ owns (c : Thread nD τ) arg3 fullShare x1
                ∗ owns (c : Thread nD τ) arg11 fullShare xi
                ∗ owns (c : Thread nD τ) arg12 fullShare xf
                ∗ owns (c : Thread nD τ) arg13 fullShare xg
                ∗ (∃ f, arg14.view.loc (c : Thread nD τ) ↦[arg14.view.set]{fullShare} arg14.view.writes (Elt F) f L14)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc1__lstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc1__lstm_kernel_eq_skeleton]; unfold cc1__lstm_kernel_skel
    simp only [k1_part1_eq_skeleton]
    unfold owns
    iintro ⟨⟨%f10, %hf10, H10⟩, ⟨%f4, %hf4, H4⟩, ⟨%f5, %hf5, H5⟩, ⟨%f6, %hf6, H6⟩, ⟨%f3, %hf3, H3⟩, ⟨%f11, %hf11, H11⟩, ⟨%f12, %hf12, H12⟩, ⟨%f13, %hf13, H13⟩, ⟨%d14, %f14, -, H14⟩, ⟨%d7, %f7, -, H7⟩, ⟨%d8, %f8, -, H8⟩, ⟨%d9, %f9, -, H9⟩, Hk⟩
    obtain rfl := harg10.eq_unread hf10; obtain rfl := harg4.eq_unread hf4; obtain rfl := harg5.eq_unread hf5; obtain rfl := harg6.eq_unread hf6; obtain rfl := harg3.eq_unread hf3; obtain rfl := harg11.eq_unread hf11; obtain rfl := harg12.eq_unread hf12; obtain rfl := harg13.eq_unread hf13
    sl_exec (disch := first | exact hS | exact h0 | exact h1 | exact h2 | exact h3 | exact hL)
    sl_step
    iapply Hk
    isplitl [H10]
    · iexists _; isplitr; · ipureintro; exact harg10.read_unread _
      iexact H10
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H3]
    · iexists _; isplitr; · ipureintro; exact harg3.read_unread _
      iexact H3
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H7]; · iexists _; iexact H7
    isplitl [H8]; · iexists _; iexact H8
    iexists _; iexact H9

end Cert.Kernel.Hand

end
-- ==== Proof.K.Cell.lean ====
/-
  What the recurrent kernel's buffers hold after each grid point, and the proof data of its pipeline.

  A layer takes four consecutive points. At gate 0 the carried input is rounded once and the input gate's activation
  stored; at gates 1 and 2 the forget gate's and the cell candidate's; at gate 3 the output gate's, and from the four
  activations and the layer's old cell state the new cell and hidden states, which go to the two output windows, the
  hidden state also becoming the carried input of the layer above. So what a point needs from earlier points is always
  something stored earlier IN THE SAME LAYER, or the carried input stored at the end of the layer below: the state
  below records exactly these (the carried input, its rounded copy, three activations, the two outputs), by recursion
  on the point, each stored value read back from the pieces the symbolic run of that point's control case found.

  The invariant before a point names only what later points still read: the carried input at a layer's start; the
  rounded input and the input gate through gates 1–3; the forget gate at gates 2–3; the candidate at gate 3.
-/
import proofs.«115084_j79534204387582_2_alg».proof.Proof.K.RunA
import proofs.«115084_j79534204387582_2_alg».proof.Proof.K.RunB
import proofs.«115084_j79534204387582_2_alg».proof.Proof.K.RunC
import proofs.«115084_j79534204387582_2_alg».proof.Proof.K.RunD
import proofs.«115084_j79534204387582_2_alg».proof.Proof.K.RunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The guards at a point, from its residue -/

theorem condsA (t : Fin cfg1.N) (h : t.val = 0) :
    gSeed (grid1.coords t) ∧ gate0 (grid1.coords t) ∧ ¬gate1 (grid1.coords t) ∧ ¬gate2 (grid1.coords t) ∧ ¬gate3 (grid1.coords t) ∧ ¬gLast (grid1.coords t) :=
  ⟨(hSeed t).mpr h, (hGate0 t).mpr (by omega), fun g => by have := (hGate1 t).mp g; omega, fun g => by have := (hGate2 t).mp g; omega,
    fun g => by have := (hGate3 t).mp g; omega, fun g => by have := (hLast t).mp g; omega⟩
theorem condsB (t : Fin cfg1.N) (h : t.val % 4 = 0) (hz : t.val ≠ 0) :
    ¬gSeed (grid1.coords t) ∧ gate0 (grid1.coords t) ∧ ¬gate1 (grid1.coords t) ∧ ¬gate2 (grid1.coords t) ∧ ¬gate3 (grid1.coords t) ∧ ¬gLast (grid1.coords t) :=
  ⟨fun g => hz ((hSeed t).mp g), (hGate0 t).mpr h, fun g => by have := (hGate1 t).mp g; omega, fun g => by have := (hGate2 t).mp g; omega,
    fun g => by have := (hGate3 t).mp g; omega, fun g => by have := (hLast t).mp g; omega⟩
theorem condsC (t : Fin cfg1.N) (h : t.val % 4 = 1) :
    ¬gSeed (grid1.coords t) ∧ ¬gate0 (grid1.coords t) ∧ gate1 (grid1.coords t) ∧ ¬gate2 (grid1.coords t) ∧ ¬gate3 (grid1.coords t) ∧ ¬gLast (grid1.coords t) :=
  ⟨fun g => by have := (hSeed t).mp g; omega, fun g => by have := (hGate0 t).mp g; omega, (hGate1 t).mpr h, fun g => by have := (hGate2 t).mp g; omega,
    fun g => by have := (hGate3 t).mp g; omega, fun g => by have := (hLast t).mp g; omega⟩
theorem condsD (t : Fin cfg1.N) (h : t.val % 4 = 2) :
    ¬gSeed (grid1.coords t) ∧ ¬gate0 (grid1.coords t) ∧ ¬gate1 (grid1.coords t) ∧ gate2 (grid1.coords t) ∧ ¬gate3 (grid1.coords t) ∧ ¬gLast (grid1.coords t) :=
  ⟨fun g => by have := (hSeed t).mp g; omega, fun g => by have := (hGate0 t).mp g; omega, fun g => by have := (hGate1 t).mp g; omega, (hGate2 t).mpr h,
    fun g => by have := (hGate3 t).mp g; omega, fun g => by have := (hLast t).mp g; omega⟩
theorem condsE (t : Fin cfg1.N) (h : t.val % 4 = 3) :
    ¬gSeed (grid1.coords t) ∧ ¬gate0 (grid1.coords t) ∧ ¬gate1 (grid1.coords t) ∧ ¬gate2 (grid1.coords t) ∧ gate3 (grid1.coords t) ∧ gLast (grid1.coords t) :=
  ⟨fun g => by have := (hSeed t).mp g; omega, fun g => by have := (hGate0 t).mp g; omega, fun g => by have := (hGate1 t).mp g; omega,
    fun g => by have := (hGate2 t).mp g; omega, (hGate3 t).mpr h, (hLast t).mpr h⟩

/-! ## Each case's run at a point of the grid, on the buffers the pipeline passes -/

abbrev runA_at (c : Dev nD) (t : Fin cfg1.N) (h : t.val = 0) (x0 : Vec F S128x1024 .f32) (x2 : Vec F S1x1024x1024 .f32) (x3 : Vec F S1x1x1024 .f32) (x4 : Vec F S1x128x1024 .f32) :=
  runA (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scInp (Memref.isWhole_whole _) scInpB (Memref.isWhole_whole _) scI (Memref.isWhole_whole _) scF (Memref.isWhole_whole _) scG (Memref.isWhole_whole _) scO (Memref.isWhole_whole _) (condsA t h).1 (condsA t h).2.1 (condsA t h).2.2.1 (condsA t h).2.2.2.1 (condsA t h).2.2.2.2.1 (condsA t h).2.2.2.2.2 x0 x2 x3 x4
abbrev runB_at (c : Dev nD) (t : Fin cfg1.N) (h : t.val % 4 = 0) (hz : t.val ≠ 0) (xs : Vec F S128x1024 .f32) (x2 : Vec F S1x1024x1024 .f32) (x3 : Vec F S1x1x1024 .f32) (x4 : Vec F S1x128x1024 .f32) :=
  runB (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scInp (Memref.isWhole_whole _) scInpB (Memref.isWhole_whole _) scI (Memref.isWhole_whole _) scF (Memref.isWhole_whole _) scG (Memref.isWhole_whole _) scO (Memref.isWhole_whole _) (condsB t h hz).1 (condsB t h hz).2.1 (condsB t h hz).2.2.1 (condsB t h hz).2.2.2.1 (condsB t h hz).2.2.2.2.1 (condsB t h hz).2.2.2.2.2 xs x2 x3 x4
abbrev runC_at (c : Dev nD) (t : Fin cfg1.N) (h : t.val % 4 = 1) (xb : Vec F S128x1024 .bf16) (x2 : Vec F S1x1024x1024 .f32) (x3 : Vec F S1x1x1024 .f32) (x4 : Vec F S1x128x1024 .f32) :=
  runC (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scInp (Memref.isWhole_whole _) scInpB (Memref.isWhole_whole _) scI (Memref.isWhole_whole _) scF (Memref.isWhole_whole _) scG (Memref.isWhole_whole _) scO (Memref.isWhole_whole _) (condsC t h).1 (condsC t h).2.1 (condsC t h).2.2.1 (condsC t h).2.2.2.1 (condsC t h).2.2.2.2.1 (condsC t h).2.2.2.2.2 xb x2 x3 x4
abbrev runD_at (c : Dev nD) (t : Fin cfg1.N) (h : t.val % 4 = 2) (xb : Vec F S128x1024 .bf16) (x2 : Vec F S1x1024x1024 .f32) (x3 : Vec F S1x1x1024 .f32) (x4 : Vec F S1x128x1024 .f32) :=
  runD (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scInp (Memref.isWhole_whole _) scInpB (Memref.isWhole_whole _) scI (Memref.isWhole_whole _) scF (Memref.isWhole_whole _) scG (Memref.isWhole_whole _) scO (Memref.isWhole_whole _) (condsD t h).1 (condsD t h).2.1 (condsD t h).2.2.1 (condsD t h).2.2.2.1 (condsD t h).2.2.2.2.1 (condsD t h).2.2.2.2.2 xb x2 x3 x4
abbrev runE_at (c : Dev nD) (t : Fin cfg1.N) (h : t.val % 4 = 3) (xb : Vec F S128x1024 .bf16) (x2 : Vec F S1x1024x1024 .f32) (x3 : Vec F S1x1x1024 .f32) (x4 : Vec F S1x128x1024 .f32)
    (x1 : Vec F S1x128x1024 .f32) (xi xf xg : Vec F S128x1024 .f32) :=
  runE (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scInp (Memref.isWhole_whole _) scInpB (Memref.isWhole_whole _) scI (Memref.isWhole_whole _) scF (Memref.isWhole_whole _) scG (Memref.isWhole_whole _) scO (Memref.isWhole_whole _) (condsE t h).1 (condsE t h).2.1 (condsE t h).2.2.1 (condsE t h).2.2.2.1 (condsE t h).2.2.2.2.1 (condsE t h).2.2.2.2.2 xb x2 x3 x4 x1 xi xf xg

/-! ## Pieces read back -/

/-- What a list of pieces leaves in an f32 scratch buffer (read through the carried-input buffer's view; for a covering
    list the view and the prior contents do not matter). -/
def backS (L : List (View.Piece (Elt F) S128x1024 .f32)) : Vec F S128x1024 .f32 :=
  scInp.view.read (Elt F) (scInp.view.writes (Elt F) scInp.view.junk L)
/-- The same for the rounded copy's buffer. -/
def backB (L : List (View.Piece (Elt F) S128x1024 .bf16)) : Vec F S128x1024 .bf16 :=
  scInpB.view.read (Elt F) (scInpB.view.writes (Elt F) scInpB.view.junk L)
/-- The same for an output window's staging buffer. -/
def backO (L : List (View.Piece (Elt F) S1x128x1024 .f32)) : Vec F S1x128x1024 .f32 :=
  VO5.read (Elt F) (VO5.writes (Elt F) VO5.junk L)

/-! ## The carried state -/

/-- What later points read of the buffers: the carried input, its rounded copy, the input, forget and candidate
    activations, and the two output windows' buffers. -/
structure St (F : FTy → Type) [FloatOps F] where
  inp : Vec F S128x1024 .f32
  inpB : Vec F S128x1024 .bf16
  gI : Vec F S128x1024 .f32
  gF : Vec F S128x1024 .f32
  gG : Vec F S128x1024 .f32
  oH : Vec F S1x128x1024 .f32
  oC : Vec F S1x128x1024 .f32

/-- After the first point: the rounded data and the first input gate; the rest not yet meaningful. -/
def initA (c : Dev nD) (t : Fin cfg1.N) (h : t.val = 0) : St F :=
  let R := runA_at (F := F) c t h (iblk1 V c 0 t) (iblk1 V c 2 t) (iblk1 V c 3 t) (iblk1 V c 4 t)
  { inp := backS R.1, inpB := backB R.2.1, gI := backS R.2.2.1,
    gF := backS [], gG := backS [], oH := backO [], oC := backO [] }

/-- Gate 0 of a later layer. -/
def stepB (c : Dev nD) (t : Fin cfg1.N) (h : t.val % 4 = 0) (hz : t.val ≠ 0) (p : St F) : St F :=
  let R := runB_at (F := F) c t h hz p.inp (iblk1 V c 2 t) (iblk1 V c 3 t) (iblk1 V c 4 t)
  { p with inpB := backB R.1, gI := backS R.2.1 }

/-- Gate 1. -/
def stepC (c : Dev nD) (t : Fin cfg1.N) (h : t.val % 4 = 1) (p : St F) : St F :=
  let R := runC_at (F := F) c t h p.inpB (iblk1 V c 2 t) (iblk1 V c 3 t) (iblk1 V c 4 t)
  { p with gF := backS R.1 }

/-- Gate 2. -/
def stepD (c : Dev nD) (t : Fin cfg1.N) (h : t.val % 4 = 2) (p : St F) : St F :=
  let R := runD_at (F := F) c t h p.inpB (iblk1 V c 2 t) (iblk1 V c 3 t) (iblk1 V c 4 t)
  { p with gG := backS R.1 }

/-- Gate 3: the layer's outputs and the next layer's input. -/
def stepE (c : Dev nD) (t : Fin cfg1.N) (h : t.val % 4 = 3) (p : St F) : St F :=
  let R := runE_at (F := F) c t h p.inpB (iblk1 V c 2 t) (iblk1 V c 3 t) (iblk1 V c 4 t) (iblk1 V c 1 t) p.gI p.gF p.gG
  { p with oH := backO R.2.1, oC := backO R.2.2.1, inp := backS R.2.2.2.1 }

/-- The state after the body at position `n`. -/
def stAt (c : Dev nD) : (n : ℕ) → n < cfg1.N → St F
  | 0, hn => initA V c ⟨0, hn⟩ rfl
  | n + 1, hn =>
    if h0 : (n + 1) % 4 = 0 then stepB V c ⟨n + 1, hn⟩ h0 (Nat.succ_ne_zero n) (stAt c n (Nat.lt_of_succ_lt hn))
    else if h1 : (n + 1) % 4 = 1 then stepC V c ⟨n + 1, hn⟩ h1 (stAt c n (Nat.lt_of_succ_lt hn))
    else if h2 : (n + 1) % 4 = 2 then stepD V c ⟨n + 1, hn⟩ h2 (stAt c n (Nat.lt_of_succ_lt hn))
    else stepE V c ⟨n + 1, hn⟩ (by show (n + 1) % 4 = 3; omega) (stAt c n (Nat.lt_of_succ_lt hn))

theorem pred_lt (t : Fin cfg1.N) : t.val - 1 < cfg1.N := Nat.lt_of_le_of_lt (Nat.sub_le _ _) t.isLt

theorem stAt_A (c : Dev nD) (t : Fin cfg1.N) (h : t.val = 0) : stAt V c t.val t.isLt = initA V c t h := by
  obtain ⟨n, hn⟩ := t
  cases n with
  | zero => rfl
  | succ n => exact absurd h (Nat.succ_ne_zero n)

theorem stAt_B (c : Dev nD) (t : Fin cfg1.N) (h : t.val % 4 = 0) (hz : t.val ≠ 0) :
    stAt V c t.val t.isLt = stepB V c t h hz (stAt V c (t.val - 1) (pred_lt t)) := by
  obtain ⟨n, hn⟩ := t
  cases n with
  | zero => exact absurd rfl hz
  | succ n => exact (dif_pos h).trans rfl

theorem stAt_C (c : Dev nD) (t : Fin cfg1.N) (h : t.val % 4 = 1) :
    stAt V c t.val t.isLt = stepC V c t h (stAt V c (t.val - 1) (pred_lt t)) := by
  obtain ⟨n, hn⟩ := t
  cases n with
  | zero => exact absurd h (by show ¬ (0 % 4 = _); decide)
  | succ n => exact (dif_neg (by dsimp only at h; omega)).trans ((dif_pos h).trans rfl)

theorem stAt_D (c : Dev nD) (t : Fin cfg1.N) (h : t.val % 4 = 2) :
    stAt V c t.val t.isLt = stepD V c t h (stAt V c (t.val - 1) (pred_lt t)) := by
  obtain ⟨n, hn⟩ := t
  cases n with
  | zero => exact absurd h (by show ¬ (0 % 4 = _); decide)
  | succ n => exact (dif_neg (by dsimp only at h; omega)).trans ((dif_neg (by dsimp only at h; omega)).trans ((dif_pos h).trans rfl))

theorem stAt_E (c : Dev nD) (t : Fin cfg1.N) (h : t.val % 4 = 3) :
    stAt V c t.val t.isLt = stepE V c t h (stAt V c (t.val - 1) (pred_lt t)) := by
  obtain ⟨n, hn⟩ := t
  cases n with
  | zero => exact absurd h (by show ¬ (0 % 4 = _); decide)
  | succ n => exact (dif_neg (by dsimp only at h; omega)).trans ((dif_neg (by dsimp only at h; omega)).trans ((dif_neg (by dsimp only at h; omega)).trans rfl))

/-! ## The invariant -/

/-- A buffer at named contents where a later point reads it, at anything otherwise. -/
def ownsIf {s : Shape} {e : EltTy} (b : Prop) [Decidable b] (c : Dev nD) (mr : Memref sig .tc .vmem s e) (x : Vec F s e) : sProp 𝕄 :=
  if b then owns (c : Thread nD τ) mr fullShare x else iprop(∃ d, owns (c : Thread nD τ) mr fullShare d)

theorem ownsIf_pos {s : Shape} {e : EltTy} {b : Prop} [Decidable b] (hb : b) (c : Dev nD) (mr : Memref sig .tc .vmem s e) (x : Vec F s e) :
    ownsIf (F := F) b c mr x = owns (c : Thread nD τ) mr fullShare x := if_pos hb
theorem ownsIf_neg {s : Shape} {e : EltTy} {b : Prop} [Decidable b] (hb : ¬b) (c : Dev nD) (mr : Memref sig .tc .vmem s e) (x : Vec F s e) :
    ownsIf (F := F) b c mr x = iprop(∃ d, owns (c : Thread nD τ) mr fullShare d) := if_neg hb

/-- Before position `n > 0`, from the state `s` the point before left. -/
def PhiAt (c : Dev nD) (n : ℕ) (s : St F) : sProp 𝕄 :=
  iprop(otherStaging (F := F) c ∗ ownsIf (n % 4 = 0) c scInp s.inp ∗ ownsIf (n % 4 ≠ 0) c scInpB s.inpB ∗ ownsIf (n % 4 ≠ 0) c scI s.gI
    ∗ ownsIf (n % 4 = 2 ∨ n % 4 = 3) c scF s.gF ∗ ownsIf (n % 4 = 3) c scG s.gG ∗ (∃ d, owns (c : Thread nD τ) scO fullShare d) ∗ (∃ r, prngReg c r))

/-- The region invariant before position `n`: the class's before the first point, the named one afterwards. -/
def PhiS (c : Dev nD) : (n : ℕ) → n ≤ cfg1.N → sProp 𝕄
  | 0, _ => Pipeline.ΦA spec1 c
  | n + 1, hn => PhiAt c (n + 1) (stAt V c n hn)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) : PhiS V c (n + 1) hn = PhiAt c (n + 1) (stAt V c n hn) := rfl
theorem PhiS_pos (c : Dev nD) (n : ℕ) (h : n ≤ cfg1.N) (hz : n ≠ 0) :
    PhiS V c n h = PhiAt c n (stAt V c (n - 1) (by omega)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (stAt V c t.val t.isLt).oH
    | ⟨6, _⟩ => (stAt V c t.val t.isLt).oC
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (stAt V c t.val t.isLt).oH := by dsimp only [dat1]
theorem after1_6 (c : Dev nD) (t : Fin cfg1.N) : (dat1 V c).after 6 t = (stAt V c t.val t.isLt).oC := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

end Cert.Kernel.Hand

end
-- ==== Proof.K.CellBody.lean ====
/-
  The recurrent kernel's body meets its obligation at every grid point.

  At a point the pipeline hands the body the five input windows' buffers at their blocks, the two output windows'
  buffers, and the invariant. The point's residue modulo 4 (and whether it is the very first) says which guarded blocks
  run; in each case the symbolic run of that case applies: it takes the buffers it reads at the contents the
  invariant names, and returns the buffers it stored into with pieces that cover them, which is what the state after
  the point records. Away from gate 3 the output windows are idle and go back untouched.
-/
import proofs.«115084_j79534204387582_2_alg».proof.Proof.K.Cell

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## Each case's stores cover the buffer they go to -/

theorem covA10 (c : Dev nD) (t : Fin cfg1.N) (h : t.val = 0) (x0 x2 x3 x4) (y : S128x1024.Idx) :
    ∃ pc ∈ (runA_at (F := F) c t h x0 x2 x3 x4).2.1, y ∈ pc.1.set :=
  View.cover_of_tiledL (runA_at (F := F) c t h x0 x2 x3 x4).2.1 S128x1024.size (by sl_kernel_rfl) y
theorem covA11 (c : Dev nD) (t : Fin cfg1.N) (h : t.val = 0) (x0 x2 x3 x4) (y : S128x1024.Idx) :
    ∃ pc ∈ (runA_at (F := F) c t h x0 x2 x3 x4).2.2.1, y ∈ pc.1.set :=
  View.cover_of_tiledL (runA_at (F := F) c t h x0 x2 x3 x4).2.2.1 S128x1024.size (by sl_kernel_rfl) y
theorem covB10 (c : Dev nD) (t : Fin cfg1.N) (h : t.val % 4 = 0) (hz : t.val ≠ 0) (xs x2 x3 x4) (y : S128x1024.Idx) :
    ∃ pc ∈ (runB_at (F := F) c t h hz xs x2 x3 x4).1, y ∈ pc.1.set :=
  View.cover_of_tiledL (runB_at (F := F) c t h hz xs x2 x3 x4).1 S128x1024.size (by sl_kernel_rfl) y
theorem covB11 (c : Dev nD) (t : Fin cfg1.N) (h : t.val % 4 = 0) (hz : t.val ≠ 0) (xs x2 x3 x4) (y : S128x1024.Idx) :
    ∃ pc ∈ (runB_at (F := F) c t h hz xs x2 x3 x4).2.1, y ∈ pc.1.set :=
  View.cover_of_tiledL (runB_at (F := F) c t h hz xs x2 x3 x4).2.1 S128x1024.size (by sl_kernel_rfl) y
theorem covC12 (c : Dev nD) (t : Fin cfg1.N) (h : t.val % 4 = 1) (xb x2 x3 x4) (y : S128x1024.Idx) :
    ∃ pc ∈ (runC_at (F := F) c t h xb x2 x3 x4).1, y ∈ pc.1.set :=
  View.cover_of_tiledL (runC_at (F := F) c t h xb x2 x3 x4).1 S128x1024.size (by sl_kernel_rfl) y
theorem covD13 (c : Dev nD) (t : Fin cfg1.N) (h : t.val % 4 = 2) (xb x2 x3 x4) (y : S128x1024.Idx) :
    ∃ pc ∈ (runD_at (F := F) c t h xb x2 x3 x4).1, y ∈ pc.1.set :=
  View.cover_of_tiledL (runD_at (F := F) c t h xb x2 x3 x4).1 S128x1024.size (by sl_kernel_rfl) y
theorem covE7 (c : Dev nD) (t : Fin cfg1.N) (h : t.val % 4 = 3) (xb x2 x3 x4 x1 xi xf xg) (y : S1x128x1024.Idx) :
    ∃ pc ∈ (runE_at (F := F) c t h xb x2 x3 x4 x1 xi xf xg).2.1, y ∈ pc.1.set :=
  View.cover_of_tiledL (runE_at (F := F) c t h xb x2 x3 x4 x1 xi xf xg).2.1 S1x128x1024.size (by sl_kernel_rfl) y
theorem covE8 (c : Dev nD) (t : Fin cfg1.N) (h : t.val % 4 = 3) (xb x2 x3 x4 x1 xi xf xg) (y : S1x128x1024.Idx) :
    ∃ pc ∈ (runE_at (F := F) c t h xb x2 x3 x4 x1 xi xf xg).2.2.1, y ∈ pc.1.set :=
  View.cover_of_tiledL (runE_at (F := F) c t h xb x2 x3 x4 x1 xi xf xg).2.2.1 S1x128x1024.size (by sl_kernel_rfl) y
theorem covE9 (c : Dev nD) (t : Fin cfg1.N) (h : t.val % 4 = 3) (xb x2 x3 x4 x1 xi xf xg) (y : S128x1024.Idx) :
    ∃ pc ∈ (runE_at (F := F) c t h xb x2 x3 x4 x1 xi xf xg).2.2.2.1, y ∈ pc.1.set :=
  View.cover_of_tiledL (runE_at (F := F) c t h xb x2 x3 x4 x1 xi xf xg).2.2.2.1 S128x1024.size (by sl_kernel_rfl) y

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The very first point. -/
theorem sound_body1_A (c : Dev nD) (t : Fin cfg1.N) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hne3 : ¬ t.val % 4 = 3 := by omega
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [Dat.leavesExact_idle (dat1 V c) 5 t (idle1_5 t hne3) (noFlush1_5 t hne3), Dat.leavesExact_idle (dat1 V c) 6 t (idle1_6 t hne3) (noFlush1_6 t hne3)]
  rw [PhiS_castSucc V c t, PhiS_zero V c _ _ hz, stAt_A V c t hz]
  unfold PhiAt initA; dsimp only
  simp only [ownsIf_neg (show ¬((t.val + 1) % 4 = 0) from by omega), ownsIf_pos (show (t.val + 1) % 4 ≠ 0 from by omega), ownsIf_neg (show ¬((t.val + 1) % 4 = 2 ∨ (t.val + 1) % 4 = 3) from by omega), ownsIf_neg (show ¬((t.val + 1) % 4 = 3) from by omega)]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := (PhiA1_split (F := F) c) $$ HΦ
  icases HΦ' with ⟨Hx, HS0, HS1, HS2, HS3, HS4, HS5, Hg⟩
  iapply ((runA_at (F := F) c t hz _ _ _ _).2.2.2 Set.univ _)
  isplitl [H0]; · iexact H0
  isplitl [H2]; · iexact H2
  isplitl [H3]; · iexact H3
  isplitl [H4]; · iexact H4
  isplitl [HS0]; · iexact HS0
  isplitl [HS1]; · iexact HS1
  isplitl [HS2]; · iexact HS2
  iintro ⟨H0, H2, H3, H4, ⟨%f9, HS0⟩, ⟨%f10, HS1⟩, ⟨%f11, HS2⟩⟩
  isplitl [Hx HS0 HS1 HS2 HS3 HS4 HS5 Hg]
  · isplitl [Hx]; · iexact Hx
    isplitl [HS0]
    · iexists _; unfold owns; iexists _; isplitr
      swap; · iexact HS0
      ipureintro; rfl
    isplitl [HS1]
    · unfold owns; iexists _; isplitr
      swap; · iexact HS1
      ipureintro; exact View.read_writes_of_cover _ _ _ _ _ (covA10 c t hz _ _ _ _)
    isplitl [HS2]
    · unfold owns; iexists _; isplitr
      swap; · iexact HS2
      ipureintro; exact View.read_writes_of_cover _ _ _ _ _ (covA11 c t hz _ _ _ _)
    isplitl [HS3]; · iexact HS3
    isplitl [HS4]; · iexact HS4
    isplitl [HS5]; · iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4000000 in
/-- Gate 0 of a later layer. -/
theorem sound_body1_B (c : Dev nD) (t : Fin cfg1.N) (h : t.val % 4 = 0) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hne3 : ¬ t.val % 4 = 3 := by omega
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [Dat.leavesExact_idle (dat1 V c) 5 t (idle1_5 t hne3) (noFlush1_5 t hne3), Dat.leavesExact_idle (dat1 V c) 6 t (idle1_6 t hne3) (noFlush1_6 t hne3)]
  rw [PhiS_castSucc V c t, PhiS_pos V c _ _ hz, stAt_B V c t h hz]
  unfold PhiAt stepB; dsimp only
  simp only [ownsIf_pos (show t.val % 4 = 0 from by omega), ownsIf_neg (show ¬(t.val % 4 ≠ 0) from by omega), ownsIf_neg (show ¬(t.val % 4 = 2 ∨ t.val % 4 = 3) from by omega), ownsIf_neg (show ¬(t.val % 4 = 3) from by omega), ownsIf_neg (show ¬((t.val + 1) % 4 = 0) from by omega), ownsIf_pos (show (t.val + 1) % 4 ≠ 0 from by omega), ownsIf_neg (show ¬((t.val + 1) % 4 = 2 ∨ (t.val + 1) % 4 = 3) from by omega), ownsIf_neg (show ¬((t.val + 1) % 4 = 3) from by omega)]
  iintro ⟨⟨Hx, HS0, HS1, HS2, HS3, HS4, HS5, Hg⟩, Ho, ⟨%d0, H0⟩, ⟨%d1, H1⟩, ⟨%d2, H2⟩, ⟨%d3, H3⟩, ⟨%d4, H4⟩, ⟨%d5, H5⟩, ⟨%d6, H6⟩⟩
  iapply ((runB_at (F := F) c t h hz _ _ _ _).2.2 Set.univ _)
  isplitl [HS0]; · iexact HS0
  isplitl [H2]; · iexact H2
  isplitl [H3]; · iexact H3
  isplitl [H4]; · iexact H4
  isplitl [HS1]; · iexact HS1
  isplitl [HS2]; · iexact HS2
  iintro ⟨HS0, H2, H3, H4, ⟨%f10, HS1⟩, ⟨%f11, HS2⟩⟩
  isplitl [Hx HS0 HS1 HS2 HS3 HS4 HS5 Hg]
  · isplitl [Hx]; · iexact Hx
    isplitl [HS0]; · iexists _; iexact HS0
    isplitl [HS1]
    · unfold owns; iexists _; isplitr
      swap; · iexact HS1
      ipureintro; exact View.read_writes_of_cover _ _ _ _ _ (covB10 c t h hz _ _ _ _)
    isplitl [HS2]
    · unfold owns; iexists _; isplitr
      swap; · iexact HS2
      ipureintro; exact View.read_writes_of_cover _ _ _ _ _ (covB11 c t h hz _ _ _ _)
    isplitl [HS3]; · iexact HS3
    isplitl [HS4]; · iexact HS4
    isplitl [HS5]; · iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4000000 in
/-- Gate 1. -/
theorem sound_body1_C (c : Dev nD) (t : Fin cfg1.N) (h : t.val % 4 = 1) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hne3 : ¬ t.val % 4 = 3 := by omega
  have hz : t.val ≠ 0 := by omega
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [Dat.leavesExact_idle (dat1 V c) 5 t (idle1_5 t hne3) (noFlush1_5 t hne3), Dat.leavesExact_idle (dat1 V c) 6 t (idle1_6 t hne3) (noFlush1_6 t hne3)]
  rw [PhiS_castSucc V c t, PhiS_pos V c _ _ hz, stAt_C V c t h]
  unfold PhiAt stepC; dsimp only
  simp only [ownsIf_neg (show ¬(t.val % 4 = 0) from by omega), ownsIf_pos (show t.val % 4 ≠ 0 from by omega), ownsIf_neg (show ¬(t.val % 4 = 2 ∨ t.val % 4 = 3) from by omega), ownsIf_neg (show ¬(t.val % 4 = 3) from by omega), ownsIf_neg (show ¬((t.val + 1) % 4 = 0) from by omega), ownsIf_pos (show (t.val + 1) % 4 ≠ 0 from by omega), ownsIf_pos (show (t.val + 1) % 4 = 2 ∨ (t.val + 1) % 4 = 3 from by omega), ownsIf_neg (show ¬((t.val + 1) % 4 = 3) from by omega)]
  iintro ⟨⟨Hx, HS0, HS1, HS2, HS3, HS4, HS5, Hg⟩, Ho, ⟨%d0, H0⟩, ⟨%d1, H1⟩, ⟨%d2, H2⟩, ⟨%d3, H3⟩, ⟨%d4, H4⟩, ⟨%d5, H5⟩, ⟨%d6, H6⟩⟩
  iapply ((runC_at (F := F) c t h _ _ _ _).2 Set.univ _)
  isplitl [HS1]; · iexact HS1
  isplitl [H2]; · iexact H2
  isplitl [H3]; · iexact H3
  isplitl [H4]; · iexact H4
  isplitl [HS3]; · iexact HS3
  iintro ⟨HS1, H2, H3, H4, ⟨%f12, HS3⟩⟩
  isplitl [Hx HS0 HS1 HS2 HS3 HS4 HS5 Hg]
  · isplitl [Hx]; · iexact Hx
    isplitl [HS0]; · iexact HS0
    isplitl [HS1]; · iexact HS1
    isplitl [HS2]; · iexact HS2
    isplitl [HS3]
    · unfold owns; iexists _; isplitr
      swap; · iexact HS3
      ipureintro; exact View.read_writes_of_cover _ _ _ _ _ (covC12 c t h _ _ _ _)
    isplitl [HS4]; · iexact HS4
    isplitl [HS5]; · iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4000000 in
/-- Gate 2. -/
theorem sound_body1_D (c : Dev nD) (t : Fin cfg1.N) (h : t.val % 4 = 2) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hne3 : ¬ t.val % 4 = 3 := by omega
  have hz : t.val ≠ 0 := by omega
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [Dat.leavesExact_idle (dat1 V c) 5 t (idle1_5 t hne3) (noFlush1_5 t hne3), Dat.leavesExact_idle (dat1 V c) 6 t (idle1_6 t hne3) (noFlush1_6 t hne3)]
  rw [PhiS_castSucc V c t, PhiS_pos V c _ _ hz, stAt_D V c t h]
  unfold PhiAt stepD; dsimp only
  simp only [ownsIf_neg (show ¬(t.val % 4 = 0) from by omega), ownsIf_pos (show t.val % 4 ≠ 0 from by omega), ownsIf_pos (show t.val % 4 = 2 ∨ t.val % 4 = 3 from by omega), ownsIf_neg (show ¬(t.val % 4 = 3) from by omega), ownsIf_neg (show ¬((t.val + 1) % 4 = 0) from by omega), ownsIf_pos (show (t.val + 1) % 4 ≠ 0 from by omega), ownsIf_pos (show (t.val + 1) % 4 = 2 ∨ (t.val + 1) % 4 = 3 from by omega), ownsIf_pos (show (t.val + 1) % 4 = 3 from by omega)]
  iintro ⟨⟨Hx, HS0, HS1, HS2, HS3, HS4, HS5, Hg⟩, Ho, ⟨%d0, H0⟩, ⟨%d1, H1⟩, ⟨%d2, H2⟩, ⟨%d3, H3⟩, ⟨%d4, H4⟩, ⟨%d5, H5⟩, ⟨%d6, H6⟩⟩
  iapply ((runD_at (F := F) c t h _ _ _ _).2 Set.univ _)
  isplitl [HS1]; · iexact HS1
  isplitl [H2]; · iexact H2
  isplitl [H3]; · iexact H3
  isplitl [H4]; · iexact H4
  isplitl [HS4]; · iexact HS4
  iintro ⟨HS1, H2, H3, H4, ⟨%f13, HS4⟩⟩
  isplitl [Hx HS0 HS1 HS2 HS3 HS4 HS5 Hg]
  · isplitl [Hx]; · iexact Hx
    isplitl [HS0]; · iexact HS0
    isplitl [HS1]; · iexact HS1
    isplitl [HS2]; · iexact HS2
    isplitl [HS3]; · iexact HS3
    isplitl [HS4]
    · unfold owns; iexists _; isplitr
      swap; · iexact HS4
      ipureintro; exact View.read_writes_of_cover _ _ _ _ _ (covD13 c t h _ _ _ _)
    isplitl [HS5]; · iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4000000 in
/-- Gate 3. -/
theorem sound_body1_E (c : Dev nD) (t : Fin cfg1.N) (h : t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hz : t.val ≠ 0 := by omega
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [show (dat1 V c).leavesExact 5 t = owns (c : Thread nD τ) (ms1_5 t) fullShare ((dat1 V c).after 5 t) from by
    unfold Dat.leavesExact; rw [live1_5 t h], after1_5]
  rw [show (dat1 V c).leavesExact 6 t = owns (c : Thread nD τ) (ms1_6 t) fullShare ((dat1 V c).after 6 t) from by
    unfold Dat.leavesExact; rw [live1_6 t h], after1_6]
  rw [PhiS_castSucc V c t, PhiS_pos V c _ _ hz, stAt_E V c t h]
  unfold PhiAt stepE; dsimp only
  simp only [ownsIf_neg (show ¬(t.val % 4 = 0) from by omega), ownsIf_pos (show t.val % 4 ≠ 0 from by omega), ownsIf_pos (show t.val % 4 = 2 ∨ t.val % 4 = 3 from by omega), ownsIf_pos (show t.val % 4 = 3 from by omega), ownsIf_pos (show (t.val + 1) % 4 = 0 from by omega), ownsIf_neg (show ¬((t.val + 1) % 4 ≠ 0) from by omega), ownsIf_neg (show ¬((t.val + 1) % 4 = 2 ∨ (t.val + 1) % 4 = 3) from by omega), ownsIf_neg (show ¬((t.val + 1) % 4 = 3) from by omega)]
  iintro ⟨⟨Hx, HS0, HS1, HS2, HS3, HS4, HS5, Hg⟩, Ho, ⟨%d0, H0⟩, ⟨%d1, H1⟩, ⟨%d2, H2⟩, ⟨%d3, H3⟩, ⟨%d4, H4⟩, ⟨%d5, H5⟩, ⟨%d6, H6⟩⟩
  iapply ((runE_at (F := F) c t h _ _ _ _ _ _ _ _).2.2.2.2 Set.univ _)
  isplitl [HS1]; · iexact HS1
  isplitl [H2]; · iexact H2
  isplitl [H3]; · iexact H3
  isplitl [H4]; · iexact H4
  isplitl [H1]; · iexact H1
  isplitl [HS2]; · iexact HS2
  isplitl [HS3]; · iexact HS3
  isplitl [HS4]; · iexact HS4
  isplitl [HS5]; · iexact HS5
  isplitl [H5]; · iexists _; iexact H5
  isplitl [H6]; · iexists _; iexact H6
  isplitl [HS0]; · iexact HS0
  iintro ⟨HS1, H2, H3, H4, H1, HS2, HS3, HS4, ⟨%f14, HS5⟩, ⟨%f7, H5⟩, ⟨%f8, H6⟩, ⟨%f9, HS0⟩⟩
  isplitl [Hx HS0 HS1 HS2 HS3 HS4 HS5 Hg]
  · isplitl [Hx]; · iexact Hx
    isplitl [HS0]
    · unfold owns; iexists _; isplitr
      swap; · iexact HS0
      ipureintro; exact View.read_writes_of_cover _ _ _ _ _ (covE9 c t h _ _ _ _ _ _ _ _)
    isplitl [HS1]; · iexists _; iexact HS1
    isplitl [HS2]; · iexists _; iexact HS2
    isplitl [HS3]; · iexists _; iexact HS3
    isplitl [HS4]; · iexists _; iexact HS4
    isplitl [HS5]
    · iexists _; unfold owns; iexists _; isplitr
      swap; · iexact HS5
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (covE7 c t h _ _ _ _ _ _ _ _)
  unfold owns; iexists _; isplitr
  swap; · iexact H6
  ipureintro; exact View.read_writes_of_cover _ _ _ _ _ (covE8 c t h _ _ _ _ _ _ _ _)

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · by_cases hz : t.val = 0
    · exact sound_body1_A V c t hz
    · exact sound_body1_B V c t h0 hz
  · by_cases h1 : t.val % 4 = 1
    · exact sound_body1_C V c t h1
    · by_cases h2 : t.val % 4 = 2
      · exact sound_body1_D V c t h2
      · exact sound_body1_E V c t (by omega)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant gives the class's back -/

theorem ownsIf_elim {s : Shape} {e : EltTy} (b : Prop) [Decidable b] (c : Dev nD) (mr : Memref sig .tc .vmem s e) (x : Vec F s e) :
    ownsIf (F := F) b c mr x ⊢ (iprop(∃ d, owns (c : Thread nD τ) mr fullShare d) : sProp 𝕄) := by
  unfold ownsIf
  split_ifs
  · iintro H; iexists _; iexact H
  · exact Idealize.SL.BI.Entails.refl _

theorem Phi_out (c : Dev nD) (n : ℕ) (h : n ≤ cfg1.N) (hz : n ≠ 0) : PhiS V c n h ⊢ Pipeline.ΦA spec1 c := by
  rw [PhiS_pos V c n h hz]; unfold PhiAt
  iintro ⟨Hx, H0, H1, H2, H3, H4, H5, Hg⟩
  iapply (PhiA1_join (F := F) c)
  isplitl [Hx]; · iexact Hx
  isplitl [H0]; · iapply (ownsIf_elim (F := F) _ c scInp _); iexact H0
  isplitl [H1]; · iapply (ownsIf_elim (F := F) _ c scInpB _); iexact H1
  isplitl [H2]; · iapply (ownsIf_elim (F := F) _ c scI _); iexact H2
  isplitl [H3]; · iapply (ownsIf_elim (F := F) _ c scF _); iexact H3
  isplitl [H4]; · iapply (ownsIf_elim (F := F) _ c scG _); iexact H4
  isplitl [H5]; · iexact H5
  iexact Hg

/-- After the last point. -/
theorem hout1 (c : Dev nD) : (dat1 V c).Φ (Fin.last cfg1.N) ⊢ Pipeline.ΦA spec1 c := by
  rw [show (dat1 V c).Φ (Fin.last cfg1.N) = PhiS V c cfg1.N (le_refl _) from rfl]
  exact Phi_out V c cfg1.N (le_refl _) (by have : cfg1.N = 16 := N_1; omega)

end Cert.Kernel.Hand

end
-- ==== Proof.K.Run.lean ====
/- The run of the program from launch to return, at any number format.

   The program is four stretches in order: two reshapes of the bias arrays on the host, the recurrent-projection
   call, the cell call entered directly from what the first call leaves, and a slice and a reshape of the top
   layer's hidden state on the host. The buffer contents at each boundary are a fold from the launch memory; each
   call's arrays end at what its write-backs leave and every other buffer is carried through. From the fold at the
   last boundary both the frame (no stretch writes an argument array) and the values of the three results are read. -/
import proofs.«115084_j79534204387582_2_alg».proof.Proof.Gen.Kernel.Launch
import proofs.«115084_j79534204387582_2_alg».proof.Proof.Gen.Kernel.Skeleton
import proofs.«115084_j79534204387582_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run
import proofs.«115084_j79534204387582_2_alg».proof.Proof.K.Zhh
import proofs.«115084_j79534204387582_2_alg».proof.Proof.K.CellBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- A buffer the first host stretch does not write (neither reshaped bias) keeps its contents over it. -/
theorem after_hostOps0_of_ne (W : Valuation τ sig (Elt F)) (b : Ref sig .tc) (h0 : b ≠ main_v0) (h1 : b ≠ main_v1) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))

/-- A buffer the last host stretch does not write (neither the slice nor its reshape) keeps its contents over it. -/
theorem after_hostOps2_of_ne (W : Valuation τ sig (Elt F)) (b : Ref sig .tc) (h0 : b ≠ main_v4) (h1 : b ≠ main_v5) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.unary_writes, StableHlo.reshape_writes, Finset.mem_singleton]
    exact ⟨StableHlo.devRef_ne_of_ne h0, StableHlo.devRef_ne_of_ne h1⟩))

/-- A core's buffers at launch. -/
abbrev W0 : Dev nD → Valuation τ sig (Elt F) := fun c b => (s₀ m ρ).mem ((c : Dev nD), b)
/-- After the two bias reshapes: what the recurrent-projection call is entered from. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b
/-- After the recurrent-projection call: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's own references: what the cell call is entered from. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the cell call, entered at the first call's exit contents: its arrays at what its write-backs leave. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the core's own references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the slice of the top layer's hidden state and its reshape: the contents at the return. -/
abbrev W4 : Dev nD → Valuation τ sig (Elt F) := fun c => StableHlo.after hostOps2 (W3 m ρ c)

/-! ## The argument arrays end as launched

No host operation writes an argument (the first stretch writes the two reshaped biases, the last the slice and its
reshape), and a call either reads an argument through an input window, which is never written back, or does not
touch it: the fold at an argument's buffer walks back to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := after_hostOps2_of_ne _ main_arg0 (by decide) (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := after_hostOps0_of_ne _ main_arg0 (by decide) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := after_hostOps2_of_ne _ main_arg1 (by decide) (by decide)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := after_hostOps0_of_ne _ main_arg1 (by decide) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := after_hostOps2_of_ne _ main_arg2 (by decide) (by decide)
    _ = W2 m ρ c (Proc.devRef .tc main_arg2) := (W3_arr m ρ c 1).trans (((dat1 (V2 m ρ) c).arrAt_in 1 rfl _).trans (A_eq1 (V2 m ρ) c 1))
    _ = W1 m ρ c (Proc.devRef .tc main_arg2) := W2_of_ne m ρ c main_arg2 (by decide)
    _ = W0 m ρ c (Proc.devRef .tc main_arg2) := after_hostOps0_of_ne _ main_arg2 (by decide) (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := after_hostOps2_of_ne _ main_arg3 (by decide) (by decide)
    _ = W2 m ρ c (Proc.devRef .tc main_arg3) := (W3_arr m ρ c 2).trans (((dat1 (V2 m ρ) c).arrAt_in 2 rfl _).trans (A_eq1 (V2 m ρ) c 2))
    _ = W1 m ρ c (Proc.devRef .tc main_arg3) := W2_of_ne m ρ c main_arg3 (by decide)
    _ = W0 m ρ c (Proc.devRef .tc main_arg3) := after_hostOps0_of_ne _ main_arg3 (by decide) (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := after_hostOps2_of_ne _ main_arg4 (by decide) (by decide)
    _ = W2 m ρ c (Proc.devRef .tc main_arg4) := W3_of_ne m ρ c main_arg4 (by decide)
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := after_hostOps0_of_ne _ main_arg4 (by decide) (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := after_hostOps2_of_ne _ main_arg5 (by decide) (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := after_hostOps0_of_ne _ main_arg5 (by decide) (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := after_hostOps2_of_ne _ main_arg6 (by decide) (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := after_hostOps0_of_ne _ main_arg6 (by decide) (by decide)
    _ = m ((c : Thread nD τ).loc main_arg6) := rfl

/-! ## What the calls read and what the program returns -/

/-- The recurrent-projection call finds the launch contents in the arrays it reads that are arguments, -/
theorem V1_main_arg1 (c : Dev nD) : V1 m ρ c main_arg1 = m ((c : Thread nD τ).loc main_arg1) :=
  after_hostOps0_of_ne _ main_arg1 (by decide) (by decide)
theorem V1_main_arg4 (c : Dev nD) : V1 m ρ c main_arg4 = m ((c : Thread nD τ).loc main_arg4) :=
  after_hostOps0_of_ne _ main_arg4 (by decide) (by decide)
/-- and the recurrent bias reshaped to one row per layer in the third. -/
theorem V1_main_v1 (c : Dev nD) :
    (V1 m ρ c main_v1 : S4x1x4096.Idx → Elt F .f32) = shapeCast S4x1x4096 (m ((c : Thread nD τ).loc main_arg6) : S4x4096.Idx → Elt F .f32) shapeCasts_S4x4096_S4x1x4096 := by
  show StableHlo.after hostOps0 (W0 m ρ c) (Proc.devRef .tc main_v1) = _
  after_results; rfl

/-- The cell call finds the launch contents in the arrays it reads that are arguments, -/
theorem V2_main_arg0 (c : Dev nD) : V2 m ρ c main_arg0 = m ((c : Thread nD τ).loc main_arg0) :=
  (W2_of_ne m ρ c main_arg0 (by decide)).trans (after_hostOps0_of_ne _ main_arg0 (by decide) (by decide))
theorem V2_main_arg2 (c : Dev nD) : V2 m ρ c main_arg2 = m ((c : Thread nD τ).loc main_arg2) :=
  (W2_of_ne m ρ c main_arg2 (by decide)).trans (after_hostOps0_of_ne _ main_arg2 (by decide) (by decide))
theorem V2_main_arg3 (c : Dev nD) : V2 m ρ c main_arg3 = m ((c : Thread nD τ).loc main_arg3) :=
  (W2_of_ne m ρ c main_arg3 (by decide)).trans (after_hostOps0_of_ne _ main_arg3 (by decide) (by decide))
/-- the input bias reshaped to one row per layer, -/
theorem V2_main_v0 (c : Dev nD) :
    (V2 m ρ c main_v0 : S4x1x4096.Idx → Elt F .f32) = shapeCast S4x1x4096 (m ((c : Thread nD τ).loc main_arg5) : S4x4096.Idx → Elt F .f32) shapeCasts_S4x4096_S4x1x4096 := by
  refine (W2_of_ne m ρ c main_v0 (by decide)).trans ?_
  show StableHlo.after hostOps0 (W0 m ρ c) (Proc.devRef .tc main_v0) = _
  after_results; rfl
/-- and the recurrent projection as the first call's write-backs leave it. -/
theorem V2_main_v2 (c : Dev nD) : V2 m ρ c main_v2 = (dat0 (V1 m ρ) c).arrAt 3 cfg0.N :=
  W2_arr m ρ c 3

/-- The program's second and third results are the cell call's two output arrays as its write-backs leave them, -/
theorem W4_main_v3_0 (c : Dev nD) : W4 m ρ c (Proc.devRef .tc main_v3_0) = (dat1 (V2 m ρ) c).arrAt 5 cfg1.N :=
  (after_hostOps2_of_ne _ main_v3_0 (by decide) (by decide)).trans (W3_arr m ρ c 5)
theorem W4_main_v3_1 (c : Dev nD) : W4 m ρ c (Proc.devRef .tc main_v3_1) = (dat1 (V2 m ρ) c).arrAt 6 cfg1.N :=
  (after_hostOps2_of_ne _ main_v3_1 (by decide) (by decide)).trans (W3_arr m ρ c 6)
/-- and its first result is the last layer's block of the hidden-state output, as a matrix. -/
theorem W4_main_v5 (c : Dev nD) :
    (W4 m ρ c (Proc.devRef .tc main_v5) : S128x1024.Idx → Elt F .f32)
      = shapeCast S128x1024 (extractStridedSlice S1x128x1024 ![3, 0, 0] ((dat1 (V2 m ρ) c).arrAt 5 cfg1.N : S4x128x1024.Idx → Elt F .f32) slices_S4x128x1024_S1x128x1024_3_0_0)
          shapeCasts_S1x128x1024_S128x1024 := by
  rw [← W3_arr m ρ c 5]
  show StableHlo.after hostOps2 (W3 m ρ c) (Proc.devRef .tc main_v5) = _
  after_results; rfl

/-! ## The proof data of both calls and the thread state between stretches -/

/-- Neither call has a prefetched table. -/
abbrev runAdm : (p : Fin 2) → (pcfgs (F := F) p).Adm := fun p => (cfgs p).toPCfg_adm
/-- Each call's proof data at the contents it is entered from. -/
def pdats : (p : Fin 2) → (c : Dev nD) → Dat τ (Elt F) Unit ℕ (UR sig nD τ) ℕ (Pipeline.pin (pcfgs (F := F)) runAdm p) c
  | ⟨0, _⟩ => fun c => dat0 (V1 m ρ) c
  | ⟨1, _⟩ => fun c => dat1 (V2 m ρ) c
abbrev run𝒱 : Variants := Variants.none
/-- No core owes another anything. -/
abbrev runL : GSem nD τ sig → Finset Unit := fun _ => ∅
abbrev runLv : GSem nD τ sig → Unit → ℕ := fun _ _ => 0
/-- Beside the buffers a core carries its generator register, at some state, and its ledger, owing nothing. -/
abbrev runR (c : Dev nD) : sProp 𝕄 := iprop((∃ r, prngReg c r) ∗ ∃ W, owes (c : Thread nD τ) (0 : CellTallies nD τ sig Unit) W)
/-- A host stretch over all unscoped buffers, from the contents `W`. -/
abbrev runHseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ run𝒱 runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runR

/-- Neither host stretch allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped reference of the core is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the ledger: every unscoped buffer at the return contents, the generator register. -/
abbrev runTn (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The recurrent-projection call: entered with every unscoped buffer at the contents after the bias reshapes, left
    with them at its exit contents. Its arrays are split out of the unscoped buffers and put back; the generator
    register passes through the invariant; nothing is owed and the call has no semaphore of its own. -/
def reg0 : Pipeline.RegionSeg (pcfgs (F := F)) runAdm (pdats m ρ) () defs₀ run𝒱 runL runLv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ runL runLv 0 fun _ _ => rfl
  pre c := iprop(StableHlo.held (c : Thread nD τ) (Pipeline.ucRefs τ sig) (W1 m ρ c) ∗ runR c)
  post c := iprop(StableHlo.held (c : Thread nD τ) (Pipeline.ucRefs τ sig) (W2 m ρ c) ∗ runR c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) runAdm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) runAdm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The cell call: entered with every unscoped buffer at the first call's exit contents, left with them at its own.
    Its invariant at the first point is made from the plain one (the scratch buffers at any contents) and gives the
    plain one back at the last. -/
def reg1 : Pipeline.RegionSeg (pcfgs (F := F)) runAdm (pdats m ρ) () defs₀ run𝒱 runL runLv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ runL runLv 1 fun _ _ => rfl
  pre c := iprop(StableHlo.held (c : Thread nD τ) (Pipeline.ucRefs τ sig) (W2 m ρ c) ∗ runR c)
  post c := iprop(StableHlo.held (c : Thread nD τ) (Pipeline.ucRefs τ sig) (W3 m ρ c) ∗ runR c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) runAdm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) runAdm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The four segments in program order. -/
abbrev runSegs : List (Pipeline.Seg (pcfgs (F := F)) runAdm (pdats m ρ) () defs₀ run𝒱 runL runLv) :=
  [ .host (runHseg hostOps0 hostOps0_sub hostOps0_fresh (W0 m ρ)),
    .region (reg0 m ρ),
    .region (reg1 m ρ),
    .host (runHseg hostOps2 hostOps2_sub hostOps2_fresh (W3 m ρ)) ]
/-- The program is the run of its segments. -/
theorem main_run (c : Dev nD) : main (F := F) c = Pipeline.Seg.run (runSegs m ρ) :=
  main_segs runAdm (pdats m ρ) () run𝒱 runL runLv _ _ (reg0 m ρ) (reg1 m ρ) rfl rfl c

set_option backward.isDefEq.respectTransparency.types false in
/-- From any memory with zero counters every weakly fair execution of the program terminates, nothing faulting, and
    in every final state every unscoped buffer holds the fold's contents at the return — whatever is to be read off
    them (`hQ`). -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) runAdm (pdats m ρ) () cellOf_inj emb₁ defs₀ run𝒱 runL runLv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ runR c)) (Tₙ := runTn m ρ)
    (hch := ⟨fun _ => .rfl, fun _ => .rfl, fun _ => .rfl, fun _ => .rfl, fun c => by
      show iprop(StableHlo.held (c : Thread nD τ) (Pipeline.ucRefs τ sig) (W4 m ρ c) ∗ runR c)
        ⊢ iprop(runTn m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run, with every unscoped buffer's final contents named. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  run_post m ρ fun s h => h

/-- The frame: the program terminates without fault and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_post m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩

end Cert.Kernel.Hand

end
-- ==== Proof.KI.Zhh.lean ====
/-
  The recurrent pre-activation kernel as a pipeline region, at the buffer contents the region is entered with.

  The region walks a 4 × 4 grid (layer, gate). At each point its body reads three blocks whole — the layer's old
  hidden state (128 × 1024), the gate's 1024 rows of the layer's recurrent weights (1024 × 1024) and the gate's
  1024 entries of the layer's reshaped recurrent bias — and stores, whole, the product of the first against the
  transposed second plus the bias row repeated down the 128 rows. This file states what the body leaves in each
  window's buffer as a function of the blocks it read, proves the body's triple, and packages both as the proof
  data of the pipeline with the body obligation the launch theorems ask for. Everything is generic in the
  float model.
-/
import proofs.«115084_j79534204387582_2_alg».proof.Proof.Gen.KernelIdeal.Launch
import proofs.«115084_j79534204387582_2_alg».proof.Proof.Gen.KernelIdeal.Skeleton
import proofs.«115084_j79534204387582_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers when the region is entered
variable (V : (c : Dev nD) → (b : Ref sig .tc) → Buf (Elt F) ((c : Thread nD τ).loc b))

/-! ## The blocks the windows show -/

/-- The block window `w` shows at grid point `t`, cut out of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The hidden-state window's buffer holds the layer's block at every point, although it is fetched only when
    the layer changes: between fetches the block index does not move and the body leaves the buffer alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the (layer, gate) block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window's buffer holds the (layer, gate) block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each buffer whole -/

abbrev rH : Rect S1x128x1024 := Rect.unit (s := S1x128x1024) ![0, 0, 0] S1x128x1024.size inb_S1x128x1024_S1x128x1024_0_0_0
abbrev rW : Rect S1x1024x1024 := Rect.unit (s := S1x1024x1024) ![0, 0, 0] S1x1024x1024.size inb_S1x1024x1024_S1x1024x1024_0_0_0
abbrev rB : Rect S1x1x1024 := Rect.unit (s := S1x1x1024) ![0, 0, 0] S1x1x1024.size inb_S1x1x1024_S1x1x1024_0_0_0

/-! ## What the body leaves in the output window's buffer -/

/-- The output buffer after the body, from the three blocks read: one store of the whole buffer, whose value is
    the product-plus-bias of the three loads. -/
def out0_3 (x0 : Vec F S1x128x1024 .f32) (x1 : Vec F S1x1024x1024 .f32) (x2 : Vec F S1x1x1024 .f32) : Vec F S1x128x1024 .f32 :=
  View.canon [⟨rH, k0_pay1 (View.ld x0 rH) (View.ld x1 rW) (View.ld x2 rB)⟩]

/-- The one store covers the buffer. -/
theorem cover0_3 (p0 : Vec F S1x128x1024 .f32) (y : S1x128x1024.Idx) :
    ∃ pc ∈ ([⟨rH, p0⟩] : List (View.Piece (Elt F) S1x128x1024 .f32)), y ∈ pc.1.set :=
  View.cover_of_tiled [⟨rH, p0⟩] S1x128x1024.size (by rfl) y

/-! ## The body's triple -/

set_option maxHeartbeats 1000000 in
/-- The body, run on whole buffers holding `x0`, `x1`, `x2` and an output buffer holding anything, ends with the
    three inputs as they were and the output at `out0_3 x0 x1 x2`. -/
theorem sound_kernel0 (c : Dev nD) (E : Set ℕ) (i : grid0.Coords)
    (arg2 : Memref sig .tc .vmem S1x128x1024 .f32) (harg2 : arg2.IsWhole)
    (arg3 : Memref sig .tc .vmem S1x1024x1024 .f32) (harg3 : arg3.IsWhole)
    (arg4 : Memref sig .tc .vmem S1x1x1024 .f32) (harg4 : arg4.IsWhole)
    (arg5 : Memref sig .tc .vmem S1x128x1024 .f32) (harg5 : arg5.IsWhole)
    (x0 : Vec F S1x128x1024 .f32) (x1 : Vec F S1x1024x1024 .f32) (x2 : Vec F S1x1x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out0_3 x0 x1 x2)) -∗ K ⟨⟩))
      ⊢ wp frame (wpE (defs₀ (F := F)) Variants.none c none) E (cc0__zhh_kernel i arg2 harg2 arg3 harg3 arg4 harg4 arg5 harg5) K := by
  simp only [cc0__zhh_kernel_eq_skeleton]; unfold cc0__zhh_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them; after the body at point `t`
    each input's buffer still at its block and the output's at `out0_3` of the three blocks; the invariant the
    one that carries the untouched scoped buffers and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's buffer holds its block when the body is called, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.CellDefs.lean ====
/-
  The recurrent kernel's grid, point by point: which of its seven guarded blocks run where, where its two output
  windows are idle, and the buffers its body is called with.

  The grid is 4 layers × 4 gates, the gate varying fastest, so point t is layer t / 4, gate t % 4. The body's guards
  are comparisons of the two grid coordinates with literals; over the 16 points each holds exactly on one residue
  class of t modulo 4 (the very first point for the seeding of the carried input). The output windows (new hidden
  state, new cell state) are stored only at gate 3 and written back only there.
-/
import proofs.«115084_j79534204387582_2_alg».proof.Proof.Gen.KernelIdeal.Launch
import proofs.«115084_j79534204387582_2_alg».proof.Proof.Gen.KernelIdeal.Skeleton
import proofs.«115084_j79534204387582_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The guards, from the grid coordinates -/

/-- "First layer and first gate": the carried input is seeded from the data. -/
abbrev gSeed (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- "Gate 0" (the input gate; also where the input is rounded once for the layer). -/
abbrev gate0 (i : grid1.Coords) : Prop := Scalar.cmpi .ne (Scalar.extui (Scalar.cmpi .eq (BitVec.ofNat 32 (i 1).val) 0#32)) 0#32 = 1#1
/-- "Gate 1" (the forget gate). -/
abbrev gate1 (i : grid1.Coords) : Prop := Scalar.cmpi .ne (Scalar.extui (Scalar.cmpi .eq (BitVec.ofNat 32 (i 1).val) 1#32)) 0#32 = 1#1
/-- "Gate 2" (the cell candidate). -/
abbrev gate2 (i : grid1.Coords) : Prop := Scalar.cmpi .ne (Scalar.extui (Scalar.cmpi .eq (BitVec.ofNat 32 (i 1).val) 2#32)) 0#32 = 1#1
/-- "Gate 3" (the output gate). -/
abbrev gate3 (i : grid1.Coords) : Prop := Scalar.cmpi .ne (Scalar.extui (Scalar.cmpi .eq (BitVec.ofNat 32 (i 1).val) 3#32)) 0#32 = 1#1
/-- "Last gate": the layer's states are combined and stored. -/
abbrev gLast (i : grid1.Coords) : Prop := k1_cond7 i = 1#1

theorem hSeed : ∀ t : Fin cfg1.N, gSeed (grid1.coords t) ↔ t.val = 0 :=
  (by decide +kernel : ∀ t : Fin grid1.N, gSeed (grid1.coords t) ↔ t.val = 0)
theorem hGate0 : ∀ t : Fin cfg1.N, gate0 (grid1.coords t) ↔ t.val % 4 = 0 :=
  (by decide +kernel : ∀ t : Fin grid1.N, gate0 (grid1.coords t) ↔ t.val % 4 = 0)
theorem hGate1 : ∀ t : Fin cfg1.N, gate1 (grid1.coords t) ↔ t.val % 4 = 1 :=
  (by decide +kernel : ∀ t : Fin grid1.N, gate1 (grid1.coords t) ↔ t.val % 4 = 1)
theorem hGate2 : ∀ t : Fin cfg1.N, gate2 (grid1.coords t) ↔ t.val % 4 = 2 :=
  (by decide +kernel : ∀ t : Fin grid1.N, gate2 (grid1.coords t) ↔ t.val % 4 = 2)
theorem hGate3 : ∀ t : Fin cfg1.N, gate3 (grid1.coords t) ↔ t.val % 4 = 3 :=
  (by decide +kernel : ∀ t : Fin grid1.N, gate3 (grid1.coords t) ↔ t.val % 4 = 3)
theorem hLast : ∀ t : Fin cfg1.N, gLast (grid1.coords t) ↔ t.val % 4 = 3 :=
  (by decide +kernel : ∀ t : Fin grid1.N, gLast (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- Away from gate 3 the two output windows are idle and not written back. -/
theorem idle1_5 : ∀ t : Fin cfg1.N, ¬ t.val % 4 = 3 → cfg1.idle 5 (grid1.coords t) = true := by decide +kernel
theorem idle1_6 : ∀ t : Fin cfg1.N, ¬ t.val % 4 = 3 → cfg1.idle 6 (grid1.coords t) = true := by decide +kernel
theorem noFlush1_5 : ∀ t : Fin cfg1.N, ¬ t.val % 4 = 3 → (cfg1.win 5).flush t = false := by decide +kernel
theorem noFlush1_6 : ∀ t : Fin cfg1.N, ¬ t.val % 4 = 3 → (cfg1.win 6).flush t = false := by decide +kernel
/-- At gate 3 they are live. -/
theorem live1_5 : ∀ t : Fin cfg1.N, t.val % 4 = 3 → cfg1.idle 5 (grid1.coords t) = false := by decide +kernel
theorem live1_6 : ∀ t : Fin cfg1.N, t.val % 4 = 3 → cfg1.idle 6 (grid1.coords t) = false := by decide +kernel

/-! ## The buffers the body is called with -/

abbrev ms1_0 (t : Fin cfg1.N) : Memref sig .tc .vmem S128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128x1024 .f32 := win1_6.stage (cfg1.slots t 6)
abbrev hs1_6 (t : Fin cfg1.N) : (ms1_6 t).IsWhole := hstage1_6 ((cfg1.slots t 6).cast nbuf1_6)

/-- The six scratch buffers: the carried input, its rounded copy, and the four gates' activations. -/
abbrev scInp : Memref sig .tc .vmem S128x1024 .f32 := Memref.whole cc1_scratch0
abbrev scInpB : Memref sig .tc .vmem S128x1024 .bf16 := Memref.whole cc1_scratch1
abbrev scI : Memref sig .tc .vmem S128x1024 .f32 := Memref.whole cc1_scratch2
abbrev scF : Memref sig .tc .vmem S128x1024 .f32 := Memref.whole cc1_scratch3
abbrev scG : Memref sig .tc .vmem S128x1024 .f32 := Memref.whole cc1_scratch4
abbrev scO : Memref sig .tc .vmem S128x1024 .f32 := Memref.whole cc1_scratch5

/-- One staging buffer of each output window, through which its contents are stated. -/
abbrev VO5 : View sig .tc .vmem S1x128x1024 .f32 := (Memref.whole cc1_stg5_0 : Memref sig .tc .vmem S1x128x1024 .f32).view
abbrev VO6 : View sig .tc .vmem S1x128x1024 .f32 := (Memref.whole cc1_stg6_0 : Memref sig .tc .vmem S1x128x1024 .f32).view

/-- The eight staging buffers of the other kernel, which this kernel never touches, each at some contents. -/
def otherStaging (c : Dev nD) : sProp 𝕄 :=
  iprop((∃ d, owns (c : Thread nD τ) (Memref.whole cc0_stg0_0 : Memref sig .tc .vmem S1x128x1024 .f32) fullShare d)
    ∗ (∃ d, owns (c : Thread nD τ) (Memref.whole cc0_stg0_1 : Memref sig .tc .vmem S1x128x1024 .f32) fullShare d)
    ∗ (∃ d, owns (c : Thread nD τ) (Memref.whole cc0_stg1_0 : Memref sig .tc .vmem S1x1024x1024 .f32) fullShare d)
    ∗ (∃ d, owns (c : Thread nD τ) (Memref.whole cc0_stg1_1 : Memref sig .tc .vmem S1x1024x1024 .f32) fullShare d)
    ∗ (∃ d, owns (c : Thread nD τ) (Memref.whole cc0_stg2_0 : Memref sig .tc .vmem S1x1x1024 .f32) fullShare d)
    ∗ (∃ d, owns (c : Thread nD τ) (Memref.whole cc0_stg2_1 : Memref sig .tc .vmem S1x1x1024 .f32) fullShare d)
    ∗ (∃ d, owns (c : Thread nD τ) (Memref.whole cc0_stg3_0 : Memref sig .tc .vmem S1x128x1024 .f32) fullShare d)
    ∗ (∃ d, owns (c : Thread nD τ) (Memref.whole cc0_stg3_1 : Memref sig .tc .vmem S1x128x1024 .f32) fullShare d))

/-- The class invariant opened: the other kernel's staging buffers, the six scratch buffers each at some contents, the
    generator register at some state. -/
theorem PhiA1_eq (c : Dev nD) :
    (Pipeline.ΦA spec1 c : sProp 𝕄)
      = iprop(iprop((∃ d, owns (c : Thread nD τ) (Memref.whole cc0_stg0_0 : Memref sig .tc .vmem S1x128x1024 .f32) fullShare d)
          ∗ (∃ d, owns (c : Thread nD τ) (Memref.whole cc0_stg0_1 : Memref sig .tc .vmem S1x128x1024 .f32) fullShare d)
          ∗ (∃ d, owns (c : Thread nD τ) (Memref.whole cc0_stg1_0 : Memref sig .tc .vmem S1x1024x1024 .f32) fullShare d)
          ∗ (∃ d, owns (c : Thread nD τ) (Memref.whole cc0_stg1_1 : Memref sig .tc .vmem S1x1024x1024 .f32) fullShare d)
          ∗ (∃ d, owns (c : Thread nD τ) (Memref.whole cc0_stg2_0 : Memref sig .tc .vmem S1x1x1024 .f32) fullShare d)
          ∗ (∃ d, owns (c : Thread nD τ) (Memref.whole cc0_stg2_1 : Memref sig .tc .vmem S1x1x1024 .f32) fullShare d)
          ∗ (∃ d, owns (c : Thread nD τ) (Memref.whole cc0_stg3_0 : Memref sig .tc .vmem S1x128x1024 .f32) fullShare d)
          ∗ (∃ d, owns (c : Thread nD τ) (Memref.whole cc0_stg3_1 : Memref sig .tc .vmem S1x128x1024 .f32) fullShare d)
          ∗ (∃ d, owns (c : Thread nD τ) scInp fullShare d)
          ∗ (∃ d, owns (c : Thread nD τ) scInpB fullShare d)
          ∗ (∃ d, owns (c : Thread nD τ) scI fullShare d)
          ∗ (∃ d, owns (c : Thread nD τ) scF fullShare d)
          ∗ (∃ d, owns (c : Thread nD τ) scG fullShare d)
          ∗ (∃ d, owns (c : Thread nD τ) scO fullShare d)) ∗ (∃ r, prngReg c r)) := by
  unfold Pipeline.ΦA; rw [scopedRest1_eq]; simp only [scInp, scInpB, scI, scF, scG, scO, owns_whole]; try rfl

/-- The same with the other kernel's buffers as one group. -/
theorem PhiA1_split (c : Dev nD) :
    (Pipeline.ΦA spec1 c : sProp 𝕄)
      ⊢ iprop(otherStaging (F := F) c ∗ (∃ d, owns (c : Thread nD τ) scInp fullShare d) ∗ (∃ d, owns (c : Thread nD τ) scInpB fullShare d) ∗ (∃ d, owns (c : Thread nD τ) scI fullShare d) ∗ (∃ d, owns (c : Thread nD τ) scF fullShare d) ∗ (∃ d, owns (c : Thread nD τ) scG fullShare d) ∗ (∃ d, owns (c : Thread nD τ) scO fullShare d) ∗ (∃ r, prngReg c r)) := by
  rw [PhiA1_eq]; unfold otherStaging
  iintro ⟨⟨H0, H1, H2, H3, H4, H5, H6, H7, H8, H9, H10, H11, H12, H13⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexact H9
  isplitl [H10]; · iexact H10
  isplitl [H11]; · iexact H11
  isplitl [H12]; · iexact H12
  isplitl [H13]; · iexact H13
  iexact Hg

theorem PhiA1_join (c : Dev nD) :
    iprop(otherStaging (F := F) c ∗ (∃ d, owns (c : Thread nD τ) scInp fullShare d) ∗ (∃ d, owns (c : Thread nD τ) scInpB fullShare d) ∗ (∃ d, owns (c : Thread nD τ) scI fullShare d) ∗ (∃ d, owns (c : Thread nD τ) scF fullShare d) ∗ (∃ d, owns (c : Thread nD τ) scG fullShare d) ∗ (∃ d, owns (c : Thread nD τ) scO fullShare d) ∗ (∃ r, prngReg c r))
      ⊢ (Pipeline.ΦA spec1 c : sProp 𝕄) := by
  rw [PhiA1_eq]; unfold otherStaging
  iintro ⟨⟨H0, H1, H2, H3, H4, H5, H6, H7⟩, H8, H9, H10, H11, H12, H13, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact Hg

end Cert.KernelIdeal.Hand

end
-- ==== Proof.KI.RunA.lean ====
/-
  The recurrent kernel's body run once, in the control case of the very first point: the carried input is seeded from the data, rounded, and the input gate is stored.

  The run is stated on any whole buffers: the buffers the case reads hold given contents and keep them; each buffer
  the case stores into is handed over at anything and comes back with the case's stores applied, as a list of pieces
  (last store first) that the symbolic run itself determines. Buffers the case does not touch are not mentioned.
-/
import proofs.«115084_j79534204387582_2_alg».proof.Proof.KI.CellDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S128x1024 .f32) (harg2 : arg2.IsWhole) (arg3 : Memref sig .tc .vmem S1x128x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole)

set_option maxHeartbeats 4000000 in
/-- The body in this case: the pieces each stored buffer ends with, and the proof that the body runs to its
    continuation with exactly those pieces written. -/
noncomputable def runA (hS : gSeed i) (h0 : gate0 i) (h1 : ¬gate1 i) (h2 : ¬gate2 i) (h3 : ¬gate3 i) (hL : ¬gLast i)
    (x0 : Vec F S128x1024 .f32) (x2 : Vec F S1x1024x1024 .f32) (x3 : Vec F S1x1x1024 .f32) (x4 : Vec F S1x128x1024 .f32) :
    Σ' (L9 : List (View.Piece (Elt F) S128x1024 .f32)) (L10 : List (View.Piece (Elt F) S128x1024 .bf16)), { L11 : List (View.Piece (Elt F) S128x1024 .f32) //
      ∀ (E : Set ℕ) (K : PUnit → sProp 𝕄),
        iprop(owns (c : Thread nD τ) arg2 fullShare x0
            ∗ owns (c : Thread nD τ) arg4 fullShare x2
            ∗ owns (c : Thread nD τ) arg5 fullShare x3
            ∗ owns (c : Thread nD τ) arg6 fullShare x4
            ∗ (∃ d, owns (c : Thread nD τ) arg9 fullShare d)
            ∗ (∃ d, owns (c : Thread nD τ) arg10 fullShare d)
            ∗ (∃ d, owns (c : Thread nD τ) arg11 fullShare d)
            ∗ (iprop(owns (c : Thread nD τ) arg2 fullShare x0
                ∗ owns (c : Thread nD τ) arg4 fullShare x2
                ∗ owns (c : Thread nD τ) arg5 fullShare x3
                ∗ owns (c : Thread nD τ) arg6 fullShare x4
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)) -∗ K ⟨⟩))
          ⊢ wp frame (wpE (defs₀ (F := F)) Variants.none c none) E (cc1__lstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc1__lstm_kernel_eq_skeleton]; unfold cc1__lstm_kernel_skel
    simp only [k1_part1_eq_skeleton]
    unfold owns
    iintro ⟨⟨%f2, %hf2, H2⟩, ⟨%f4, %hf4, H4⟩, ⟨%f5, %hf5, H5⟩, ⟨%f6, %hf6, H6⟩, ⟨%d9, %f9, -, H9⟩, ⟨%d10, %f10, -, H10⟩, ⟨%d11, %f11, -, H11⟩, Hk⟩
    obtain rfl := harg2.eq_unread hf2; obtain rfl := harg4.eq_unread hf4; obtain rfl := harg5.eq_unread hf5; obtain rfl := harg6.eq_unread hf6
    sl_exec (disch := first | exact hS | exact h0 | exact h1 | exact h2 | exact h3 | exact hL)
    sl_step
    iapply Hk
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H9]; · iexists _; iexact H9
    isplitl [H10]; · iexists _; iexact H10
    iexists _; iexact H11

end Cert.KernelIdeal.Hand

end
-- ==== Proof.KI.RunB.lean ====
/-
  The recurrent kernel's body run once, in the control case of gate 0 of a later layer: the carried input (the layer below's new hidden state) is rounded and the input gate is stored.

  The run is stated on any whole buffers: the buffers the case reads hold given contents and keep them; each buffer
  the case stores into is handed over at anything and comes back with the case's stores applied, as a list of pieces
  (last store first) that the symbolic run itself determines. Buffers the case does not touch are not mentioned.
-/
import proofs.«115084_j79534204387582_2_alg».proof.Proof.KI.CellDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S128x1024 .f32) (harg2 : arg2.IsWhole) (arg3 : Memref sig .tc .vmem S1x128x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole)

set_option maxHeartbeats 4000000 in
/-- The body in this case: the pieces each stored buffer ends with, and the proof that the body runs to its
    continuation with exactly those pieces written. -/
noncomputable def runB (hS : ¬gSeed i) (h0 : gate0 i) (h1 : ¬gate1 i) (h2 : ¬gate2 i) (h3 : ¬gate3 i) (hL : ¬gLast i)
    (xs : Vec F S128x1024 .f32) (x2 : Vec F S1x1024x1024 .f32) (x3 : Vec F S1x1x1024 .f32) (x4 : Vec F S1x128x1024 .f32) :
    Σ' (L10 : List (View.Piece (Elt F) S128x1024 .bf16)), { L11 : List (View.Piece (Elt F) S128x1024 .f32) //
      ∀ (E : Set ℕ) (K : PUnit → sProp 𝕄),
        iprop(owns (c : Thread nD τ) arg9 fullShare xs
            ∗ owns (c : Thread nD τ) arg4 fullShare x2
            ∗ owns (c : Thread nD τ) arg5 fullShare x3
            ∗ owns (c : Thread nD τ) arg6 fullShare x4
            ∗ (∃ d, owns (c : Thread nD τ) arg10 fullShare d)
            ∗ (∃ d, owns (c : Thread nD τ) arg11 fullShare d)
            ∗ (iprop(owns (c : Thread nD τ) arg9 fullShare xs
                ∗ owns (c : Thread nD τ) arg4 fullShare x2
                ∗ owns (c : Thread nD τ) arg5 fullShare x3
                ∗ owns (c : Thread nD τ) arg6 fullShare x4
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)) -∗ K ⟨⟩))
          ⊢ wp frame (wpE (defs₀ (F := F)) Variants.none c none) E (cc1__lstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc1__lstm_kernel_eq_skeleton]; unfold cc1__lstm_kernel_skel
    simp only [k1_part1_eq_skeleton]
    unfold owns
    iintro ⟨⟨%f9, %hf9, H9⟩, ⟨%f4, %hf4, H4⟩, ⟨%f5, %hf5, H5⟩, ⟨%f6, %hf6, H6⟩, ⟨%d10, %f10, -, H10⟩, ⟨%d11, %f11, -, H11⟩, Hk⟩
    obtain rfl := harg9.eq_unread hf9; obtain rfl := harg4.eq_unread hf4; obtain rfl := harg5.eq_unread hf5; obtain rfl := harg6.eq_unread hf6
    sl_exec (disch := first | exact hS | exact h0 | exact h1 | exact h2 | exact h3 | exact hL)
    sl_step
    iapply Hk
    isplitl [H9]
    · iexists _; isplitr; · ipureintro; exact harg9.read_unread _
      iexact H9
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H10]; · iexists _; iexact H10
    iexists _; iexact H11

end Cert.KernelIdeal.Hand

end
-- ==== Proof.KI.RunC.lean ====
/-
  The recurrent kernel's body run once, in the control case of gate 1: the forget gate is stored.

  The run is stated on any whole buffers: the buffers the case reads hold given contents and keep them; each buffer
  the case stores into is handed over at anything and comes back with the case's stores applied, as a list of pieces
  (last store first) that the symbolic run itself determines. Buffers the case does not touch are not mentioned.
-/
import proofs.«115084_j79534204387582_2_alg».proof.Proof.KI.CellDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S128x1024 .f32) (harg2 : arg2.IsWhole) (arg3 : Memref sig .tc .vmem S1x128x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole)

set_option maxHeartbeats 4000000 in
/-- The body in this case: the pieces each stored buffer ends with, and the proof that the body runs to its
    continuation with exactly those pieces written. -/
noncomputable def runC (hS : ¬gSeed i) (h0 : ¬gate0 i) (h1 : gate1 i) (h2 : ¬gate2 i) (h3 : ¬gate3 i) (hL : ¬gLast i)
    (xb : Vec F S128x1024 .bf16) (x2 : Vec F S1x1024x1024 .f32) (x3 : Vec F S1x1x1024 .f32) (x4 : Vec F S1x128x1024 .f32) :
    { L12 : List (View.Piece (Elt F) S128x1024 .f32) //
      ∀ (E : Set ℕ) (K : PUnit → sProp 𝕄),
        iprop(owns (c : Thread nD τ) arg10 fullShare xb
            ∗ owns (c : Thread nD τ) arg4 fullShare x2
            ∗ owns (c : Thread nD τ) arg5 fullShare x3
            ∗ owns (c : Thread nD τ) arg6 fullShare x4
            ∗ (∃ d, owns (c : Thread nD τ) arg12 fullShare d)
            ∗ (iprop(owns (c : Thread nD τ) arg10 fullShare xb
                ∗ owns (c : Thread nD τ) arg4 fullShare x2
                ∗ owns (c : Thread nD τ) arg5 fullShare x3
                ∗ owns (c : Thread nD τ) arg6 fullShare x4
                ∗ (∃ f, arg12.view.loc (c : Thread nD τ) ↦[arg12.view.set]{fullShare} arg12.view.writes (Elt F) f L12)) -∗ K ⟨⟩))
          ⊢ wp frame (wpE (defs₀ (F := F)) Variants.none c none) E (cc1__lstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc1__lstm_kernel_eq_skeleton]; unfold cc1__lstm_kernel_skel
    simp only [k1_part1_eq_skeleton]
    unfold owns
    iintro ⟨⟨%f10, %hf10, H10⟩, ⟨%f4, %hf4, H4⟩, ⟨%f5, %hf5, H5⟩, ⟨%f6, %hf6, H6⟩, ⟨%d12, %f12, -, H12⟩, Hk⟩
    obtain rfl := harg10.eq_unread hf10; obtain rfl := harg4.eq_unread hf4; obtain rfl := harg5.eq_unread hf5; obtain rfl := harg6.eq_unread hf6
    sl_exec (disch := first | exact hS | exact h0 | exact h1 | exact h2 | exact h3 | exact hL)
    sl_step
    iapply Hk
    isplitl [H10]
    · iexists _; isplitr; · ipureintro; exact harg10.read_unread _
      iexact H10
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H12

end Cert.KernelIdeal.Hand

end
-- ==== Proof.KI.RunD.lean ====
/-
  The recurrent kernel's body run once, in the control case of gate 2: the cell candidate is stored.

  The run is stated on any whole buffers: the buffers the case reads hold given contents and keep them; each buffer
  the case stores into is handed over at anything and comes back with the case's stores applied, as a list of pieces
  (last store first) that the symbolic run itself determines. Buffers the case does not touch are not mentioned.
-/
import proofs.«115084_j79534204387582_2_alg».proof.Proof.KI.CellDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S128x1024 .f32) (harg2 : arg2.IsWhole) (arg3 : Memref sig .tc .vmem S1x128x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole)

set_option maxHeartbeats 4000000 in
/-- The body in this case: the pieces each stored buffer ends with, and the proof that the body runs to its
    continuation with exactly those pieces written. -/
noncomputable def runD (hS : ¬gSeed i) (h0 : ¬gate0 i) (h1 : ¬gate1 i) (h2 : gate2 i) (h3 : ¬gate3 i) (hL : ¬gLast i)
    (xb : Vec F S128x1024 .bf16) (x2 : Vec F S1x1024x1024 .f32) (x3 : Vec F S1x1x1024 .f32) (x4 : Vec F S1x128x1024 .f32) :
    { L13 : List (View.Piece (Elt F) S128x1024 .f32) //
      ∀ (E : Set ℕ) (K : PUnit → sProp 𝕄),
        iprop(owns (c : Thread nD τ) arg10 fullShare xb
            ∗ owns (c : Thread nD τ) arg4 fullShare x2
            ∗ owns (c : Thread nD τ) arg5 fullShare x3
            ∗ owns (c : Thread nD τ) arg6 fullShare x4
            ∗ (∃ d, owns (c : Thread nD τ) arg13 fullShare d)
            ∗ (iprop(owns (c : Thread nD τ) arg10 fullShare xb
                ∗ owns (c : Thread nD τ) arg4 fullShare x2
                ∗ owns (c : Thread nD τ) arg5 fullShare x3
                ∗ owns (c : Thread nD τ) arg6 fullShare x4
                ∗ (∃ f, arg13.view.loc (c : Thread nD τ) ↦[arg13.view.set]{fullShare} arg13.view.writes (Elt F) f L13)) -∗ K ⟨⟩))
          ⊢ wp frame (wpE (defs₀ (F := F)) Variants.none c none) E (cc1__lstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc1__lstm_kernel_eq_skeleton]; unfold cc1__lstm_kernel_skel
    simp only [k1_part1_eq_skeleton]
    unfold owns
    iintro ⟨⟨%f10, %hf10, H10⟩, ⟨%f4, %hf4, H4⟩, ⟨%f5, %hf5, H5⟩, ⟨%f6, %hf6, H6⟩, ⟨%d13, %f13, -, H13⟩, Hk⟩
    obtain rfl := harg10.eq_unread hf10; obtain rfl := harg4.eq_unread hf4; obtain rfl := harg5.eq_unread hf5; obtain rfl := harg6.eq_unread hf6
    sl_exec (disch := first | exact hS | exact h0 | exact h1 | exact h2 | exact h3 | exact hL)
    sl_step
    iapply Hk
    isplitl [H10]
    · iexists _; isplitr; · ipureintro; exact harg10.read_unread _
      iexact H10
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H13

end Cert.KernelIdeal.Hand

end
-- ==== Proof.KI.RunE.lean ====
/-
  The recurrent kernel's body run once, in the control case of gate 3: the output gate is stored, then the layer's new cell and hidden states are formed from the four gates and the old cell state, stored into the two output windows, and the hidden state becomes the carried input.

  The run is stated on any whole buffers: the buffers the case reads hold given contents and keep them; each buffer
  the case stores into is handed over at anything and comes back with the case's stores applied, as a list of pieces
  (last store first) that the symbolic run itself determines. Buffers the case does not touch are not mentioned.
-/
import proofs.«115084_j79534204387582_2_alg».proof.Proof.KI.CellDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S128x1024 .f32) (harg2 : arg2.IsWhole) (arg3 : Memref sig .tc .vmem S1x128x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole)

set_option maxHeartbeats 4000000 in
/-- The body in this case: the pieces each stored buffer ends with, and the proof that the body runs to its
    continuation with exactly those pieces written. -/
noncomputable def runE (hS : ¬gSeed i) (h0 : ¬gate0 i) (h1 : ¬gate1 i) (h2 : ¬gate2 i) (h3 : gate3 i) (hL : gLast i)
    (xb : Vec F S128x1024 .bf16) (x2 : Vec F S1x1024x1024 .f32) (x3 : Vec F S1x1x1024 .f32) (x4 : Vec F S1x128x1024 .f32) (x1 : Vec F S1x128x1024 .f32) (xi : Vec F S128x1024 .f32) (xf : Vec F S128x1024 .f32) (xg : Vec F S128x1024 .f32) :
    Σ' (L14 : List (View.Piece (Elt F) S128x1024 .f32)) (L7 : List (View.Piece (Elt F) S1x128x1024 .f32)) (L8 : List (View.Piece (Elt F) S1x128x1024 .f32)), { L9 : List (View.Piece (Elt F) S128x1024 .f32) //
      ∀ (E : Set ℕ) (K : PUnit → sProp 𝕄),
        iprop(owns (c : Thread nD τ) arg10 fullShare xb
            ∗ owns (c : Thread nD τ) arg4 fullShare x2
            ∗ owns (c : Thread nD τ) arg5 fullShare x3
            ∗ owns (c : Thread nD τ) arg6 fullShare x4
            ∗ owns (c : Thread nD τ) arg3 fullShare x1
            ∗ owns (c : Thread nD τ) arg11 fullShare xi
            ∗ owns (c : Thread nD τ) arg12 fullShare xf
            ∗ owns (c : Thread nD τ) arg13 fullShare xg
            ∗ (∃ d, owns (c : Thread nD τ) arg14 fullShare d)
            ∗ (∃ d, owns (c : Thread nD τ) arg7 fullShare d)
            ∗ (∃ d, owns (c : Thread nD τ) arg8 fullShare d)
            ∗ (∃ d, owns (c : Thread nD τ) arg9 fullShare d)
            ∗ (iprop(owns (c : Thread nD τ) arg10 fullShare xb
                ∗ owns (c : Thread nD τ) arg4 fullShare x2
                ∗ owns (c : Thread nD τ) arg5 fullShare x3
                ∗ owns (c : Thread nD τ) arg6 fullShare x4
                ∗ owns (c : Thread nD τ) arg3 fullShare x1
                ∗ owns (c : Thread nD τ) arg11 fullShare xi
                ∗ owns (c : Thread nD τ) arg12 fullShare xf
                ∗ owns (c : Thread nD τ) arg13 fullShare xg
                ∗ (∃ f, arg14.view.loc (c : Thread nD τ) ↦[arg14.view.set]{fullShare} arg14.view.writes (Elt F) f L14)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc1__lstm_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc1__lstm_kernel_eq_skeleton]; unfold cc1__lstm_kernel_skel
    simp only [k1_part1_eq_skeleton]
    unfold owns
    iintro ⟨⟨%f10, %hf10, H10⟩, ⟨%f4, %hf4, H4⟩, ⟨%f5, %hf5, H5⟩, ⟨%f6, %hf6, H6⟩, ⟨%f3, %hf3, H3⟩, ⟨%f11, %hf11, H11⟩, ⟨%f12, %hf12, H12⟩, ⟨%f13, %hf13, H13⟩, ⟨%d14, %f14, -, H14⟩, ⟨%d7, %f7, -, H7⟩, ⟨%d8, %f8, -, H8⟩, ⟨%d9, %f9, -, H9⟩, Hk⟩
    obtain rfl := harg10.eq_unread hf10; obtain rfl := harg4.eq_unread hf4; obtain rfl := harg5.eq_unread hf5; obtain rfl := harg6.eq_unread hf6; obtain rfl := harg3.eq_unread hf3; obtain rfl := harg11.eq_unread hf11; obtain rfl := harg12.eq_unread hf12; obtain rfl := harg13.eq_unread hf13
    sl_exec (disch := first | exact hS | exact h0 | exact h1 | exact h2 | exact h3 | exact hL)
    sl_step
    iapply Hk
    isplitl [H10]
    · iexists _; isplitr; · ipureintro; exact harg10.read_unread _
      iexact H10
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H3]
    · iexists _; isplitr; · ipureintro; exact harg3.read_unread _
      iexact H3
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H7]; · iexists _; iexact H7
    isplitl [H8]; · iexists _; iexact H8
    iexists _; iexact H9

end Cert.KernelIdeal.Hand

end
-- ==== Proof.KI.Cell.lean ====
/-
  What the recurrent kernel's buffers hold after each grid point, and the proof data of its pipeline.

  A layer takes four consecutive points. At gate 0 the carried input is rounded once and the input gate's activation
  stored; at gates 1 and 2 the forget gate's and the cell candidate's; at gate 3 the output gate's, and from the four
  activations and the layer's old cell state the new cell and hidden states, which go to the two output windows, the
  hidden state also becoming the carried input of the layer above. So what a point needs from earlier points is always
  something stored earlier IN THE SAME LAYER, or the carried input stored at the end of the layer below: the state
  below records exactly these (the carried input, its rounded copy, three activations, the two outputs), by recursion
  on the point, each stored value read back from the pieces the symbolic run of that point's control case found.

  The invariant before a point names only what later points still read: the carried input at a layer's start; the
  rounded input and the input gate through gates 1–3; the forget gate at gates 2–3; the candidate at gate 3.
-/
import proofs.«115084_j79534204387582_2_alg».proof.Proof.KI.RunA
import proofs.«115084_j79534204387582_2_alg».proof.Proof.KI.RunB
import proofs.«115084_j79534204387582_2_alg».proof.Proof.KI.RunC
import proofs.«115084_j79534204387582_2_alg».proof.Proof.KI.RunD
import proofs.«115084_j79534204387582_2_alg».proof.Proof.KI.RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The guards at a point, from its residue -/

theorem condsA (t : Fin cfg1.N) (h : t.val = 0) :
    gSeed (grid1.coords t) ∧ gate0 (grid1.coords t) ∧ ¬gate1 (grid1.coords t) ∧ ¬gate2 (grid1.coords t) ∧ ¬gate3 (grid1.coords t) ∧ ¬gLast (grid1.coords t) :=
  ⟨(hSeed t).mpr h, (hGate0 t).mpr (by omega), fun g => by have := (hGate1 t).mp g; omega, fun g => by have := (hGate2 t).mp g; omega,
    fun g => by have := (hGate3 t).mp g; omega, fun g => by have := (hLast t).mp g; omega⟩
theorem condsB (t : Fin cfg1.N) (h : t.val % 4 = 0) (hz : t.val ≠ 0) :
    ¬gSeed (grid1.coords t) ∧ gate0 (grid1.coords t) ∧ ¬gate1 (grid1.coords t) ∧ ¬gate2 (grid1.coords t) ∧ ¬gate3 (grid1.coords t) ∧ ¬gLast (grid1.coords t) :=
  ⟨fun g => hz ((hSeed t).mp g), (hGate0 t).mpr h, fun g => by have := (hGate1 t).mp g; omega, fun g => by have := (hGate2 t).mp g; omega,
    fun g => by have := (hGate3 t).mp g; omega, fun g => by have := (hLast t).mp g; omega⟩
theorem condsC (t : Fin cfg1.N) (h : t.val % 4 = 1) :
    ¬gSeed (grid1.coords t) ∧ ¬gate0 (grid1.coords t) ∧ gate1 (grid1.coords t) ∧ ¬gate2 (grid1.coords t) ∧ ¬gate3 (grid1.coords t) ∧ ¬gLast (grid1.coords t) :=
  ⟨fun g => by have := (hSeed t).mp g; omega, fun g => by have := (hGate0 t).mp g; omega, (hGate1 t).mpr h, fun g => by have := (hGate2 t).mp g; omega,
    fun g => by have := (hGate3 t).mp g; omega, fun g => by have := (hLast t).mp g; omega⟩
theorem condsD (t : Fin cfg1.N) (h : t.val % 4 = 2) :
    ¬gSeed (grid1.coords t) ∧ ¬gate0 (grid1.coords t) ∧ ¬gate1 (grid1.coords t) ∧ gate2 (grid1.coords t) ∧ ¬gate3 (grid1.coords t) ∧ ¬gLast (grid1.coords t) :=
  ⟨fun g => by have := (hSeed t).mp g; omega, fun g => by have := (hGate0 t).mp g; omega, fun g => by have := (hGate1 t).mp g; omega, (hGate2 t).mpr h,
    fun g => by have := (hGate3 t).mp g; omega, fun g => by have := (hLast t).mp g; omega⟩
theorem condsE (t : Fin cfg1.N) (h : t.val % 4 = 3) :
    ¬gSeed (grid1.coords t) ∧ ¬gate0 (grid1.coords t) ∧ ¬gate1 (grid1.coords t) ∧ ¬gate2 (grid1.coords t) ∧ gate3 (grid1.coords t) ∧ gLast (grid1.coords t) :=
  ⟨fun g => by have := (hSeed t).mp g; omega, fun g => by have := (hGate0 t).mp g; omega, fun g => by have := (hGate1 t).mp g; omega,
    fun g => by have := (hGate2 t).mp g; omega, (hGate3 t).mpr h, (hLast t).mpr h⟩

/-! ## Each case's run at a point of the grid, on the buffers the pipeline passes -/

abbrev runA_at (c : Dev nD) (t : Fin cfg1.N) (h : t.val = 0) (x0 : Vec F S128x1024 .f32) (x2 : Vec F S1x1024x1024 .f32) (x3 : Vec F S1x1x1024 .f32) (x4 : Vec F S1x128x1024 .f32) :=
  runA (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scInp (Memref.isWhole_whole _) scInpB (Memref.isWhole_whole _) scI (Memref.isWhole_whole _) scF (Memref.isWhole_whole _) scG (Memref.isWhole_whole _) scO (Memref.isWhole_whole _) (condsA t h).1 (condsA t h).2.1 (condsA t h).2.2.1 (condsA t h).2.2.2.1 (condsA t h).2.2.2.2.1 (condsA t h).2.2.2.2.2 x0 x2 x3 x4
abbrev runB_at (c : Dev nD) (t : Fin cfg1.N) (h : t.val % 4 = 0) (hz : t.val ≠ 0) (xs : Vec F S128x1024 .f32) (x2 : Vec F S1x1024x1024 .f32) (x3 : Vec F S1x1x1024 .f32) (x4 : Vec F S1x128x1024 .f32) :=
  runB (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scInp (Memref.isWhole_whole _) scInpB (Memref.isWhole_whole _) scI (Memref.isWhole_whole _) scF (Memref.isWhole_whole _) scG (Memref.isWhole_whole _) scO (Memref.isWhole_whole _) (condsB t h hz).1 (condsB t h hz).2.1 (condsB t h hz).2.2.1 (condsB t h hz).2.2.2.1 (condsB t h hz).2.2.2.2.1 (condsB t h hz).2.2.2.2.2 xs x2 x3 x4
abbrev runC_at (c : Dev nD) (t : Fin cfg1.N) (h : t.val % 4 = 1) (xb : Vec F S128x1024 .bf16) (x2 : Vec F S1x1024x1024 .f32) (x3 : Vec F S1x1x1024 .f32) (x4 : Vec F S1x128x1024 .f32) :=
  runC (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scInp (Memref.isWhole_whole _) scInpB (Memref.isWhole_whole _) scI (Memref.isWhole_whole _) scF (Memref.isWhole_whole _) scG (Memref.isWhole_whole _) scO (Memref.isWhole_whole _) (condsC t h).1 (condsC t h).2.1 (condsC t h).2.2.1 (condsC t h).2.2.2.1 (condsC t h).2.2.2.2.1 (condsC t h).2.2.2.2.2 xb x2 x3 x4
abbrev runD_at (c : Dev nD) (t : Fin cfg1.N) (h : t.val % 4 = 2) (xb : Vec F S128x1024 .bf16) (x2 : Vec F S1x1024x1024 .f32) (x3 : Vec F S1x1x1024 .f32) (x4 : Vec F S1x128x1024 .f32) :=
  runD (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scInp (Memref.isWhole_whole _) scInpB (Memref.isWhole_whole _) scI (Memref.isWhole_whole _) scF (Memref.isWhole_whole _) scG (Memref.isWhole_whole _) scO (Memref.isWhole_whole _) (condsD t h).1 (condsD t h).2.1 (condsD t h).2.2.1 (condsD t h).2.2.2.1 (condsD t h).2.2.2.2.1 (condsD t h).2.2.2.2.2 xb x2 x3 x4
abbrev runE_at (c : Dev nD) (t : Fin cfg1.N) (h : t.val % 4 = 3) (xb : Vec F S128x1024 .bf16) (x2 : Vec F S1x1024x1024 .f32) (x3 : Vec F S1x1x1024 .f32) (x4 : Vec F S1x128x1024 .f32)
    (x1 : Vec F S1x128x1024 .f32) (xi xf xg : Vec F S128x1024 .f32) :=
  runE (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scInp (Memref.isWhole_whole _) scInpB (Memref.isWhole_whole _) scI (Memref.isWhole_whole _) scF (Memref.isWhole_whole _) scG (Memref.isWhole_whole _) scO (Memref.isWhole_whole _) (condsE t h).1 (condsE t h).2.1 (condsE t h).2.2.1 (condsE t h).2.2.2.1 (condsE t h).2.2.2.2.1 (condsE t h).2.2.2.2.2 xb x2 x3 x4 x1 xi xf xg

/-! ## Pieces read back -/

/-- What a list of pieces leaves in an f32 scratch buffer (read through the carried-input buffer's view; for a covering
    list the view and the prior contents do not matter). -/
def backS (L : List (View.Piece (Elt F) S128x1024 .f32)) : Vec F S128x1024 .f32 :=
  scInp.view.read (Elt F) (scInp.view.writes (Elt F) scInp.view.junk L)
/-- The same for the rounded copy's buffer. -/
def backB (L : List (View.Piece (Elt F) S128x1024 .bf16)) : Vec F S128x1024 .bf16 :=
  scInpB.view.read (Elt F) (scInpB.view.writes (Elt F) scInpB.view.junk L)
/-- The same for an output window's staging buffer. -/
def backO (L : List (View.Piece (Elt F) S1x128x1024 .f32)) : Vec F S1x128x1024 .f32 :=
  VO5.read (Elt F) (VO5.writes (Elt F) VO5.junk L)

/-! ## The carried state -/

/-- What later points read of the buffers: the carried input, its rounded copy, the input, forget and candidate
    activations, and the two output windows' buffers. -/
structure St (F : FTy → Type) [FloatOps F] where
  inp : Vec F S128x1024 .f32
  inpB : Vec F S128x1024 .bf16
  gI : Vec F S128x1024 .f32
  gF : Vec F S128x1024 .f32
  gG : Vec F S128x1024 .f32
  oH : Vec F S1x128x1024 .f32
  oC : Vec F S1x128x1024 .f32

/-- After the first point: the rounded data and the first input gate; the rest not yet meaningful. -/
def initA (c : Dev nD) (t : Fin cfg1.N) (h : t.val = 0) : St F :=
  let R := runA_at (F := F) c t h (iblk1 V c 0 t) (iblk1 V c 2 t) (iblk1 V c 3 t) (iblk1 V c 4 t)
  { inp := backS R.1, inpB := backB R.2.1, gI := backS R.2.2.1,
    gF := backS [], gG := backS [], oH := backO [], oC := backO [] }

/-- Gate 0 of a later layer. -/
def stepB (c : Dev nD) (t : Fin cfg1.N) (h : t.val % 4 = 0) (hz : t.val ≠ 0) (p : St F) : St F :=
  let R := runB_at (F := F) c t h hz p.inp (iblk1 V c 2 t) (iblk1 V c 3 t) (iblk1 V c 4 t)
  { p with inpB := backB R.1, gI := backS R.2.1 }

/-- Gate 1. -/
def stepC (c : Dev nD) (t : Fin cfg1.N) (h : t.val % 4 = 1) (p : St F) : St F :=
  let R := runC_at (F := F) c t h p.inpB (iblk1 V c 2 t) (iblk1 V c 3 t) (iblk1 V c 4 t)
  { p with gF := backS R.1 }

/-- Gate 2. -/
def stepD (c : Dev nD) (t : Fin cfg1.N) (h : t.val % 4 = 2) (p : St F) : St F :=
  let R := runD_at (F := F) c t h p.inpB (iblk1 V c 2 t) (iblk1 V c 3 t) (iblk1 V c 4 t)
  { p with gG := backS R.1 }

/-- Gate 3: the layer's outputs and the next layer's input. -/
def stepE (c : Dev nD) (t : Fin cfg1.N) (h : t.val % 4 = 3) (p : St F) : St F :=
  let R := runE_at (F := F) c t h p.inpB (iblk1 V c 2 t) (iblk1 V c 3 t) (iblk1 V c 4 t) (iblk1 V c 1 t) p.gI p.gF p.gG
  { p with oH := backO R.2.1, oC := backO R.2.2.1, inp := backS R.2.2.2.1 }

/-- The state after the body at position `n`. -/
def stAt (c : Dev nD) : (n : ℕ) → n < cfg1.N → St F
  | 0, hn => initA V c ⟨0, hn⟩ rfl
  | n + 1, hn =>
    if h0 : (n + 1) % 4 = 0 then stepB V c ⟨n + 1, hn⟩ h0 (Nat.succ_ne_zero n) (stAt c n (Nat.lt_of_succ_lt hn))
    else if h1 : (n + 1) % 4 = 1 then stepC V c ⟨n + 1, hn⟩ h1 (stAt c n (Nat.lt_of_succ_lt hn))
    else if h2 : (n + 1) % 4 = 2 then stepD V c ⟨n + 1, hn⟩ h2 (stAt c n (Nat.lt_of_succ_lt hn))
    else stepE V c ⟨n + 1, hn⟩ (by show (n + 1) % 4 = 3; omega) (stAt c n (Nat.lt_of_succ_lt hn))

theorem pred_lt (t : Fin cfg1.N) : t.val - 1 < cfg1.N := Nat.lt_of_le_of_lt (Nat.sub_le _ _) t.isLt

theorem stAt_A (c : Dev nD) (t : Fin cfg1.N) (h : t.val = 0) : stAt V c t.val t.isLt = initA V c t h := by
  obtain ⟨n, hn⟩ := t
  cases n with
  | zero => rfl
  | succ n => exact absurd h (Nat.succ_ne_zero n)

theorem stAt_B (c : Dev nD) (t : Fin cfg1.N) (h : t.val % 4 = 0) (hz : t.val ≠ 0) :
    stAt V c t.val t.isLt = stepB V c t h hz (stAt V c (t.val - 1) (pred_lt t)) := by
  obtain ⟨n, hn⟩ := t
  cases n with
  | zero => exact absurd rfl hz
  | succ n => exact (dif_pos h).trans rfl

theorem stAt_C (c : Dev nD) (t : Fin cfg1.N) (h : t.val % 4 = 1) :
    stAt V c t.val t.isLt = stepC V c t h (stAt V c (t.val - 1) (pred_lt t)) := by
  obtain ⟨n, hn⟩ := t
  cases n with
  | zero => exact absurd h (by show ¬ (0 % 4 = _); decide)
  | succ n => exact (dif_neg (by dsimp only at h; omega)).trans ((dif_pos h).trans rfl)

theorem stAt_D (c : Dev nD) (t : Fin cfg1.N) (h : t.val % 4 = 2) :
    stAt V c t.val t.isLt = stepD V c t h (stAt V c (t.val - 1) (pred_lt t)) := by
  obtain ⟨n, hn⟩ := t
  cases n with
  | zero => exact absurd h (by show ¬ (0 % 4 = _); decide)
  | succ n => exact (dif_neg (by dsimp only at h; omega)).trans ((dif_neg (by dsimp only at h; omega)).trans ((dif_pos h).trans rfl))

theorem stAt_E (c : Dev nD) (t : Fin cfg1.N) (h : t.val % 4 = 3) :
    stAt V c t.val t.isLt = stepE V c t h (stAt V c (t.val - 1) (pred_lt t)) := by
  obtain ⟨n, hn⟩ := t
  cases n with
  | zero => exact absurd h (by show ¬ (0 % 4 = _); decide)
  | succ n => exact (dif_neg (by dsimp only at h; omega)).trans ((dif_neg (by dsimp only at h; omega)).trans ((dif_neg (by dsimp only at h; omega)).trans rfl))

/-! ## The invariant -/

/-- A buffer at named contents where a later point reads it, at anything otherwise. -/
def ownsIf {s : Shape} {e : EltTy} (b : Prop) [Decidable b] (c : Dev nD) (mr : Memref sig .tc .vmem s e) (x : Vec F s e) : sProp 𝕄 :=
  if b then owns (c : Thread nD τ) mr fullShare x else iprop(∃ d, owns (c : Thread nD τ) mr fullShare d)

theorem ownsIf_pos {s : Shape} {e : EltTy} {b : Prop} [Decidable b] (hb : b) (c : Dev nD) (mr : Memref sig .tc .vmem s e) (x : Vec F s e) :
    ownsIf (F := F) b c mr x = owns (c : Thread nD τ) mr fullShare x := if_pos hb
theorem ownsIf_neg {s : Shape} {e : EltTy} {b : Prop} [Decidable b] (hb : ¬b) (c : Dev nD) (mr : Memref sig .tc .vmem s e) (x : Vec F s e) :
    ownsIf (F := F) b c mr x = iprop(∃ d, owns (c : Thread nD τ) mr fullShare d) := if_neg hb

/-- Before position `n > 0`, from the state `s` the point before left. -/
def PhiAt (c : Dev nD) (n : ℕ) (s : St F) : sProp 𝕄 :=
  iprop(otherStaging (F := F) c ∗ ownsIf (n % 4 = 0) c scInp s.inp ∗ ownsIf (n % 4 ≠ 0) c scInpB s.inpB ∗ ownsIf (n % 4 ≠ 0) c scI s.gI
    ∗ ownsIf (n % 4 = 2 ∨ n % 4 = 3) c scF s.gF ∗ ownsIf (n % 4 = 3) c scG s.gG ∗ (∃ d, owns (c : Thread nD τ) scO fullShare d) ∗ (∃ r, prngReg c r))

/-- The region invariant before position `n`: the class's before the first point, the named one afterwards. -/
def PhiS (c : Dev nD) : (n : ℕ) → n ≤ cfg1.N → sProp 𝕄
  | 0, _ => Pipeline.ΦA spec1 c
  | n + 1, hn => PhiAt c (n + 1) (stAt V c n hn)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) : PhiS V c (n + 1) hn = PhiAt c (n + 1) (stAt V c n hn) := rfl
theorem PhiS_pos (c : Dev nD) (n : ℕ) (h : n ≤ cfg1.N) (hz : n ≠ 0) :
    PhiS V c n h = PhiAt c n (stAt V c (n - 1) (by omega)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (stAt V c t.val t.isLt).oH
    | ⟨6, _⟩ => (stAt V c t.val t.isLt).oC
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (stAt V c t.val t.isLt).oH := by dsimp only [dat1]
theorem after1_6 (c : Dev nD) (t : Fin cfg1.N) : (dat1 V c).after 6 t = (stAt V c t.val t.isLt).oC := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

end Cert.KernelIdeal.Hand

end
-- ==== Proof.KI.CellBody.lean ====
/-
  The recurrent kernel's body meets its obligation at every grid point.

  At a point the pipeline hands the body the five input windows' buffers at their blocks, the two output windows'
  buffers, and the invariant. The point's residue modulo 4 (and whether it is the very first) says which guarded blocks
  run; in each case the symbolic run of that case applies: it takes the buffers it reads at the contents the
  invariant names, and returns the buffers it stored into with pieces that cover them, which is what the state after
  the point records. Away from gate 3 the output windows are idle and go back untouched.
-/
import proofs.«115084_j79534204387582_2_alg».proof.Proof.KI.Cell

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## Each case's stores cover the buffer they go to -/

theorem covA10 (c : Dev nD) (t : Fin cfg1.N) (h : t.val = 0) (x0 x2 x3 x4) (y : S128x1024.Idx) :
    ∃ pc ∈ (runA_at (F := F) c t h x0 x2 x3 x4).2.1, y ∈ pc.1.set :=
  View.cover_of_tiledL (runA_at (F := F) c t h x0 x2 x3 x4).2.1 S128x1024.size (by sl_kernel_rfl) y
theorem covA11 (c : Dev nD) (t : Fin cfg1.N) (h : t.val = 0) (x0 x2 x3 x4) (y : S128x1024.Idx) :
    ∃ pc ∈ (runA_at (F := F) c t h x0 x2 x3 x4).2.2.1, y ∈ pc.1.set :=
  View.cover_of_tiledL (runA_at (F := F) c t h x0 x2 x3 x4).2.2.1 S128x1024.size (by sl_kernel_rfl) y
theorem covB10 (c : Dev nD) (t : Fin cfg1.N) (h : t.val % 4 = 0) (hz : t.val ≠ 0) (xs x2 x3 x4) (y : S128x1024.Idx) :
    ∃ pc ∈ (runB_at (F := F) c t h hz xs x2 x3 x4).1, y ∈ pc.1.set :=
  View.cover_of_tiledL (runB_at (F := F) c t h hz xs x2 x3 x4).1 S128x1024.size (by sl_kernel_rfl) y
theorem covB11 (c : Dev nD) (t : Fin cfg1.N) (h : t.val % 4 = 0) (hz : t.val ≠ 0) (xs x2 x3 x4) (y : S128x1024.Idx) :
    ∃ pc ∈ (runB_at (F := F) c t h hz xs x2 x3 x4).2.1, y ∈ pc.1.set :=
  View.cover_of_tiledL (runB_at (F := F) c t h hz xs x2 x3 x4).2.1 S128x1024.size (by sl_kernel_rfl) y
theorem covC12 (c : Dev nD) (t : Fin cfg1.N) (h : t.val % 4 = 1) (xb x2 x3 x4) (y : S128x1024.Idx) :
    ∃ pc ∈ (runC_at (F := F) c t h xb x2 x3 x4).1, y ∈ pc.1.set :=
  View.cover_of_tiledL (runC_at (F := F) c t h xb x2 x3 x4).1 S128x1024.size (by sl_kernel_rfl) y
theorem covD13 (c : Dev nD) (t : Fin cfg1.N) (h : t.val % 4 = 2) (xb x2 x3 x4) (y : S128x1024.Idx) :
    ∃ pc ∈ (runD_at (F := F) c t h xb x2 x3 x4).1, y ∈ pc.1.set :=
  View.cover_of_tiledL (runD_at (F := F) c t h xb x2 x3 x4).1 S128x1024.size (by sl_kernel_rfl) y
theorem covE7 (c : Dev nD) (t : Fin cfg1.N) (h : t.val % 4 = 3) (xb x2 x3 x4 x1 xi xf xg) (y : S1x128x1024.Idx) :
    ∃ pc ∈ (runE_at (F := F) c t h xb x2 x3 x4 x1 xi xf xg).2.1, y ∈ pc.1.set :=
  View.cover_of_tiledL (runE_at (F := F) c t h xb x2 x3 x4 x1 xi xf xg).2.1 S1x128x1024.size (by sl_kernel_rfl) y
theorem covE8 (c : Dev nD) (t : Fin cfg1.N) (h : t.val % 4 = 3) (xb x2 x3 x4 x1 xi xf xg) (y : S1x128x1024.Idx) :
    ∃ pc ∈ (runE_at (F := F) c t h xb x2 x3 x4 x1 xi xf xg).2.2.1, y ∈ pc.1.set :=
  View.cover_of_tiledL (runE_at (F := F) c t h xb x2 x3 x4 x1 xi xf xg).2.2.1 S1x128x1024.size (by sl_kernel_rfl) y
theorem covE9 (c : Dev nD) (t : Fin cfg1.N) (h : t.val % 4 = 3) (xb x2 x3 x4 x1 xi xf xg) (y : S128x1024.Idx) :
    ∃ pc ∈ (runE_at (F := F) c t h xb x2 x3 x4 x1 xi xf xg).2.2.2.1, y ∈ pc.1.set :=
  View.cover_of_tiledL (runE_at (F := F) c t h xb x2 x3 x4 x1 xi xf xg).2.2.2.1 S128x1024.size (by sl_kernel_rfl) y

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The very first point. -/
theorem sound_body1_A (c : Dev nD) (t : Fin cfg1.N) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hne3 : ¬ t.val % 4 = 3 := by omega
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [Dat.leavesExact_idle (dat1 V c) 5 t (idle1_5 t hne3) (noFlush1_5 t hne3), Dat.leavesExact_idle (dat1 V c) 6 t (idle1_6 t hne3) (noFlush1_6 t hne3)]
  rw [PhiS_castSucc V c t, PhiS_zero V c _ _ hz, stAt_A V c t hz]
  unfold PhiAt initA; dsimp only
  simp only [ownsIf_neg (show ¬((t.val + 1) % 4 = 0) from by omega), ownsIf_pos (show (t.val + 1) % 4 ≠ 0 from by omega), ownsIf_neg (show ¬((t.val + 1) % 4 = 2 ∨ (t.val + 1) % 4 = 3) from by omega), ownsIf_neg (show ¬((t.val + 1) % 4 = 3) from by omega)]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := (PhiA1_split (F := F) c) $$ HΦ
  icases HΦ' with ⟨Hx, HS0, HS1, HS2, HS3, HS4, HS5, Hg⟩
  iapply ((runA_at (F := F) c t hz _ _ _ _).2.2.2 Set.univ _)
  isplitl [H0]; · iexact H0
  isplitl [H2]; · iexact H2
  isplitl [H3]; · iexact H3
  isplitl [H4]; · iexact H4
  isplitl [HS0]; · iexact HS0
  isplitl [HS1]; · iexact HS1
  isplitl [HS2]; · iexact HS2
  iintro ⟨H0, H2, H3, H4, ⟨%f9, HS0⟩, ⟨%f10, HS1⟩, ⟨%f11, HS2⟩⟩
  isplitl [Hx HS0 HS1 HS2 HS3 HS4 HS5 Hg]
  · isplitl [Hx]; · iexact Hx
    isplitl [HS0]
    · iexists _; unfold owns; iexists _; isplitr
      swap; · iexact HS0
      ipureintro; rfl
    isplitl [HS1]
    · unfold owns; iexists _; isplitr
      swap; · iexact HS1
      ipureintro; exact View.read_writes_of_cover _ _ _ _ _ (covA10 c t hz _ _ _ _)
    isplitl [HS2]
    · unfold owns; iexists _; isplitr
      swap; · iexact HS2
      ipureintro; exact View.read_writes_of_cover _ _ _ _ _ (covA11 c t hz _ _ _ _)
    isplitl [HS3]; · iexact HS3
    isplitl [HS4]; · iexact HS4
    isplitl [HS5]; · iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4000000 in
/-- Gate 0 of a later layer. -/
theorem sound_body1_B (c : Dev nD) (t : Fin cfg1.N) (h : t.val % 4 = 0) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hne3 : ¬ t.val % 4 = 3 := by omega
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [Dat.leavesExact_idle (dat1 V c) 5 t (idle1_5 t hne3) (noFlush1_5 t hne3), Dat.leavesExact_idle (dat1 V c) 6 t (idle1_6 t hne3) (noFlush1_6 t hne3)]
  rw [PhiS_castSucc V c t, PhiS_pos V c _ _ hz, stAt_B V c t h hz]
  unfold PhiAt stepB; dsimp only
  simp only [ownsIf_pos (show t.val % 4 = 0 from by omega), ownsIf_neg (show ¬(t.val % 4 ≠ 0) from by omega), ownsIf_neg (show ¬(t.val % 4 = 2 ∨ t.val % 4 = 3) from by omega), ownsIf_neg (show ¬(t.val % 4 = 3) from by omega), ownsIf_neg (show ¬((t.val + 1) % 4 = 0) from by omega), ownsIf_pos (show (t.val + 1) % 4 ≠ 0 from by omega), ownsIf_neg (show ¬((t.val + 1) % 4 = 2 ∨ (t.val + 1) % 4 = 3) from by omega), ownsIf_neg (show ¬((t.val + 1) % 4 = 3) from by omega)]
  iintro ⟨⟨Hx, HS0, HS1, HS2, HS3, HS4, HS5, Hg⟩, Ho, ⟨%d0, H0⟩, ⟨%d1, H1⟩, ⟨%d2, H2⟩, ⟨%d3, H3⟩, ⟨%d4, H4⟩, ⟨%d5, H5⟩, ⟨%d6, H6⟩⟩
  iapply ((runB_at (F := F) c t h hz _ _ _ _).2.2 Set.univ _)
  isplitl [HS0]; · iexact HS0
  isplitl [H2]; · iexact H2
  isplitl [H3]; · iexact H3
  isplitl [H4]; · iexact H4
  isplitl [HS1]; · iexact HS1
  isplitl [HS2]; · iexact HS2
  iintro ⟨HS0, H2, H3, H4, ⟨%f10, HS1⟩, ⟨%f11, HS2⟩⟩
  isplitl [Hx HS0 HS1 HS2 HS3 HS4 HS5 Hg]
  · isplitl [Hx]; · iexact Hx
    isplitl [HS0]; · iexists _; iexact HS0
    isplitl [HS1]
    · unfold owns; iexists _; isplitr
      swap; · iexact HS1
      ipureintro; exact View.read_writes_of_cover _ _ _ _ _ (covB10 c t h hz _ _ _ _)
    isplitl [HS2]
    · unfold owns; iexists _; isplitr
      swap; · iexact HS2
      ipureintro; exact View.read_writes_of_cover _ _ _ _ _ (covB11 c t h hz _ _ _ _)
    isplitl [HS3]; · iexact HS3
    isplitl [HS4]; · iexact HS4
    isplitl [HS5]; · iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4000000 in
/-- Gate 1. -/
theorem sound_body1_C (c : Dev nD) (t : Fin cfg1.N) (h : t.val % 4 = 1) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hne3 : ¬ t.val % 4 = 3 := by omega
  have hz : t.val ≠ 0 := by omega
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [Dat.leavesExact_idle (dat1 V c) 5 t (idle1_5 t hne3) (noFlush1_5 t hne3), Dat.leavesExact_idle (dat1 V c) 6 t (idle1_6 t hne3) (noFlush1_6 t hne3)]
  rw [PhiS_castSucc V c t, PhiS_pos V c _ _ hz, stAt_C V c t h]
  unfold PhiAt stepC; dsimp only
  simp only [ownsIf_neg (show ¬(t.val % 4 = 0) from by omega), ownsIf_pos (show t.val % 4 ≠ 0 from by omega), ownsIf_neg (show ¬(t.val % 4 = 2 ∨ t.val % 4 = 3) from by omega), ownsIf_neg (show ¬(t.val % 4 = 3) from by omega), ownsIf_neg (show ¬((t.val + 1) % 4 = 0) from by omega), ownsIf_pos (show (t.val + 1) % 4 ≠ 0 from by omega), ownsIf_pos (show (t.val + 1) % 4 = 2 ∨ (t.val + 1) % 4 = 3 from by omega), ownsIf_neg (show ¬((t.val + 1) % 4 = 3) from by omega)]
  iintro ⟨⟨Hx, HS0, HS1, HS2, HS3, HS4, HS5, Hg⟩, Ho, ⟨%d0, H0⟩, ⟨%d1, H1⟩, ⟨%d2, H2⟩, ⟨%d3, H3⟩, ⟨%d4, H4⟩, ⟨%d5, H5⟩, ⟨%d6, H6⟩⟩
  iapply ((runC_at (F := F) c t h _ _ _ _).2 Set.univ _)
  isplitl [HS1]; · iexact HS1
  isplitl [H2]; · iexact H2
  isplitl [H3]; · iexact H3
  isplitl [H4]; · iexact H4
  isplitl [HS3]; · iexact HS3
  iintro ⟨HS1, H2, H3, H4, ⟨%f12, HS3⟩⟩
  isplitl [Hx HS0 HS1 HS2 HS3 HS4 HS5 Hg]
  · isplitl [Hx]; · iexact Hx
    isplitl [HS0]; · iexact HS0
    isplitl [HS1]; · iexact HS1
    isplitl [HS2]; · iexact HS2
    isplitl [HS3]
    · unfold owns; iexists _; isplitr
      swap; · iexact HS3
      ipureintro; exact View.read_writes_of_cover _ _ _ _ _ (covC12 c t h _ _ _ _)
    isplitl [HS4]; · iexact HS4
    isplitl [HS5]; · iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4000000 in
/-- Gate 2. -/
theorem sound_body1_D (c : Dev nD) (t : Fin cfg1.N) (h : t.val % 4 = 2) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hne3 : ¬ t.val % 4 = 3 := by omega
  have hz : t.val ≠ 0 := by omega
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [Dat.leavesExact_idle (dat1 V c) 5 t (idle1_5 t hne3) (noFlush1_5 t hne3), Dat.leavesExact_idle (dat1 V c) 6 t (idle1_6 t hne3) (noFlush1_6 t hne3)]
  rw [PhiS_castSucc V c t, PhiS_pos V c _ _ hz, stAt_D V c t h]
  unfold PhiAt stepD; dsimp only
  simp only [ownsIf_neg (show ¬(t.val % 4 = 0) from by omega), ownsIf_pos (show t.val % 4 ≠ 0 from by omega), ownsIf_pos (show t.val % 4 = 2 ∨ t.val % 4 = 3 from by omega), ownsIf_neg (show ¬(t.val % 4 = 3) from by omega), ownsIf_neg (show ¬((t.val + 1) % 4 = 0) from by omega), ownsIf_pos (show (t.val + 1) % 4 ≠ 0 from by omega), ownsIf_pos (show (t.val + 1) % 4 = 2 ∨ (t.val + 1) % 4 = 3 from by omega), ownsIf_pos (show (t.val + 1) % 4 = 3 from by omega)]
  iintro ⟨⟨Hx, HS0, HS1, HS2, HS3, HS4, HS5, Hg⟩, Ho, ⟨%d0, H0⟩, ⟨%d1, H1⟩, ⟨%d2, H2⟩, ⟨%d3, H3⟩, ⟨%d4, H4⟩, ⟨%d5, H5⟩, ⟨%d6, H6⟩⟩
  iapply ((runD_at (F := F) c t h _ _ _ _).2 Set.univ _)
  isplitl [HS1]; · iexact HS1
  isplitl [H2]; · iexact H2
  isplitl [H3]; · iexact H3
  isplitl [H4]; · iexact H4
  isplitl [HS4]; · iexact HS4
  iintro ⟨HS1, H2, H3, H4, ⟨%f13, HS4⟩⟩
  isplitl [Hx HS0 HS1 HS2 HS3 HS4 HS5 Hg]
  · isplitl [Hx]; · iexact Hx
    isplitl [HS0]; · iexact HS0
    isplitl [HS1]; · iexact HS1
    isplitl [HS2]; · iexact HS2
    isplitl [HS3]; · iexact HS3
    isplitl [HS4]
    · unfold owns; iexists _; isplitr
      swap; · iexact HS4
      ipureintro; exact View.read_writes_of_cover _ _ _ _ _ (covD13 c t h _ _ _ _)
    isplitl [HS5]; · iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4000000 in
/-- Gate 3. -/
theorem sound_body1_E (c : Dev nD) (t : Fin cfg1.N) (h : t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hz : t.val ≠ 0 := by omega
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [show (dat1 V c).leavesExact 5 t = owns (c : Thread nD τ) (ms1_5 t) fullShare ((dat1 V c).after 5 t) from by
    unfold Dat.leavesExact; rw [live1_5 t h], after1_5]
  rw [show (dat1 V c).leavesExact 6 t = owns (c : Thread nD τ) (ms1_6 t) fullShare ((dat1 V c).after 6 t) from by
    unfold Dat.leavesExact; rw [live1_6 t h], after1_6]
  rw [PhiS_castSucc V c t, PhiS_pos V c _ _ hz, stAt_E V c t h]
  unfold PhiAt stepE; dsimp only
  simp only [ownsIf_neg (show ¬(t.val % 4 = 0) from by omega), ownsIf_pos (show t.val % 4 ≠ 0 from by omega), ownsIf_pos (show t.val % 4 = 2 ∨ t.val % 4 = 3 from by omega), ownsIf_pos (show t.val % 4 = 3 from by omega), ownsIf_pos (show (t.val + 1) % 4 = 0 from by omega), ownsIf_neg (show ¬((t.val + 1) % 4 ≠ 0) from by omega), ownsIf_neg (show ¬((t.val + 1) % 4 = 2 ∨ (t.val + 1) % 4 = 3) from by omega), ownsIf_neg (show ¬((t.val + 1) % 4 = 3) from by omega)]
  iintro ⟨⟨Hx, HS0, HS1, HS2, HS3, HS4, HS5, Hg⟩, Ho, ⟨%d0, H0⟩, ⟨%d1, H1⟩, ⟨%d2, H2⟩, ⟨%d3, H3⟩, ⟨%d4, H4⟩, ⟨%d5, H5⟩, ⟨%d6, H6⟩⟩
  iapply ((runE_at (F := F) c t h _ _ _ _ _ _ _ _).2.2.2.2 Set.univ _)
  isplitl [HS1]; · iexact HS1
  isplitl [H2]; · iexact H2
  isplitl [H3]; · iexact H3
  isplitl [H4]; · iexact H4
  isplitl [H1]; · iexact H1
  isplitl [HS2]; · iexact HS2
  isplitl [HS3]; · iexact HS3
  isplitl [HS4]; · iexact HS4
  isplitl [HS5]; · iexact HS5
  isplitl [H5]; · iexists _; iexact H5
  isplitl [H6]; · iexists _; iexact H6
  isplitl [HS0]; · iexact HS0
  iintro ⟨HS1, H2, H3, H4, H1, HS2, HS3, HS4, ⟨%f14, HS5⟩, ⟨%f7, H5⟩, ⟨%f8, H6⟩, ⟨%f9, HS0⟩⟩
  isplitl [Hx HS0 HS1 HS2 HS3 HS4 HS5 Hg]
  · isplitl [Hx]; · iexact Hx
    isplitl [HS0]
    · unfold owns; iexists _; isplitr
      swap; · iexact HS0
      ipureintro; exact View.read_writes_of_cover _ _ _ _ _ (covE9 c t h _ _ _ _ _ _ _ _)
    isplitl [HS1]; · iexists _; iexact HS1
    isplitl [HS2]; · iexists _; iexact HS2
    isplitl [HS3]; · iexists _; iexact HS3
    isplitl [HS4]; · iexists _; iexact HS4
    isplitl [HS5]
    · iexists _; unfold owns; iexists _; isplitr
      swap; · iexact HS5
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (covE7 c t h _ _ _ _ _ _ _ _)
  unfold owns; iexists _; isplitr
  swap; · iexact H6
  ipureintro; exact View.read_writes_of_cover _ _ _ _ _ (covE8 c t h _ _ _ _ _ _ _ _)

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · by_cases hz : t.val = 0
    · exact sound_body1_A V c t hz
    · exact sound_body1_B V c t h0 hz
  · by_cases h1 : t.val % 4 = 1
    · exact sound_body1_C V c t h1
    · by_cases h2 : t.val % 4 = 2
      · exact sound_body1_D V c t h2
      · exact sound_body1_E V c t (by omega)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant gives the class's back -/

theorem ownsIf_elim {s : Shape} {e : EltTy} (b : Prop) [Decidable b] (c : Dev nD) (mr : Memref sig .tc .vmem s e) (x : Vec F s e) :
    ownsIf (F := F) b c mr x ⊢ (iprop(∃ d, owns (c : Thread nD τ) mr fullShare d) : sProp 𝕄) := by
  unfold ownsIf
  split_ifs
  · iintro H; iexists _; iexact H
  · exact Idealize.SL.BI.Entails.refl _

theorem Phi_out (c : Dev nD) (n : ℕ) (h : n ≤ cfg1.N) (hz : n ≠ 0) : PhiS V c n h ⊢ Pipeline.ΦA spec1 c := by
  rw [PhiS_pos V c n h hz]; unfold PhiAt
  iintro ⟨Hx, H0, H1, H2, H3, H4, H5, Hg⟩
  iapply (PhiA1_join (F := F) c)
  isplitl [Hx]; · iexact Hx
  isplitl [H0]; · iapply (ownsIf_elim (F := F) _ c scInp _); iexact H0
  isplitl [H1]; · iapply (ownsIf_elim (F := F) _ c scInpB _); iexact H1
  isplitl [H2]; · iapply (ownsIf_elim (F := F) _ c scI _); iexact H2
  isplitl [H3]; · iapply (ownsIf_elim (F := F) _ c scF _); iexact H3
  isplitl [H4]; · iapply (ownsIf_elim (F := F) _ c scG _); iexact H4
  isplitl [H5]; · iexact H5
  iexact Hg

/-- After the last point. -/
theorem hout1 (c : Dev nD) : (dat1 V c).Φ (Fin.last cfg1.N) ⊢ Pipeline.ΦA spec1 c := by
  rw [show (dat1 V c).Φ (Fin.last cfg1.N) = PhiS V c cfg1.N (le_refl _) from rfl]
  exact Phi_out V c cfg1.N (le_refl _) (by have : cfg1.N = 16 := N_1; omega)

end Cert.KernelIdeal.Hand

end
-- ==== Proof.KI.Run.lean ====
/- The run of the program from launch to return, at any number format.

   The program is four stretches in order: two reshapes of the bias arrays on the host, the recurrent-projection
   call, the cell call entered directly from what the first call leaves, and a slice and a reshape of the top
   layer's hidden state on the host. The buffer contents at each boundary are a fold from the launch memory; each
   call's arrays end at what its write-backs leave and every other buffer is carried through. From the fold at the
   last boundary both the frame (no stretch writes an argument array) and the values of the three results are read. -/
import proofs.«115084_j79534204387582_2_alg».proof.Proof.Gen.KernelIdeal.Launch
import proofs.«115084_j79534204387582_2_alg».proof.Proof.Gen.KernelIdeal.Skeleton
import proofs.«115084_j79534204387582_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run
import proofs.«115084_j79534204387582_2_alg».proof.Proof.KI.Zhh
import proofs.«115084_j79534204387582_2_alg».proof.Proof.KI.CellBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- A buffer the first host stretch does not write (neither reshaped bias) keeps its contents over it. -/
theorem after_hostOps0_of_ne (W : Valuation τ sig (Elt F)) (b : Ref sig .tc) (h0 : b ≠ main_v0) (h1 : b ≠ main_v1) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))

/-- A buffer the last host stretch does not write (neither the slice nor its reshape) keeps its contents over it. -/
theorem after_hostOps2_of_ne (W : Valuation τ sig (Elt F)) (b : Ref sig .tc) (h0 : b ≠ main_v4) (h1 : b ≠ main_v5) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.unary_writes, StableHlo.reshape_writes, Finset.mem_singleton]
    exact ⟨StableHlo.devRef_ne_of_ne h0, StableHlo.devRef_ne_of_ne h1⟩))

/-- A core's buffers at launch. -/
abbrev W0 : Dev nD → Valuation τ sig (Elt F) := fun c b => (s₀ m ρ).mem ((c : Dev nD), b)
/-- After the two bias reshapes: what the recurrent-projection call is entered from. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b
/-- After the recurrent-projection call: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's own references: what the cell call is entered from. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the cell call, entered at the first call's exit contents: its arrays at what its write-backs leave. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the core's own references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the slice of the top layer's hidden state and its reshape: the contents at the return. -/
abbrev W4 : Dev nD → Valuation τ sig (Elt F) := fun c => StableHlo.after hostOps2 (W3 m ρ c)

/-! ## The argument arrays end as launched

No host operation writes an argument (the first stretch writes the two reshaped biases, the last the slice and its
reshape), and a call either reads an argument through an input window, which is never written back, or does not
touch it: the fold at an argument's buffer walks back to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := after_hostOps2_of_ne _ main_arg0 (by decide) (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := after_hostOps0_of_ne _ main_arg0 (by decide) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := after_hostOps2_of_ne _ main_arg1 (by decide) (by decide)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := after_hostOps0_of_ne _ main_arg1 (by decide) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := after_hostOps2_of_ne _ main_arg2 (by decide) (by decide)
    _ = W2 m ρ c (Proc.devRef .tc main_arg2) := (W3_arr m ρ c 1).trans (((dat1 (V2 m ρ) c).arrAt_in 1 rfl _).trans (A_eq1 (V2 m ρ) c 1))
    _ = W1 m ρ c (Proc.devRef .tc main_arg2) := W2_of_ne m ρ c main_arg2 (by decide)
    _ = W0 m ρ c (Proc.devRef .tc main_arg2) := after_hostOps0_of_ne _ main_arg2 (by decide) (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := after_hostOps2_of_ne _ main_arg3 (by decide) (by decide)
    _ = W2 m ρ c (Proc.devRef .tc main_arg3) := (W3_arr m ρ c 2).trans (((dat1 (V2 m ρ) c).arrAt_in 2 rfl _).trans (A_eq1 (V2 m ρ) c 2))
    _ = W1 m ρ c (Proc.devRef .tc main_arg3) := W2_of_ne m ρ c main_arg3 (by decide)
    _ = W0 m ρ c (Proc.devRef .tc main_arg3) := after_hostOps0_of_ne _ main_arg3 (by decide) (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := after_hostOps2_of_ne _ main_arg4 (by decide) (by decide)
    _ = W2 m ρ c (Proc.devRef .tc main_arg4) := W3_of_ne m ρ c main_arg4 (by decide)
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := after_hostOps0_of_ne _ main_arg4 (by decide) (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := after_hostOps2_of_ne _ main_arg5 (by decide) (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := after_hostOps0_of_ne _ main_arg5 (by decide) (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := after_hostOps2_of_ne _ main_arg6 (by decide) (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := after_hostOps0_of_ne _ main_arg6 (by decide) (by decide)
    _ = m ((c : Thread nD τ).loc main_arg6) := rfl

/-! ## What the calls read and what the program returns -/

/-- The recurrent-projection call finds the launch contents in the arrays it reads that are arguments, -/
theorem V1_main_arg1 (c : Dev nD) : V1 m ρ c main_arg1 = m ((c : Thread nD τ).loc main_arg1) :=
  after_hostOps0_of_ne _ main_arg1 (by decide) (by decide)
theorem V1_main_arg4 (c : Dev nD) : V1 m ρ c main_arg4 = m ((c : Thread nD τ).loc main_arg4) :=
  after_hostOps0_of_ne _ main_arg4 (by decide) (by decide)
/-- and the recurrent bias reshaped to one row per layer in the third. -/
theorem V1_main_v1 (c : Dev nD) :
    (V1 m ρ c main_v1 : S4x1x4096.Idx → Elt F .f32) = shapeCast S4x1x4096 (m ((c : Thread nD τ).loc main_arg6) : S4x4096.Idx → Elt F .f32) shapeCasts_S4x4096_S4x1x4096 := by
  show StableHlo.after hostOps0 (W0 m ρ c) (Proc.devRef .tc main_v1) = _
  after_results; rfl

/-- The cell call finds the launch contents in the arrays it reads that are arguments, -/
theorem V2_main_arg0 (c : Dev nD) : V2 m ρ c main_arg0 = m ((c : Thread nD τ).loc main_arg0) :=
  (W2_of_ne m ρ c main_arg0 (by decide)).trans (after_hostOps0_of_ne _ main_arg0 (by decide) (by decide))
theorem V2_main_arg2 (c : Dev nD) : V2 m ρ c main_arg2 = m ((c : Thread nD τ).loc main_arg2) :=
  (W2_of_ne m ρ c main_arg2 (by decide)).trans (after_hostOps0_of_ne _ main_arg2 (by decide) (by decide))
theorem V2_main_arg3 (c : Dev nD) : V2 m ρ c main_arg3 = m ((c : Thread nD τ).loc main_arg3) :=
  (W2_of_ne m ρ c main_arg3 (by decide)).trans (after_hostOps0_of_ne _ main_arg3 (by decide) (by decide))
/-- the input bias reshaped to one row per layer, -/
theorem V2_main_v0 (c : Dev nD) :
    (V2 m ρ c main_v0 : S4x1x4096.Idx → Elt F .f32) = shapeCast S4x1x4096 (m ((c : Thread nD τ).loc main_arg5) : S4x4096.Idx → Elt F .f32) shapeCasts_S4x4096_S4x1x4096 := by
  refine (W2_of_ne m ρ c main_v0 (by decide)).trans ?_
  show StableHlo.after hostOps0 (W0 m ρ c) (Proc.devRef .tc main_v0) = _
  after_results; rfl
/-- and the recurrent projection as the first call's write-backs leave it. -/
theorem V2_main_v2 (c : Dev nD) : V2 m ρ c main_v2 = (dat0 (V1 m ρ) c).arrAt 3 cfg0.N :=
  W2_arr m ρ c 3

/-- The program's second and third results are the cell call's two output arrays as its write-backs leave them, -/
theorem W4_main_v3_0 (c : Dev nD) : W4 m ρ c (Proc.devRef .tc main_v3_0) = (dat1 (V2 m ρ) c).arrAt 5 cfg1.N :=
  (after_hostOps2_of_ne _ main_v3_0 (by decide) (by decide)).trans (W3_arr m ρ c 5)
theorem W4_main_v3_1 (c : Dev nD) : W4 m ρ c (Proc.devRef .tc main_v3_1) = (dat1 (V2 m ρ) c).arrAt 6 cfg1.N :=
  (after_hostOps2_of_ne _ main_v3_1 (by decide) (by decide)).trans (W3_arr m ρ c 6)
/-- and its first result is the last layer's block of the hidden-state output, as a matrix. -/
theorem W4_main_v5 (c : Dev nD) :
    (W4 m ρ c (Proc.devRef .tc main_v5) : S128x1024.Idx → Elt F .f32)
      = shapeCast S128x1024 (extractStridedSlice S1x128x1024 ![3, 0, 0] ((dat1 (V2 m ρ) c).arrAt 5 cfg1.N : S4x128x1024.Idx → Elt F .f32) slices_S4x128x1024_S1x128x1024_3_0_0)
          shapeCasts_S1x128x1024_S128x1024 := by
  rw [← W3_arr m ρ c 5]
  show StableHlo.after hostOps2 (W3 m ρ c) (Proc.devRef .tc main_v5) = _
  after_results; rfl

/-! ## The proof data of both calls and the thread state between stretches -/

/-- Neither call has a prefetched table. -/
abbrev runAdm : (p : Fin 2) → (pcfgs (F := F) p).Adm := fun p => (cfgs p).toPCfg_adm
/-- Each call's proof data at the contents it is entered from. -/
def pdats : (p : Fin 2) → (c : Dev nD) → Dat τ (Elt F) Unit ℕ (UR sig nD τ) ℕ (Pipeline.pin (pcfgs (F := F)) runAdm p) c
  | ⟨0, _⟩ => fun c => dat0 (V1 m ρ) c
  | ⟨1, _⟩ => fun c => dat1 (V2 m ρ) c
abbrev run𝒱 : Variants := Variants.none
/-- No core owes another anything. -/
abbrev runL : GSem nD τ sig → Finset Unit := fun _ => ∅
abbrev runLv : GSem nD τ sig → Unit → ℕ := fun _ _ => 0
/-- Beside the buffers a core carries its generator register, at some state, and its ledger, owing nothing. -/
abbrev runR (c : Dev nD) : sProp 𝕄 := iprop((∃ r, prngReg c r) ∗ ∃ W, owes (c : Thread nD τ) (0 : CellTallies nD τ sig Unit) W)
/-- A host stretch over all unscoped buffers, from the contents `W`. -/
abbrev runHseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ run𝒱 runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runR

/-- Neither host stretch allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped reference of the core is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the ledger: every unscoped buffer at the return contents, the generator register. -/
abbrev runTn (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The recurrent-projection call: entered with every unscoped buffer at the contents after the bias reshapes, left
    with them at its exit contents. Its arrays are split out of the unscoped buffers and put back; the generator
    register passes through the invariant; nothing is owed and the call has no semaphore of its own. -/
def reg0 : Pipeline.RegionSeg (pcfgs (F := F)) runAdm (pdats m ρ) () defs₀ run𝒱 runL runLv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ runL runLv 0 fun _ _ => rfl
  pre c := iprop(StableHlo.held (c : Thread nD τ) (Pipeline.ucRefs τ sig) (W1 m ρ c) ∗ runR c)
  post c := iprop(StableHlo.held (c : Thread nD τ) (Pipeline.ucRefs τ sig) (W2 m ρ c) ∗ runR c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) runAdm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) runAdm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The cell call: entered with every unscoped buffer at the first call's exit contents, left with them at its own.
    Its invariant at the first point is made from the plain one (the scratch buffers at any contents) and gives the
    plain one back at the last. -/
def reg1 : Pipeline.RegionSeg (pcfgs (F := F)) runAdm (pdats m ρ) () defs₀ run𝒱 runL runLv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ runL runLv 1 fun _ _ => rfl
  pre c := iprop(StableHlo.held (c : Thread nD τ) (Pipeline.ucRefs τ sig) (W2 m ρ c) ∗ runR c)
  post c := iprop(StableHlo.held (c : Thread nD τ) (Pipeline.ucRefs τ sig) (W3 m ρ c) ∗ runR c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) runAdm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) runAdm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The four segments in program order. -/
abbrev runSegs : List (Pipeline.Seg (pcfgs (F := F)) runAdm (pdats m ρ) () defs₀ run𝒱 runL runLv) :=
  [ .host (runHseg hostOps0 hostOps0_sub hostOps0_fresh (W0 m ρ)),
    .region (reg0 m ρ),
    .region (reg1 m ρ),
    .host (runHseg hostOps2 hostOps2_sub hostOps2_fresh (W3 m ρ)) ]
/-- The program is the run of its segments. -/
theorem main_run (c : Dev nD) : main (F := F) c = Pipeline.Seg.run (runSegs m ρ) :=
  main_segs runAdm (pdats m ρ) () run𝒱 runL runLv _ _ (reg0 m ρ) (reg1 m ρ) rfl rfl c

set_option backward.isDefEq.respectTransparency.types false in
/-- From any memory with zero counters every weakly fair execution of the program terminates, nothing faulting, and
    in every final state every unscoped buffer holds the fold's contents at the return — whatever is to be read off
    them (`hQ`). -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) runAdm (pdats m ρ) () cellOf_inj emb₁ defs₀ run𝒱 runL runLv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ runR c)) (Tₙ := runTn m ρ)
    (hch := ⟨fun _ => .rfl, fun _ => .rfl, fun _ => .rfl, fun _ => .rfl, fun c => by
      show iprop(StableHlo.held (c : Thread nD τ) (Pipeline.ucRefs τ sig) (W4 m ρ c) ∗ runR c)
        ⊢ iprop(runTn m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run, with every unscoped buffer's final contents named. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  run_post m ρ fun s h => h

/-- The frame: the program terminates without fault and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_post m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩

end Cert.KernelIdeal.Hand

end
-- ==== Proof.LibTransposedMatmul.lean ====
/-
  A matrix product `[a, n] × [b, n]ᵀ` (both operands contracted on their columns, no batch axis) into the zero
  accumulator, read at an entry on the extended reals: entry `(r, j)` is the sum over `k` of the left operand at
  `(r, k)` times the right operand at `(j, k)`. General over the three extents, the two operand formats and the
  precision.
-/
import Idealize.ShloMosaic.Lib.ValueIdx
import Idealize.ShloMosaic.PureOps.Ideal.Laws

noncomputable section

open scoped BigOperators

namespace Cert.LibTransposedMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.transposedRhs a n b).contr.Idx) :
    ((DotDims.transposedRhs a n b).lhsIdx i q 0).val = (i 0).val := rfl

/-- … and the contraction coordinate as its column. -/
theorem lhs_col (i : (⟨2, ![a, b]⟩ : Shape).Idx) (q : (DotDims.transposedRhs a n b).contr.Idx) :
    ((DotDims.transposedRhs a n b).lhsIdx i q 1).val
      = (q (⟨0, Nat.one_pos⟩ : Fin (DotDims.transposedRhs a n b).contr.rank)).val :=
  (DotDims.transposedRhs a n b).lhsIdx_val_of_single rfl i q

/-- The right operand's index: row `i 1` … -/
theorem rhs_row (i : (⟨2, ![a, b]⟩ : Shape).Idx) (q : (DotDims.transposedRhs a n b).contr.Idx) :
    ((DotDims.transposedRhs a n b).rhsIdx i q 0).val = (i 1).val := rfl

/-- … and the contraction coordinate as its column. -/
theorem rhs_col (i : (⟨2, ![a, b]⟩ : Shape).Idx) (q : (DotDims.transposedRhs a n b).contr.Idx) :
    ((DotDims.transposedRhs a n b).rhsIdx i q 1).val
      = (q (⟨0, Nat.one_pos⟩ : Fin (DotDims.transposedRhs a n b).contr.rank)).val :=
  (DotDims.transposedRhs a n b).rhsIdx_val_of_single rfl i q

/-- A product with the transposed right operand into the zero accumulator, at entry `(r, j)`, is
    `Σₖ A (r, k) · B (j, k)`. -/
theorem matmul_zero_apply {φ₁ φ₂ : FTy} (prec : Option ContractPrecision) (A : FVec Ideal ⟨2, ![a, n]⟩ φ₁)
    (B : FVec Ideal ⟨2, ![b, n]⟩ φ₂) (r : Fin a) (j : Fin b) :
    FloatOps.matmul (DotDims.transposedRhs a n b) prec A B (constant ⟨2, ![a, b]⟩ .f32 0x00000000#32) (ix2 r j)
      = ∑ k : Fin n, A (ix2 r k) * B (ix2 j k) := by
  rw [Ideal.matmul_constant_zero_apply, ← Equiv.sum_comp (contrEquiv1 (DotDims.transposedRhs a n b) n rfl rfl).symm]
  refine Finset.sum_congr rfl fun k _ => ?_
  have hk := contrEquiv1_symm_val (DotDims.transposedRhs a n b) n rfl rfl k
  have el : (DotDims.transposedRhs a n b).lhsIdx (ix2 r j) ((contrEquiv1 (DotDims.transposedRhs a n b) n rfl rfl).symm k)
      = ix2 r k :=
    funext fun c => Fin.ext (by
      match c with
      | ⟨0, _⟩ => exact lhs_row _ _
      | ⟨1, _⟩ => exact (lhs_col _ _).trans hk)
  have er : (DotDims.transposedRhs a n b).rhsIdx (ix2 r j) ((contrEquiv1 (DotDims.transposedRhs a n b) n rfl rfl).symm k)
      = ix2 j k :=
    funext fun c => Fin.ext (by
      match c with
      | ⟨0, _⟩ => exact rhs_row _ _
      | ⟨1, _⟩ => exact (rhs_col _ _).trans hk)
  rw [el, er]

end Cert.LibTransposedMatmul

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.KI.ZhhValue.lean ====
/-
  What the recurrent pre-activation region leaves in its output array, on the extended reals.

  The region's grid is (layer, gate), four of each; point t = 4·layer + gate. At a point the body reads the layer's
  old hidden state H (128 × 1024), rows gate·1024 … gate·1024 + 1023 of the layer's recurrent weights W (as a
  1024 × 1024 block) and the same 1024 entries of the layer's bias b, and writes back columns gate·1024 … of the
  layer's slab of the output:

      out(l, r, g·1024 + q) = Σₖ H(l, r, k) · W(l, g·1024 + q, k) + b(l, 0, g·1024 + q).

  Rounding the operands to half precision is the identity on the extended reals, and the product accumulates from
  zero. Since the sixteen blocks tile the [4, 128, 4096] array, the array ends as one function of the three arrays
  the region was entered with: `Cert.Lstm.recur'`.

  The file reads the stored block at an entry, identifies each input block with its part of its array through the
  index maps (decided once over the sixteen grid points), and assembles the array from the blocks.
-/
import proofs.«115084_j79534204387582_2_alg».proof.Proof.KI.Zhh
import proofs.«115084_j79534204387582_2_alg».proof.Proof.LibTransposedMatmul
import proofs.«115084_j79534204387582_2_alg».proof.Proof.LibBlockLayout
import Idealize.ShloMosaic.Lib.Pipeline.Value
import Idealize.ShloMosaic.Lib.ValueIdx
import Idealize.ShloMosaic.Lib.Tactic

noncomputable section

open scoped BigOperators

namespace Cert.Lstm

open Idealize.ShloMosaic Idealize.ShloMosaic.ValueIdx Cert.KernelIdeal

/-- The recurrent pre-activation of every layer as one array: entry (l, r, q) is the old hidden state of layer l,
    row r, against row q of the layer's recurrent weights, plus the layer's reshaped recurrent bias at (l, 0, q). -/
def recur' (h0 : S4x128x1024.Idx → EReal) (Whh : S4x4096x1024.Idx → EReal) (b1 : S4x1x4096.Idx → EReal) :
    S4x128x4096.Idx → EReal := fun i =>
  (∑ k : Fin 1024, h0 (ix3 (i 0) (i 1) k) * Whh (ix3 (i 0) (i 2) k)) + b1 (ix3 (i 0) (0 : Fin 1) (i 2))

end Cert.Lstm

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's stored value at an entry -/

/-- The kernel's product, read at an entry: both operands are contracted on their columns into the zero accumulator. -/
theorem zhh_matmul_at (A : FVec Ideal S128x1024 .bf16) (B : FVec Ideal S1024x1024 .bf16) (r : Fin 128) (q : Fin 1024) :
    matmul dot_S128x1024_S1024x1024_S128x1024_1_1_0_0_n_n none A B (constant S128x1024 .f32 0x00000000#32) (ix2 r q)
      = ∑ k : Fin 1024, A (ix2 r k) * B (ix2 q k) :=
  Cert.LibTransposedMatmul.matmul_zero_apply (a := 128) (n := 1024) (b := 1024) none A B r q

/-- The bias block [1, 1, 1024], flattened and then laid out as a [1, 1024] row, read at (0, q). -/
theorem zhh_bias_row_at (x2 : Vec Ideal S1x1x1024 .f32) (q : Fin 1024) :
    shapeCast S1x1024 (shapeCast S1024 x2 shapeCasts_S1x1x1024_S1024) shapeCasts_S1024_S1x1024 (ix2 (0 : Fin 1) q)
      = x2 (ix3 (0 : Fin 1) (0 : Fin 1) q) := by
  refine (shapeCast_apply _ shapeCasts_S1024_S1x1024 (ix2 (0 : Fin 1) q) (ix1 q) ?_).trans ?_
  · rw [Shape.rowMajor_val_one, Shape.rowMajor_val_two]
    show q.val = (0 : ℕ) * 1024 + q.val
    omega
  · refine shapeCast_apply x2 shapeCasts_S1x1x1024_S1024 (ix1 q) (ix3 (0 : Fin 1) (0 : Fin 1) q) ?_
    rw [Shape.rowMajor_val_three, Shape.rowMajor_val_one]
    show ((0 : ℕ) * 1 + 0) * 1024 + q.val = q.val
    omega

/-- What the body stores, read at entry (0, r, q) of its block: the row of the hidden-state block against the row of
    the weight block, plus the bias block's entry q. Rounding the operands is the identity on the extended reals. -/
theorem zhh_payload_at (x0 : Vec Ideal S1x128x1024 .f32) (x1 : Vec Ideal S1x1024x1024 .f32) (x2 : Vec Ideal S1x1x1024 .f32)
    (r : Fin 128) (q : Fin 1024) :
    k0_pay1 (F := Ideal) x0 x1 x2 (ix3 (0 : Fin 1) r q)
      = (∑ k : Fin 1024, x0 (ix3 (0 : Fin 1) r k) * x1 (ix3 (0 : Fin 1) q k)) + x2 (ix3 (0 : Fin 1) (0 : Fin 1) q) := by
  unfold k0_pay1
  refine (Cert.LibBlockLayout.addUnit_at _ shapeCasts_S128x1024_S1x128x1024 r q).trans ?_
  refine (addf_apply _ _ (ix2 r q)).trans ?_
  refine congrArg₂ (· + ·) ?_ ?_
  · refine (zhh_matmul_at _ _ r q).trans ?_
    refine Finset.sum_congr rfl fun k _ => ?_
    refine congrArg₂ (· * ·) ?_ ?_
    · exact Cert.LibBlockLayout.dropUnit_at x0 shapeCasts_S1x128x1024_S128x1024 r k
    · exact Cert.LibBlockLayout.dropUnit_at x1 shapeCasts_S1x1024x1024_S1024x1024 q k
  · refine (Cert.LibBlockLayout.rowBroadcast_at _ broadcasts_S1x1024_S128x1024 r q).trans ?_
    exact zhh_bias_row_at x2 q

/-! ## From the blocks to the array -/

variable (V : (c : Dev nD) → (b : Ref sig .tc) → Buf (Elt Ideal) ((c : Thread nD τ).loc b))

theorem zero3 : (![0, 0, 0] : Fin 3 → Nat) = fun _ => 0 := funext fun a => by fin_cases a <;> rfl

/-- The index maps over the grid: point t works on layer t / 4 and gate t % 4. The hidden-state window follows the
    layer only; the weight window takes the gate's row block; the bias and output windows the gate's column block. -/
theorem zhh_index_maps : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = t.val % 4
    ∧ win0_3.index t (0 : Fin 3) = t.val / 4 ∧ win0_3.index t (1 : Fin 3) = 0 ∧ win0_3.index t (2 : Fin 3) = t.val % 4 :=
  (by decide +kernel : ∀ t : Fin grid0.N, _)

theorem point_lt (t : Fin cfg0.N) : t.val < 16 :=
  lt_of_lt_of_eq t.isLt N_0

/-- The layer a grid point works on, -/
def layerOf (t : Fin cfg0.N) : Fin 4 := ⟨t.val / 4, by have := point_lt t; omega⟩
/-- and its gate. -/
def gateOf (t : Fin cfg0.N) : Fin 4 := ⟨t.val % 4, by omega⟩
/-- Column q of gate block g among the 4096 columns. -/
def gcol (g : Fin 4) (q : Fin 1024) : Fin 4096 := ⟨g.val * 1024 + q.val, by have := g.isLt; have := q.isLt; omega⟩

/-- If the three blocks read are the layer's hidden state, the gate's rows of the layer's weights and the gate's
    entries of the layer's bias, the stored block is the gate's columns of the layer's recurrent pre-activation. -/
theorem zhh_block_at (G0 : S4x128x1024.Idx → EReal) (G1 : S4x4096x1024.Idx → EReal) (G2 : S4x1x4096.Idx → EReal)
    (x0 : Vec Ideal S1x128x1024 .f32) (x1 : Vec Ideal S1x1024x1024 .f32) (x2 : Vec Ideal S1x1x1024 .f32) (l g : Fin 4)
    (h0 : ∀ (r : Fin 128) (k : Fin 1024), x0 (ix3 (0 : Fin 1) r k) = G0 (ix3 l r k))
    (h1 : ∀ (q k : Fin 1024), x1 (ix3 (0 : Fin 1) q k) = G1 (ix3 l (gcol g q) k))
    (h2 : ∀ q : Fin 1024, x2 (ix3 (0 : Fin 1) (0 : Fin 1) q) = G2 (ix3 l (0 : Fin 1) (gcol g q)))
    (r : Fin 128) (q : Fin 1024) :
    k0_pay1 (F := Ideal) x0 x1 x2 (ix3 (0 : Fin 1) r q) = Cert.Lstm.recur' G0 G1 G2 (ix3 l r (gcol g q)) := by
  refine (zhh_payload_at x0 x1 x2 r q).trans ?_
  unfold Cert.Lstm.recur'
  refine congrArg₂ (· + ·) (Finset.sum_congr rfl fun k _ => ?_) (h2 q)
  exact congrArg₂ (· * ·) (h0 r k) (h1 q k)

/-- The hidden-state block at point t is layer t / 4 of the array. -/
theorem zhh_iblk_h (c : Dev nD) (t : Fin cfg0.N) (r : Fin 128) (k : Fin 1024) :
    iblk0 V c 0 t (ix3 (0 : Fin 1) r k) = (V c main_arg1 : S4x128x1024.Idx → EReal) (ix3 (layerOf t) r k) := by
  obtain ⟨e00, e01, e02, -⟩ := zhh_index_maps t
  unfold iblk0
  rw [View.read_apply]
  show (V c main_arg1 : S4x128x1024.Idx → EReal) (((cfg0.win 0).blk t).view.emb (ix3 (0 : Fin 1) r k)) = _
  refine congrArg (V c main_arg1 : S4x128x1024.Idx → EReal) (funext fun a => Fin.ext ?_)
  match a with
  | ⟨0, _⟩ => show win0_0.index t (0 : Fin 3) * 1 + 1 * 0 = t.val / 4; omega
  | ⟨1, _⟩ => show win0_0.index t (1 : Fin 3) * 128 + 1 * r.val = r.val; omega
  | ⟨2, _⟩ => show win0_0.index t (2 : Fin 3) * 1024 + 1 * k.val = k.val; omega

/-- The weight block at point t is rows (t % 4)·1024 … of layer t / 4. -/
theorem zhh_iblk_w (c : Dev nD) (t : Fin cfg0.N) (q k : Fin 1024) :
    iblk0 V c 1 t (ix3 (0 : Fin 1) q k) = (V c main_arg4 : S4x4096x1024.Idx → EReal) (ix3 (layerOf t) (gcol (gateOf t) q) k) := by
  obtain ⟨-, -, -, e10, e11, e12, -⟩ := zhh_index_maps t
  unfold iblk0
  rw [View.read_apply]
  show (V c main_arg4 : S4x4096x1024.Idx → EReal) (((cfg0.win 1).blk t).view.emb (ix3 (0 : Fin 1) q k)) = _
  refine congrArg (V c main_arg4 : S4x4096x1024.Idx → EReal) (funext fun a => Fin.ext ?_)
  match a with
  | ⟨0, _⟩ => show win0_1.index t (0 : Fin 3) * 1 + 1 * 0 = t.val / 4; omega
  | ⟨1, _⟩ => show win0_1.index t (1 : Fin 3) * 1024 + 1 * q.val = t.val % 4 * 1024 + q.val; omega
  | ⟨2, _⟩ => show win0_1.index t (2 : Fin 3) * 1024 + 1 * k.val = k.val; omega

/-- The bias block at point t is entries (t % 4)·1024 … of layer t / 4. -/
theorem zhh_iblk_b (c : Dev nD) (t : Fin cfg0.N) (q : Fin 1024) :
    iblk0 V c 2 t (ix3 (0 : Fin 1) (0 : Fin 1) q) = (V c main_v1 : S4x1x4096.Idx → EReal) (ix3 (layerOf t) (0 : Fin 1) (gcol (gateOf t) q)) := by
  obtain ⟨-, -, -, -, -, -, e20, e21, e22, -⟩ := zhh_index_maps t
  unfold iblk0
  rw [View.read_apply]
  show (V c main_v1 : S4x1x4096.Idx → EReal) (((cfg0.win 2).blk t).view.emb (ix3 (0 : Fin 1) (0 : Fin 1) q)) = _
  refine congrArg (V c main_v1 : S4x1x4096.Idx → EReal) (funext fun a => Fin.ext ?_)
  match a with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 1024 + 1 * q.val = t.val % 4 * 1024 + q.val; omega

/-- What point t writes back is its block of the recurrent pre-activation array. -/
theorem zhh_flushed_eq (c : Dev nD) (t : Fin cfg0.N) :
    (dat0 (F := Ideal) V c).flushed 3 t
      = ((cfg0.win 3).blk t).view.read (Elt Ideal) (Cert.Lstm.recur' (V c main_arg1) (V c main_arg4) (V c main_v1)) := by
  show (cfg0.win 3).cut (grid0.coords t) ((dat0 (F := Ideal) V c).after 3 t) = _
  rw [after0_3]
  unfold out0_3
  rw [View.canon_unit_zero zero3]
  simp only [View.ld_unit_zero (S := S1x128x1024) zero3, View.ld_unit_zero (S := S1x1024x1024) zero3, View.ld_unit_zero (S := S1x1x1024) zero3]
  obtain ⟨-, -, -, -, -, -, -, -, -, e30, e31, e32⟩ := zhh_index_maps t
  refine funext fun (j : S1x128x1024.Idx) => ?_
  show k0_pay1 (F := Ideal) (iblk0 V c 0 t) (iblk0 V c 1 t) (iblk0 V c 2 t) j
    = Cert.Lstm.recur' (V c main_arg1) (V c main_arg4) (V c main_v1) (((cfg0.win 3).blk t).view.emb j)
  obtain ⟨a, r, q, rfl⟩ : ∃ (a : Fin 1) (r : Fin 128) (q : Fin 1024), j = ix3 a r q := ⟨j 0, j 1, j 2, eq_ix3 j⟩
  obtain rfl : a = 0 := Subsingleton.elim _ _
  refine (zhh_block_at (V c main_arg1) (V c main_arg4) (V c main_v1) (iblk0 V c 0 t) (iblk0 V c 1 t) (iblk0 V c 2 t)
    (layerOf t) (gateOf t) (zhh_iblk_h V c t) (zhh_iblk_w V c t) (zhh_iblk_b V c t) r q).trans ?_
  refine congrArg (Cert.Lstm.recur' (V c main_arg1) (V c main_arg4) (V c main_v1)) (funext fun a => Fin.ext ?_)
  match a with
  | ⟨0, _⟩ => show t.val / 4 = win0_3.index t (0 : Fin 3) * 1 + 1 * 0; omega
  | ⟨1, _⟩ => show r.val = win0_3.index t (1 : Fin 3) * 128 + 1 * r.val; omega
  | ⟨2, _⟩ => show t.val % 4 * 1024 + q.val = win0_3.index t (2 : Fin 3) * 1024 + 1 * q.val; omega

/-- An index of the output array is in point t's block iff each coordinate is in the block's range on its axis. -/
theorem zhh_mem_blk (t : Fin cfg0.N) (i : S4x128x4096.Idx) :
    i ∈ ((cfg0.win 3).blk t).view.set ↔ ∀ a : Fin 3, win0_3.index t a * S1x128x1024.size a ≤ (i a).val
      ∧ (i a).val < win0_3.index t a * S1x128x1024.size a + S1x128x1024.size a := by
  show i ∈ ((View.whole main_v2).slice (win0_3.rect t)).set ↔ _
  rw [View.set_slice_whole, Rect.mem_set_unit]
  exact Iff.rfl

/-- Every entry (l, r, q) of the output array is written back by the point of layer l and gate q / 1024. -/
theorem zhh_cover (i : S4x128x4096.Idx) :
    ∃ t : Fin cfg0.N, (cfg0.win 3).flush t = true ∧ i ∈ ((cfg0.win 3).blk t).view.set := by
  have hi0 : (i 0).val < 4 := (i 0).isLt
  have hi1 : (i 1).val < 128 := (i 1).isLt
  have hi2 : (i 2).val < 4096 := (i 2).isLt
  let t : Fin cfg0.N := ⟨4 * (i 0).val + (i 2).val / 1024, by rw [show cfg0.N = 16 from N_0]; omega⟩
  have ht : t.val = 4 * (i 0).val + (i 2).val / 1024 := rfl
  obtain ⟨-, -, -, -, -, -, -, -, -, e30, e31, e32⟩ := zhh_index_maps t
  refine ⟨t, flush0_3 t, ?_⟩
  rw [zhh_mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 1024 ≤ (i 2).val ∧ (i 2).val < win0_3.index t (2 : Fin 3) * 1024 + 1024; omega

/-- What the region leaves in its output array: the recurrent pre-activation of every layer, as one function of the
    hidden-state, weight and reshaped-bias arrays the region was entered with. -/
theorem zhh_final (c : Dev nD) :
    (dat0 (F := Ideal) V c).arrAt 3 cfg0.N
      = fun i => Cert.Lstm.recur' (V c main_arg1) (V c main_arg4) (V c main_v1) i :=
  (dat0 (F := Ideal) V c).arrAt_eq_of_cover 3 (Cert.Lstm.recur' (V c main_arg1) (V c main_arg4) (V c main_v1))
    (fun t _ => zhh_flushed_eq V c t) zhh_cover

end Cert.KernelIdeal.Hand

end
-- ==== Proof.KI.CellPieces.lean ====
/-
  What each control case of the recurrent kernel's body leaves in the buffers it stores into, as a term over the
  values it was handed.

  Every store of the body writes one whole buffer at offset zero, and every load reads one whole buffer. So the
  contents a case leaves in a buffer are simply the stored value, in which each load of a buffer stored earlier in the
  same case is that earlier stored value, and each load of a buffer the case was handed is the handed value:

  * the first point seeds the carried input with the data, rounds it, and stores the input gate's activation of it;
  * gate 0 of a later layer rounds the carried input and stores the input gate's activation;
  * gates 1 and 2 store the forget gate's and the candidate's activation of the rounded input;
  * gate 3 stores the output gate's activation and reads it back into the new hidden state, which goes to its output
    window and to the carried input; the new cell state goes to its output window.
-/
import proofs.«115084_j79534204387582_2_alg».proof.Proof.KI.Cell
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Zero offsets, spelt as the stores spell them. -/
theorem cellZero2 : (![0, 0] : Fin 2 → Nat) = fun _ => 0 := funext fun a => by fin_cases a <;> rfl
theorem cellZero3 : (![0, 0, 0] : Fin 3 → Nat) = fun _ => 0 := funext fun a => by fin_cases a <;> rfl

theorem pieceA_inpB (c : Dev nD) (t : Fin cfg1.N) (h : t.val = 0) (x0 : Vec F S128x1024 .f32) (x2 : Vec F S1x1024x1024 .f32) (x3 : Vec F S1x1x1024 .f32) (x4 : Vec F S1x128x1024 .f32) :
    backB (runA_at (F := F) c t h x0 x2 x3 x4).2.1 = k1_pay8 (k1_pay7 x0) := by
  unfold backB
  rw [View.read_writes_eq_canon _ _ _ (View.cover_of_tiledL (runA_at (F := F) c t h x0 x2 x3 x4).2.1 S128x1024.size (by sl_kernel_rfl))]
  unfold runA_at runA
  dsimp only
  sl_unfold_words
  first
    | rw [View.canon_unit_zero cellZero2]
    | rw [View.canon_cons_unit_zero cellZero2]
  simp only [View.readCov_unit_zero (S := S128x1024) _ cellZero2, View.readAt_eq_ld, Memref.IsWhole.read_unread, Memref.IsWhole.read_unread (m := scInp), Memref.IsWhole.read_unread (m := scInpB),
    Memref.IsWhole.read_unread (m := scI), Memref.IsWhole.read_unread (m := scF), Memref.IsWhole.read_unread (m := scG),
    Memref.IsWhole.read_unread (m := scO),
    View.ld_unit_zero (S := S128x1024) cellZero2, View.ld_unit_zero (S := S1x128x1024) cellZero3,
    View.ld_unit_zero (S := S1x1024x1024) cellZero3, View.ld_unit_zero (S := S1x1x1024) cellZero3]

theorem pieceA_gI (c : Dev nD) (t : Fin cfg1.N) (h : t.val = 0) (x0 : Vec F S128x1024 .f32) (x2 : Vec F S1x1024x1024 .f32) (x3 : Vec F S1x1x1024 .f32) (x4 : Vec F S1x128x1024 .f32) :
    backS (runA_at (F := F) c t h x0 x2 x3 x4).2.2.1 = k1_pay10 (k1_pay8 (k1_pay7 x0)) x2 x3 x4 := by
  unfold backS
  rw [View.read_writes_eq_canon _ _ _ (View.cover_of_tiledL (runA_at (F := F) c t h x0 x2 x3 x4).2.2.1 S128x1024.size (by sl_kernel_rfl))]
  unfold runA_at runA
  dsimp only
  sl_unfold_words
  first
    | rw [View.canon_unit_zero cellZero2]
    | rw [View.canon_cons_unit_zero cellZero2]
  simp only [View.readCov_unit_zero (S := S128x1024) _ cellZero2, View.readAt_eq_ld, Memref.IsWhole.read_unread, Memref.IsWhole.read_unread (m := scInp), Memref.IsWhole.read_unread (m := scInpB),
    Memref.IsWhole.read_unread (m := scI), Memref.IsWhole.read_unread (m := scF), Memref.IsWhole.read_unread (m := scG),
    Memref.IsWhole.read_unread (m := scO),
    View.ld_unit_zero (S := S128x1024) cellZero2, View.ld_unit_zero (S := S1x128x1024) cellZero3,
    View.ld_unit_zero (S := S1x1024x1024) cellZero3, View.ld_unit_zero (S := S1x1x1024) cellZero3]

theorem pieceB_inpB (c : Dev nD) (t : Fin cfg1.N) (h : t.val % 4 = 0) (hz : t.val ≠ 0) (xs : Vec F S128x1024 .f32) (x2 : Vec F S1x1024x1024 .f32) (x3 : Vec F S1x1x1024 .f32) (x4 : Vec F S1x128x1024 .f32) :
    backB (runB_at (F := F) c t h hz xs x2 x3 x4).1 = k1_pay8 xs := by
  unfold backB
  rw [View.read_writes_eq_canon _ _ _ (View.cover_of_tiledL (runB_at (F := F) c t h hz xs x2 x3 x4).1 S128x1024.size (by sl_kernel_rfl))]
  unfold runB_at runB
  dsimp only
  sl_unfold_words
  first
    | rw [View.canon_unit_zero cellZero2]
    | rw [View.canon_cons_unit_zero cellZero2]
  simp only [View.readCov_unit_zero (S := S128x1024) _ cellZero2, View.readAt_eq_ld, Memref.IsWhole.read_unread, Memref.IsWhole.read_unread (m := scInp), Memref.IsWhole.read_unread (m := scInpB),
    Memref.IsWhole.read_unread (m := scI), Memref.IsWhole.read_unread (m := scF), Memref.IsWhole.read_unread (m := scG),
    Memref.IsWhole.read_unread (m := scO),
    View.ld_unit_zero (S := S128x1024) cellZero2, View.ld_unit_zero (S := S1x128x1024) cellZero3,
    View.ld_unit_zero (S := S1x1024x1024) cellZero3, View.ld_unit_zero (S := S1x1x1024) cellZero3]

theorem pieceB_gI (c : Dev nD) (t : Fin cfg1.N) (h : t.val % 4 = 0) (hz : t.val ≠ 0) (xs : Vec F S128x1024 .f32) (x2 : Vec F S1x1024x1024 .f32) (x3 : Vec F S1x1x1024 .f32) (x4 : Vec F S1x128x1024 .f32) :
    backS (runB_at (F := F) c t h hz xs x2 x3 x4).2.1 = k1_pay10 (k1_pay8 xs) x2 x3 x4 := by
  unfold backS
  rw [View.read_writes_eq_canon _ _ _ (View.cover_of_tiledL (runB_at (F := F) c t h hz xs x2 x3 x4).2.1 S128x1024.size (by sl_kernel_rfl))]
  unfold runB_at runB
  dsimp only
  sl_unfold_words
  first
    | rw [View.canon_unit_zero cellZero2]
    | rw [View.canon_cons_unit_zero cellZero2]
  simp only [View.readCov_unit_zero (S := S128x1024) _ cellZero2, View.readAt_eq_ld, Memref.IsWhole.read_unread, Memref.IsWhole.read_unread (m := scInp), Memref.IsWhole.read_unread (m := scInpB),
    Memref.IsWhole.read_unread (m := scI), Memref.IsWhole.read_unread (m := scF), Memref.IsWhole.read_unread (m := scG),
    Memref.IsWhole.read_unread (m := scO),
    View.ld_unit_zero (S := S128x1024) cellZero2, View.ld_unit_zero (S := S1x128x1024) cellZero3,
    View.ld_unit_zero (S := S1x1024x1024) cellZero3, View.ld_unit_zero (S := S1x1x1024) cellZero3]

theorem pieceC_gF (c : Dev nD) (t : Fin cfg1.N) (h : t.val % 4 = 1) (xb : Vec F S128x1024 .bf16) (x2 : Vec F S1x1024x1024 .f32) (x3 : Vec F S1x1x1024 .f32) (x4 : Vec F S1x128x1024 .f32) :
    backS (runC_at (F := F) c t h xb x2 x3 x4).1 = k1_pay11 xb x2 x3 x4 := by
  unfold backS
  rw [View.read_writes_eq_canon _ _ _ (View.cover_of_tiledL (runC_at (F := F) c t h xb x2 x3 x4).1 S128x1024.size (by sl_kernel_rfl))]
  unfold runC_at runC
  dsimp only
  sl_unfold_words
  first
    | rw [View.canon_unit_zero cellZero2]
    | rw [View.canon_cons_unit_zero cellZero2]
  simp only [View.readCov_unit_zero (S := S128x1024) _ cellZero2, View.readAt_eq_ld, Memref.IsWhole.read_unread, Memref.IsWhole.read_unread (m := scInp), Memref.IsWhole.read_unread (m := scInpB),
    Memref.IsWhole.read_unread (m := scI), Memref.IsWhole.read_unread (m := scF), Memref.IsWhole.read_unread (m := scG),
    Memref.IsWhole.read_unread (m := scO),
    View.ld_unit_zero (S := S128x1024) cellZero2, View.ld_unit_zero (S := S1x128x1024) cellZero3,
    View.ld_unit_zero (S := S1x1024x1024) cellZero3, View.ld_unit_zero (S := S1x1x1024) cellZero3]

theorem pieceD_gG (c : Dev nD) (t : Fin cfg1.N) (h : t.val % 4 = 2) (xb : Vec F S128x1024 .bf16) (x2 : Vec F S1x1024x1024 .f32) (x3 : Vec F S1x1x1024 .f32) (x4 : Vec F S1x128x1024 .f32) :
    backS (runD_at (F := F) c t h xb x2 x3 x4).1 = k1_pay12 xb x2 x3 x4 := by
  unfold backS
  rw [View.read_writes_eq_canon _ _ _ (View.cover_of_tiledL (runD_at (F := F) c t h xb x2 x3 x4).1 S128x1024.size (by sl_kernel_rfl))]
  unfold runD_at runD
  dsimp only
  sl_unfold_words
  first
    | rw [View.canon_unit_zero cellZero2]
    | rw [View.canon_cons_unit_zero cellZero2]
  simp only [View.readCov_unit_zero (S := S128x1024) _ cellZero2, View.readAt_eq_ld, Memref.IsWhole.read_unread, Memref.IsWhole.read_unread (m := scInp), Memref.IsWhole.read_unread (m := scInpB),
    Memref.IsWhole.read_unread (m := scI), Memref.IsWhole.read_unread (m := scF), Memref.IsWhole.read_unread (m := scG),
    Memref.IsWhole.read_unread (m := scO),
    View.ld_unit_zero (S := S128x1024) cellZero2, View.ld_unit_zero (S := S1x128x1024) cellZero3,
    View.ld_unit_zero (S := S1x1024x1024) cellZero3, View.ld_unit_zero (S := S1x1x1024) cellZero3]

theorem pieceE_oH (c : Dev nD) (t : Fin cfg1.N) (h : t.val % 4 = 3) (xb : Vec F S128x1024 .bf16) (x2 : Vec F S1x1024x1024 .f32) (x3 : Vec F S1x1x1024 .f32) (x4 : Vec F S1x128x1024 .f32) (x1 : Vec F S1x128x1024 .f32) (xi xf xg : Vec F S128x1024 .f32) :
    backO (runE_at (F := F) c t h xb x2 x3 x4 x1 xi xf xg).2.1 = k1_pay4 xf x1 xi xg (k1_pay1 (k1_pay9 xb x2 x3 x4)) := by
  unfold backO
  rw [View.read_writes_eq_canon _ _ _ (View.cover_of_tiledL (runE_at (F := F) c t h xb x2 x3 x4 x1 xi xf xg).2.1 S1x128x1024.size (by sl_kernel_rfl))]
  unfold runE_at runE
  dsimp only
  sl_unfold_words
  first
    | rw [View.canon_unit_zero cellZero3]
    | rw [View.canon_cons_unit_zero cellZero3]
  simp only [View.readCov_unit_zero (S := S128x1024) _ cellZero2, View.readAt_eq_ld, Memref.IsWhole.read_unread, Memref.IsWhole.read_unread (m := scInp), Memref.IsWhole.read_unread (m := scInpB),
    Memref.IsWhole.read_unread (m := scI), Memref.IsWhole.read_unread (m := scF), Memref.IsWhole.read_unread (m := scG),
    Memref.IsWhole.read_unread (m := scO),
    View.ld_unit_zero (S := S128x1024) cellZero2, View.ld_unit_zero (S := S1x128x1024) cellZero3,
    View.ld_unit_zero (S := S1x1024x1024) cellZero3, View.ld_unit_zero (S := S1x1x1024) cellZero3]

theorem pieceE_oC (c : Dev nD) (t : Fin cfg1.N) (h : t.val % 4 = 3) (xb : Vec F S128x1024 .bf16) (x2 : Vec F S1x1024x1024 .f32) (x3 : Vec F S1x1x1024 .f32) (x4 : Vec F S1x128x1024 .f32) (x1 : Vec F S1x128x1024 .f32) (xi xf xg : Vec F S128x1024 .f32) :
    backO (runE_at (F := F) c t h xb x2 x3 x4 x1 xi xf xg).2.2.1 = k1_pay5 xf x1 xi xg := by
  unfold backO
  rw [View.read_writes_eq_canon _ _ _ (View.cover_of_tiledL (runE_at (F := F) c t h xb x2 x3 x4 x1 xi xf xg).2.2.1 S1x128x1024.size (by sl_kernel_rfl))]
  unfold runE_at runE
  dsimp only
  sl_unfold_words
  first
    | rw [View.canon_unit_zero cellZero3]
    | rw [View.canon_cons_unit_zero cellZero3]
  simp only [View.readCov_unit_zero (S := S128x1024) _ cellZero2, View.readAt_eq_ld, Memref.IsWhole.read_unread, Memref.IsWhole.read_unread (m := scInp), Memref.IsWhole.read_unread (m := scInpB),
    Memref.IsWhole.read_unread (m := scI), Memref.IsWhole.read_unread (m := scF), Memref.IsWhole.read_unread (m := scG),
    Memref.IsWhole.read_unread (m := scO),
    View.ld_unit_zero (S := S128x1024) cellZero2, View.ld_unit_zero (S := S1x128x1024) cellZero3,
    View.ld_unit_zero (S := S1x1024x1024) cellZero3, View.ld_unit_zero (S := S1x1x1024) cellZero3]

theorem pieceE_inp (c : Dev nD) (t : Fin cfg1.N) (h : t.val % 4 = 3) (xb : Vec F S128x1024 .bf16) (x2 : Vec F S1x1024x1024 .f32) (x3 : Vec F S1x1x1024 .f32) (x4 : Vec F S1x128x1024 .f32) (x1 : Vec F S1x128x1024 .f32) (xi xf xg : Vec F S128x1024 .f32) :
    backS (runE_at (F := F) c t h xb x2 x3 x4 x1 xi xf xg).2.2.2.1 = k1_pay6 xf x1 xi xg (k1_pay1 (k1_pay9 xb x2 x3 x4)) := by
  unfold backS
  rw [View.read_writes_eq_canon _ _ _ (View.cover_of_tiledL (runE_at (F := F) c t h xb x2 x3 x4 x1 xi xf xg).2.2.2.1 S128x1024.size (by sl_kernel_rfl))]
  unfold runE_at runE
  dsimp only
  sl_unfold_words
  first
    | rw [View.canon_unit_zero cellZero2]
    | rw [View.canon_cons_unit_zero cellZero2]
  simp only [View.readCov_unit_zero (S := S128x1024) _ cellZero2, View.readAt_eq_ld, Memref.IsWhole.read_unread, Memref.IsWhole.read_unread (m := scInp), Memref.IsWhole.read_unread (m := scInpB),
    Memref.IsWhole.read_unread (m := scI), Memref.IsWhole.read_unread (m := scF), Memref.IsWhole.read_unread (m := scG),
    Memref.IsWhole.read_unread (m := scO),
    View.ld_unit_zero (S := S128x1024) cellZero2, View.ld_unit_zero (S := S1x128x1024) cellZero3,
    View.ld_unit_zero (S := S1x1024x1024) cellZero3, View.ld_unit_zero (S := S1x1x1024) cellZero3]

end Cert.KernelIdeal.Hand

end
-- ==== Proof.LibSigmoid.lean ====
/-
  The logistic function on the extended reals in its two spellings, and three small facts that travel with it.

  A kernel's logistic operation is, on the extended reals, 1 / (1 + e⁻ˣ) with the conventions 0 at -∞ and 1 at +∞. A host
  program that spells the sigmoid as a negation, an exponential, a sum with the word of 1.0 and a quotient of that word
  by the sum denotes the same function: the word 0x3F800000 is the number one. Beside it: the logistic function and the
  hyperbolic tangent of a vector read at an entry, and the fact that four terms added to a start value one after the
  other are the start value plus their sum (an accumulator over four unrolled steps against a reduction), in any
  commutative additive monoid.
-/
import Idealize.ShloMosaic.PureOps.Ideal
import Idealize.ShloMosaic.Lib.ValueIdx
import Mathlib.Algebra.BigOperators.Fin

noncomputable section

open scoped BigOperators

namespace Cert.LibSigmoid

open Idealize.ShloMosaic

/-- The word of 1.0 denotes the number one. -/
theorem oneW : Ideal.ofBits .f32 0x3F800000#32 = 1 := by
  simp [Ideal.ofBits, Ideal.ieee, -EReal.coe_mul]; norm_num

/-- The sigmoid spelt with the word of 1.0, a negation, an exponential, a sum and a quotient is the logistic function,
    at every extended real. -/
theorem logistic_spelt (x : EReal) :
    Ideal.div (Ideal.ofBits .f32 0x3F800000#32) (Ideal.ofBits .f32 0x3F800000#32 + Ideal.exp (-x)) = Ideal.logistic x := by
  rw [oneW]; rfl

/-- The logistic function of a vector, at an entry. -/
theorem logistic_at {s : Shape} {φ : FTy} (v : FVec Ideal s φ) (i : s.Idx) : logistic v i = Ideal.logistic (v i) := rfl

/-- The hyperbolic tangent of a vector, at an entry. -/
theorem tanh_at {s : Shape} {φ : FTy} (v : FVec Ideal s φ) (i : s.Idx) : tanh v i = Ideal.tanh (v i) := rfl

/-- Four terms added to a start value one after the other are the start value plus their sum. -/
theorem chain4 {M : Type*} [AddCommMonoid M] (z : M) (t : Fin 4 → M) :
    (((z + t 0) + t 1) + t 2) + t 3 = z + ∑ k : Fin 4, t k := by
  rw [Fin.sum_univ_four]
  simp only [add_assoc]

end Cert.LibSigmoid

end
-- ==== Proof.KI.CellPay.lean ====
/-
  The recurrent kernel's stored values, read at an entry on the extended reals.

  Every value the kernel stores is built from a handful of operations on 128 × 1024 matrices: the gate's
  pre-activation (the rounded input against the gate's 1024 rows of the input weights, plus the gate's bias entries
  repeated down the rows, plus the recurrent part computed beforehand), the logistic function or the hyperbolic
  tangent of it, and at the last gate the new cell state f·c + i·g and the new hidden state o·tanh(f·c + i·g). On the
  extended reals rounding to half precision is the identity, a cast that only adds or drops a leading unit axis reads
  the same entry, and the matrix product accumulates from zero; so each stored value, at entry (r, j), is the
  evident expression in the entries of what was loaded.
-/
import proofs.«115084_j79534204387582_2_alg».proof.Proof.Gen.KernelIdeal.Skeleton
import proofs.«115084_j79534204387582_2_alg».proof.Proof.LibTransposedMatmul
import proofs.«115084_j79534204387582_2_alg».proof.Proof.LibBlockLayout
import proofs.«115084_j79534204387582_2_alg».proof.Proof.LibSigmoid
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.ValueIdx

/-- The gate's product, read at an entry: both operands are contracted on their columns into the zero accumulator. -/
theorem cell_matmul_at (A : FVec Ideal S128x1024 .bf16) (B : FVec Ideal S1024x1024 .bf16) (r : Fin 128) (j : Fin 1024) :
    matmul dot_S128x1024_S1024x1024_S128x1024_1_1_0_0_n_n none A B (constant S128x1024 .f32 0x00000000#32) (ix2 r j)
      = ∑ k : Fin 1024, A (ix2 r k) * B (ix2 j k) :=
  Cert.LibTransposedMatmul.matmul_zero_apply (a := 128) (n := 1024) (b := 1024) none A B r j

/-- The bias block [1, 1, 1024], flattened and then laid out as a [1, 1024] row, read at (0, j). -/
theorem cell_bias_row_at (x3 : Vec Ideal S1x1x1024 .f32) (j : Fin 1024) :
    shapeCast S1x1024 (shapeCast S1024 x3 shapeCasts_S1x1x1024_S1024) shapeCasts_S1024_S1x1024 (ix2 (0 : Fin 1) j)
      = x3 (ix3 (0 : Fin 1) (0 : Fin 1) j) := by
  refine (shapeCast_apply _ shapeCasts_S1024_S1x1024 (ix2 (0 : Fin 1) j) (ix1 j) ?_).trans ?_
  · rw [Shape.rowMajor_val_one, Shape.rowMajor_val_two]
    show j.val = (0 : ℕ) * 1024 + j.val
    omega
  · refine shapeCast_apply x3 shapeCasts_S1x1x1024_S1024 (ix1 j) (ix3 (0 : Fin 1) (0 : Fin 1) j) ?_
    rw [Shape.rowMajor_val_three, Shape.rowMajor_val_one]
    show ((0 : ℕ) * 1 + 0) * 1024 + j.val = j.val
    omega

/-- The gate's pre-activation at (r, j): the rounded input's row r against row j of the weight block, plus the bias
    block's entry j, plus the recurrent part's entry (r, j). -/
theorem pay9_at (xb : FVec Ideal S128x1024 .bf16) (x2 : Vec Ideal S1x1024x1024 .f32) (x3 : Vec Ideal S1x1x1024 .f32)
    (x4 : Vec Ideal S1x128x1024 .f32) (r : Fin 128) (j : Fin 1024) :
    k1_pay9 (F := Ideal) xb x2 x3 x4 (ix2 r j)
      = ((∑ k : Fin 1024, xb (ix2 r k) * x2 (ix3 (0 : Fin 1) j k)) + x3 (ix3 (0 : Fin 1) (0 : Fin 1) j))
          + x4 (ix3 (0 : Fin 1) r j) := by
  unfold k1_pay9
  refine (addf_apply _ _ (ix2 r j)).trans ?_
  refine congrArg₂ (· + ·) ?_ (Cert.LibBlockLayout.dropUnit_at x4 shapeCasts_S1x128x1024_S128x1024 r j)
  refine (addf_apply _ _ (ix2 r j)).trans ?_
  refine congrArg₂ (· + ·) ?_ ?_
  · refine (cell_matmul_at _ _ r j).trans ?_
    refine Finset.sum_congr rfl fun k _ => ?_
    exact congrArg (xb (ix2 r k) * ·) (Cert.LibBlockLayout.dropUnit_at x2 shapeCasts_S1x1024x1024_S1024x1024 j k)
  · refine (Cert.LibBlockLayout.rowBroadcast_at _ broadcasts_S1x1024_S128x1024 r j).trans ?_
    exact cell_bias_row_at x3 j

/-- The input gate's stored activation. -/
theorem pay10_at (xb : FVec Ideal S128x1024 .bf16) (x2 : Vec Ideal S1x1024x1024 .f32) (x3 : Vec Ideal S1x1x1024 .f32)
    (x4 : Vec Ideal S1x128x1024 .f32) (r : Fin 128) (j : Fin 1024) :
    k1_pay10 (F := Ideal) xb x2 x3 x4 (ix2 r j) = Ideal.logistic (k1_pay9 (F := Ideal) xb x2 x3 x4 (ix2 r j)) := by
  unfold k1_pay10
  exact congrFun (shapeCast_self _ shapeCasts_S128x1024_S128x1024) (ix2 r j)

/-- The forget gate's stored activation. -/
theorem pay11_at (xb : FVec Ideal S128x1024 .bf16) (x2 : Vec Ideal S1x1024x1024 .f32) (x3 : Vec Ideal S1x1x1024 .f32)
    (x4 : Vec Ideal S1x128x1024 .f32) (r : Fin 128) (j : Fin 1024) :
    k1_pay11 (F := Ideal) xb x2 x3 x4 (ix2 r j) = Ideal.logistic (k1_pay9 (F := Ideal) xb x2 x3 x4 (ix2 r j)) := by
  unfold k1_pay11
  exact congrFun (shapeCast_self _ shapeCasts_S128x1024_S128x1024) (ix2 r j)

/-- The cell candidate's stored activation. -/
theorem pay12_at (xb : FVec Ideal S128x1024 .bf16) (x2 : Vec Ideal S1x1024x1024 .f32) (x3 : Vec Ideal S1x1x1024 .f32)
    (x4 : Vec Ideal S1x128x1024 .f32) (r : Fin 128) (j : Fin 1024) :
    k1_pay12 (F := Ideal) xb x2 x3 x4 (ix2 r j) = Ideal.tanh (k1_pay9 (F := Ideal) xb x2 x3 x4 (ix2 r j)) := by
  unfold k1_pay12
  exact congrFun (shapeCast_self _ shapeCasts_S128x1024_S128x1024) (ix2 r j)

/-- The output gate's stored activation, from its pre-activation. -/
theorem pay1_at (v : FVec Ideal S128x1024 .f32) (i : S128x1024.Idx) :
    k1_pay1 (F := Ideal) v i = Ideal.logistic (v i) := by
  unfold k1_pay1
  exact congrFun (shapeCast_self _ shapeCasts_S128x1024_S128x1024) i

/-- The new cell state: forget gate times old cell state plus input gate times candidate. -/
theorem pay2_at (f : Vec Ideal S128x1024 .f32) (c0b : Vec Ideal S1x128x1024 .f32) (i g : Vec Ideal S128x1024 .f32)
    (r : Fin 128) (j : Fin 1024) :
    k1_pay2 (F := Ideal) f c0b i g (ix2 r j)
      = f (ix2 r j) * c0b (ix3 (0 : Fin 1) r j) + i (ix2 r j) * g (ix2 r j) := by
  unfold k1_pay2
  refine (addf_apply _ _ (ix2 r j)).trans ?_
  refine congrArg (· + i (ix2 r j) * g (ix2 r j)) ?_
  refine (mulf_apply _ _ (ix2 r j)).trans ?_
  exact congrArg (f (ix2 r j) * ·) (Cert.LibBlockLayout.dropUnit_at c0b shapeCasts_S1x128x1024_S128x1024 r j)

/-- The new hidden state: output gate times the hyperbolic tangent of the new cell state. -/
theorem pay3_at (f : Vec Ideal S128x1024 .f32) (c0b : Vec Ideal S1x128x1024 .f32) (i g o : Vec Ideal S128x1024 .f32)
    (r : Fin 128) (j : Fin 1024) :
    k1_pay3 (F := Ideal) f c0b i g o (ix2 r j) = o (ix2 r j) * Ideal.tanh (k1_pay2 (F := Ideal) f c0b i g (ix2 r j)) := rfl

/-- The new hidden state as stored in its output block. -/
theorem pay4_at (f : Vec Ideal S128x1024 .f32) (c0b : Vec Ideal S1x128x1024 .f32) (i g o : Vec Ideal S128x1024 .f32)
    (r : Fin 128) (j : Fin 1024) :
    k1_pay4 (F := Ideal) f c0b i g o (ix3 (0 : Fin 1) r j) = k1_pay3 (F := Ideal) f c0b i g o (ix2 r j) := by
  unfold k1_pay4
  exact Cert.LibBlockLayout.addUnit_at _ shapeCasts_S128x1024_S1x128x1024 r j

/-- The new cell state as stored in its output block. -/
theorem pay5_at (f : Vec Ideal S128x1024 .f32) (c0b : Vec Ideal S1x128x1024 .f32) (i g : Vec Ideal S128x1024 .f32)
    (r : Fin 128) (j : Fin 1024) :
    k1_pay5 (F := Ideal) f c0b i g (ix3 (0 : Fin 1) r j) = k1_pay2 (F := Ideal) f c0b i g (ix2 r j) := by
  unfold k1_pay5
  exact Cert.LibBlockLayout.addUnit_at _ shapeCasts_S128x1024_S1x128x1024 r j

/-- The new hidden state as carried to the layer above. -/
theorem pay6_at (f : Vec Ideal S128x1024 .f32) (c0b : Vec Ideal S1x128x1024 .f32) (i g o : Vec Ideal S128x1024 .f32)
    (r : Fin 128) (j : Fin 1024) :
    k1_pay6 (F := Ideal) f c0b i g o (ix2 r j) = k1_pay3 (F := Ideal) f c0b i g o (ix2 r j) := by
  unfold k1_pay6
  exact congrFun (shapeCast_self _ shapeCasts_S128x1024_S128x1024) (ix2 r j)

/-- The data as seeded into the carried input. -/
theorem pay7_at (x : Vec Ideal S128x1024 .f32) (i : S128x1024.Idx) : k1_pay7 (F := Ideal) x i = x i := by
  unfold k1_pay7
  exact congrFun (shapeCast_self _ shapeCasts_S128x1024_S128x1024) i

/-- The carried input rounded to half precision: the identity on the extended reals. -/
theorem pay8_at (x : Vec Ideal S128x1024 .f32) (i : S128x1024.Idx) : (k1_pay8 (F := Ideal) x i : EReal) = x i := by
  unfold k1_pay8
  exact congrFun (shapeCast_self _ shapeCasts_S128x1024_S128x1024) i

end Cert.KernelIdeal.Hand

end
-- ==== Proof.Spec.lean ====
/-
  One time step of a four-layer LSTM on the extended reals, as functions of the seven argument arrays.

  Layer l takes an input matrix inp (128 rows of 1024 entries: the data x for layer 0, the layer below's new hidden
  state otherwise), its own old hidden state h0[l] and old cell state c0[l], two weight matrices stored
  [4096, 1024] and two bias vectors of length 4096. Column q of the pre-activation is

      pre(r, q) = (Σₖ inp(r, k) · Wih[l](q, k) + bih[l](q)) + (Σₖ h0[l](r, k) · Whh[l](q, k) + bhh[l](q)),

  the second bracket not depending on the input (the recurrent part). The 4096 columns are four blocks of 1024: the
  input, forget, cell and output gates, in that order. With σ the logistic function,

      c1(r, j) = σ(pre(r, 1024 + j)) · c0[l](r, j) + σ(pre(r, j)) · tanh(pre(r, 2048 + j)),
      h1(r, j) = σ(pre(r, 3072 + j)) · tanh(c1(r, j)),

  and h1 is the input of the layer above. The three results are the top layer's h1, all four h1 and all four c1.

  Sums of extended reals are associative and commutative, so the bracketing of the four summands of pre does not
  matter (`pre_assoc`); no finiteness is needed for that.
-/
import Idealize.ShloMosaic.PureOps.Ideal
import Idealize.ShloMosaic.Lib.ValueIdx

noncomputable section

open scoped BigOperators

namespace Cert.Lstm

open Idealize.ShloMosaic Idealize.ShloMosaic.ValueIdx

abbrev SX : Shape := ⟨2, ![128, 1024]⟩
abbrev SH : Shape := ⟨3, ![4, 128, 1024]⟩
abbrev SW : Shape := ⟨3, ![4, 4096, 1024]⟩
abbrev SB : Shape := ⟨2, ![4, 4096]⟩

/-- A 128 × 1024 matrix of extended reals, by coordinates. -/
abbrev Mat : Type := Fin 128 → Fin 1024 → EReal

/-- The six arrays every layer reads a slice of. -/
structure Params where
  h0 : SH.Idx → EReal
  c0 : SH.Idx → EReal
  Wih : SW.Idx → EReal
  Whh : SW.Idx → EReal
  bih : SB.Idx → EReal
  bhh : SB.Idx → EReal

/-- Column `j` of gate block `g` among the 4096 columns. -/
def col (g : Fin 4) (j : Fin 1024) : Fin 4096 := ⟨g.val * 1024 + j.val, by have := g.isLt; have := j.isLt; omega⟩

theorem col_val (g : Fin 4) (j : Fin 1024) : (col g j).val = g.val * 1024 + j.val := rfl

/-- The recurrent part of the pre-activation: the old hidden state against the recurrent weights, plus their bias. -/
def recur (P : Params) (l : Fin 4) (r : Fin 128) (q : Fin 4096) : EReal :=
  (∑ k : Fin 1024, P.h0 (ix3 l r k) * P.Whh (ix3 l q k)) + P.bhh (ix2 l q)

/-- The input part: the layer's input against the input weights, plus their bias. -/
def feed (P : Params) (inp : Mat) (l : Fin 4) (r : Fin 128) (q : Fin 4096) : EReal :=
  (∑ k : Fin 1024, inp r k * P.Wih (ix3 l q k)) + P.bih (ix2 l q)

/-- The pre-activation, input part first. -/
def pre (P : Params) (inp : Mat) (l : Fin 4) (r : Fin 128) (q : Fin 4096) : EReal :=
  feed P inp l r q + recur P l r q

/-- The same four summands added left to right. -/
theorem pre_assoc (P : Params) (inp : Mat) (l : Fin 4) (r : Fin 128) (q : Fin 4096) :
    (((∑ k : Fin 1024, inp r k * P.Wih (ix3 l q k)) + P.bih (ix2 l q))
        + ∑ k : Fin 1024, P.h0 (ix3 l r k) * P.Whh (ix3 l q k)) + P.bhh (ix2 l q)
      = pre P inp l r q := by
  unfold pre feed recur
  rw [add_assoc]

/-- The new cell state of layer `l` on input `inp`. -/
def cellC (P : Params) (inp : Mat) (l : Fin 4) : Mat := fun r j =>
  Ideal.logistic (pre P inp l r (col 1 j)) * P.c0 (ix3 l r j)
    + Ideal.logistic (pre P inp l r (col 0 j)) * Ideal.tanh (pre P inp l r (col 2 j))

/-- The new hidden state of layer `l` on input `inp`. -/
def cellH (P : Params) (inp : Mat) (l : Fin 4) : Mat := fun r j =>
  Ideal.logistic (pre P inp l r (col 3 j)) * Ideal.tanh (cellC P inp l r j)

/-- The input of layer `n`: the data for layer 0, the new hidden state of the layer below otherwise (and, past the
    top, the top layer's). -/
def inpAt (P : Params) (x : Mat) : ℕ → Mat
  | 0 => x
  | n + 1 => if h : n < 4 then cellH P (inpAt P x n) ⟨n, h⟩ else inpAt P x n

theorem inpAt_zero (P : Params) (x : Mat) : inpAt P x 0 = x := rfl

theorem inpAt_succ (P : Params) (x : Mat) (l : Fin 4) : inpAt P x (l.val + 1) = cellH P (inpAt P x l.val) l := by
  show (if h : l.val < 4 then cellH P (inpAt P x l.val) ⟨l.val, h⟩ else inpAt P x l.val) = _
  rw [dif_pos l.isLt]

/-- The data array as a matrix by coordinates. -/
def matOf (x : SX.Idx → EReal) : Mat := fun r j => x (ix2 r j)

/-- First result: the top layer's new hidden state. -/
def outTop (P : Params) (x : SX.Idx → EReal) : SX.Idx → EReal := fun i => inpAt P (matOf x) 4 (i 0) (i 1)

/-- Second result: every layer's new hidden state. -/
def outH (P : Params) (x : SX.Idx → EReal) : SH.Idx → EReal := fun i =>
  cellH P (inpAt P (matOf x) (i 0).val) (i 0) (i 1) (i 2)

/-- Third result: every layer's new cell state. -/
def outC (P : Params) (x : SX.Idx → EReal) : SH.Idx → EReal := fun i =>
  cellC P (inpAt P (matOf x) (i 0).val) (i 0) (i 1) (i 2)

/-- The top layer's hidden state is row block 3 of the second result. -/
theorem outTop_eq (P : Params) (x : SX.Idx → EReal) (r : Fin 128) (j : Fin 1024) :
    outTop P x (ix2 r j) = outH P x (ix3 (3 : Fin 4) r j) := by
  show inpAt P (matOf x) 4 r j = cellH P (inpAt P (matOf x) 3) 3 r j
  exact congrFun (congrFun (inpAt_succ P (matOf x) 3) r) j

end Cert.Lstm

end
-- ==== Proof.KI.CellFinal.lean ====
/-
  What the recurrent kernel leaves in its two output arrays, on the extended reals: every layer's new hidden state
  and new cell state, as the specification defines them.

  The grid is 4 layers × 4 gates; point t works on layer t / 4 and gate t % 4. At a point the body reads the data
  (whole), the layer's old cell state, the gate's 1024 rows of the layer's input weights, the gate's 1024 entries of
  the layer's input bias, and the gate's 1024 columns of the layer's recurrent part computed beforehand. The file
  first identifies each such block with its part of its array (the index maps decided once over the sixteen points).
  Then, by induction on the point, it shows what the carried state holds: the rounded input is the layer's input (the
  data, or the hidden state the layer below stored at its last gate); each stored activation is the logistic function
  or hyperbolic tangent of the specification's pre-activation at the gate's columns; and at the last gate the two
  output blocks are the specification's new cell and hidden states of the layer. Finally the sixteen points' write-backs
  (only the last gate's write anything) tile the two [4, 128, 1024] arrays.
-/
import proofs.«115084_j79534204387582_2_alg».proof.Proof.KI.CellPieces
import proofs.«115084_j79534204387582_2_alg».proof.Proof.KI.CellPay
import proofs.«115084_j79534204387582_2_alg».proof.Proof.Spec
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Lstm (Params Mat col pre feed recur cellC cellH inpAt matOf outH outC inpAt_succ inpAt_zero)

variable (V : (c : Dev nD) → (b : Ref sig .tc) → Buf (Elt Ideal) ((c : Thread nD τ).loc b))

/-! ## The blocks a point reads, as parts of their arrays -/

/-- The index maps over the grid: every window but the data's follows the layer on its leading axis; the weight
    window takes the gate's row block, the bias and recurrent windows the gate's column block. -/
theorem cell_index_maps : ∀ t : Fin cfg1.N,
    win1_0.index t (0 : Fin 2) = 0 ∧ win1_0.index t (1 : Fin 2) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = t.val % 4 ∧ win1_2.index t (2 : Fin 3) = 0
    ∧ win1_3.index t (0 : Fin 3) = t.val / 4 ∧ win1_3.index t (1 : Fin 3) = 0 ∧ win1_3.index t (2 : Fin 3) = t.val % 4
    ∧ win1_4.index t (0 : Fin 3) = t.val / 4 ∧ win1_4.index t (1 : Fin 3) = 0 ∧ win1_4.index t (2 : Fin 3) = t.val % 4
    ∧ win1_5.index t (0 : Fin 3) = t.val / 4 ∧ win1_5.index t (1 : Fin 3) = 0 ∧ win1_5.index t (2 : Fin 3) = 0
    ∧ win1_6.index t (0 : Fin 3) = t.val / 4 ∧ win1_6.index t (1 : Fin 3) = 0 ∧ win1_6.index t (2 : Fin 3) = 0 :=
  (by decide +kernel : ∀ t : Fin grid1.N, _)

theorem cell_point_lt (t : Fin cfg1.N) : t.val < 16 :=
  lt_of_lt_of_eq t.isLt N_1

/-- The layer position `n` of the grid works on (positions past the grid wrap around; they are never used), -/
def lyr (n : ℕ) : Fin 4 := ⟨n / 4 % 4, Nat.mod_lt _ (by decide)⟩
/-- and its gate. -/
def gte (n : ℕ) : Fin 4 := ⟨n % 4, Nat.mod_lt _ (by decide)⟩

theorem lyr_val (t : Fin cfg1.N) : (lyr t.val).val = t.val / 4 := by
  have := cell_point_lt t
  show t.val / 4 % 4 = t.val / 4
  omega

/-- The data block is the whole data array. -/
theorem cell_iblk_x (c : Dev nD) (t : Fin cfg1.N) (r : Fin 128) (k : Fin 1024) :
    iblk1 V c 0 t (ix2 r k) = (V c main_arg0 : S128x1024.Idx → EReal) (ix2 r k) := by
  obtain ⟨e00, e01, -⟩ := cell_index_maps t
  unfold iblk1
  rw [View.read_apply]
  show (V c main_arg0 : S128x1024.Idx → EReal) (((cfg1.win 0).blk t).view.emb (ix2 r k)) = _
  refine congrArg (V c main_arg0 : S128x1024.Idx → EReal) (funext fun a => Fin.ext ?_)
  match a with
  | ⟨0, _⟩ => show win1_0.index t (0 : Fin 2) * 128 + 1 * r.val = r.val; omega
  | ⟨1, _⟩ => show win1_0.index t (1 : Fin 2) * 1024 + 1 * k.val = k.val; omega

/-- The old-cell-state block at point t is layer t / 4 of its array. -/
theorem cell_iblk_c (c : Dev nD) (t : Fin cfg1.N) (r : Fin 128) (j : Fin 1024) :
    iblk1 V c 1 t (ix3 (0 : Fin 1) r j) = (V c main_arg2 : S4x128x1024.Idx → EReal) (ix3 (lyr t.val) r j) := by
  obtain ⟨-, -, e10, e11, e12, -⟩ := cell_index_maps t
  have hl := lyr_val t
  unfold iblk1
  rw [View.read_apply]
  show (V c main_arg2 : S4x128x1024.Idx → EReal) (((cfg1.win 1).blk t).view.emb (ix3 (0 : Fin 1) r j)) = _
  refine congrArg (V c main_arg2 : S4x128x1024.Idx → EReal) (funext fun a => Fin.ext ?_)
  match a with
  | ⟨0, _⟩ => show win1_1.index t (0 : Fin 3) * 1 + 1 * 0 = (lyr t.val).val; omega
  | ⟨1, _⟩ => show win1_1.index t (1 : Fin 3) * 128 + 1 * r.val = r.val; omega
  | ⟨2, _⟩ => show win1_1.index t (2 : Fin 3) * 1024 + 1 * j.val = j.val; omega

/-- The weight block at point t is rows (t % 4)·1024 … of layer t / 4. -/
theorem cell_iblk_w (c : Dev nD) (t : Fin cfg1.N) (j k : Fin 1024) :
    iblk1 V c 2 t (ix3 (0 : Fin 1) j k)
      = (V c main_arg3 : S4x4096x1024.Idx → EReal) (ix3 (lyr t.val) (col (gte t.val) j) k) := by
  obtain ⟨-, -, -, -, -, e20, e21, e22, -⟩ := cell_index_maps t
  have hl := lyr_val t
  unfold iblk1
  rw [View.read_apply]
  show (V c main_arg3 : S4x4096x1024.Idx → EReal) (((cfg1.win 2).blk t).view.emb (ix3 (0 : Fin 1) j k)) = _
  refine congrArg (V c main_arg3 : S4x4096x1024.Idx → EReal) (funext fun a => Fin.ext ?_)
  match a with
  | ⟨0, _⟩ => show win1_2.index t (0 : Fin 3) * 1 + 1 * 0 = (lyr t.val).val; omega
  | ⟨1, _⟩ => show win1_2.index t (1 : Fin 3) * 1024 + 1 * j.val = t.val % 4 * 1024 + j.val; omega
  | ⟨2, _⟩ => show win1_2.index t (2 : Fin 3) * 1024 + 1 * k.val = k.val; omega

/-- The bias block at point t is entries (t % 4)·1024 … of layer t / 4. -/
theorem cell_iblk_b (c : Dev nD) (t : Fin cfg1.N) (j : Fin 1024) :
    iblk1 V c 3 t (ix3 (0 : Fin 1) (0 : Fin 1) j)
      = (V c main_v0 : S4x1x4096.Idx → EReal) (ix3 (lyr t.val) (0 : Fin 1) (col (gte t.val) j)) := by
  obtain ⟨-, -, -, -, -, -, -, -, e30, e31, e32, -⟩ := cell_index_maps t
  have hl := lyr_val t
  unfold iblk1
  rw [View.read_apply]
  show (V c main_v0 : S4x1x4096.Idx → EReal) (((cfg1.win 3).blk t).view.emb (ix3 (0 : Fin 1) (0 : Fin 1) j)) = _
  refine congrArg (V c main_v0 : S4x1x4096.Idx → EReal) (funext fun a => Fin.ext ?_)
  match a with
  | ⟨0, _⟩ => show win1_3.index t (0 : Fin 3) * 1 + 1 * 0 = (lyr t.val).val; omega
  | ⟨1, _⟩ => show win1_3.index t (1 : Fin 3) * 1 + 1 * 0 = 0; omega
  | ⟨2, _⟩ => show win1_3.index t (2 : Fin 3) * 1024 + 1 * j.val = t.val % 4 * 1024 + j.val; omega

/-- The recurrent-part block at point t is columns (t % 4)·1024 … of layer t / 4. -/
theorem cell_iblk_z (c : Dev nD) (t : Fin cfg1.N) (r : Fin 128) (j : Fin 1024) :
    iblk1 V c 4 t (ix3 (0 : Fin 1) r j)
      = (V c main_v2 : S4x128x4096.Idx → EReal) (ix3 (lyr t.val) r (col (gte t.val) j)) := by
  obtain ⟨-, -, -, -, -, -, -, -, -, -, -, e40, e41, e42, -⟩ := cell_index_maps t
  have hl := lyr_val t
  unfold iblk1
  rw [View.read_apply]
  show (V c main_v2 : S4x128x4096.Idx → EReal) (((cfg1.win 4).blk t).view.emb (ix3 (0 : Fin 1) r j)) = _
  refine congrArg (V c main_v2 : S4x128x4096.Idx → EReal) (funext fun a => Fin.ext ?_)
  match a with
  | ⟨0, _⟩ => show win1_4.index t (0 : Fin 3) * 1 + 1 * 0 = (lyr t.val).val; omega
  | ⟨1, _⟩ => show win1_4.index t (1 : Fin 3) * 128 + 1 * r.val = r.val; omega
  | ⟨2, _⟩ => show win1_4.index t (2 : Fin 3) * 1024 + 1 * j.val = t.val % 4 * 1024 + j.val; omega

/-! ## What the region is entered with -/

/-- The arrays the region finds are the specification's parameters: the input weights and old cell states as they
    are, the input bias reshaped to [4, 1, 4096], and the recurrent part of every layer's pre-activation. -/
structure Entered (c : Dev nD) (P : Params) : Prop where
  hW : (V c main_arg3 : S4x4096x1024.Idx → EReal) = P.Wih
  hc : (V c main_arg2 : S4x128x1024.Idx → EReal) = P.c0
  hb : ∀ (l : Fin 4) (q : Fin 4096), (V c main_v0 : S4x1x4096.Idx → EReal) (ix3 l (0 : Fin 1) q) = P.bih (ix2 l q)
  hz : ∀ (l : Fin 4) (r : Fin 128) (q : Fin 4096), (V c main_v2 : S4x128x4096.Idx → EReal) (ix3 l r q) = recur P l r q

variable {V}

/-- The gate's pre-activation at point t, on a rounded input that is the matrix `inp`: the specification's
    pre-activation of layer t / 4 at column (t % 4)·1024 + j. -/
theorem cell_pre_at {c : Dev nD} {P : Params} (E : Entered V c P) (t : Fin cfg1.N) (xb : Vec Ideal S128x1024 .bf16) (inp : Mat)
    (hx : ∀ r k, xb (ix2 r k) = inp r k) (r : Fin 128) (j : Fin 1024) :
    k1_pay9 (F := Ideal) xb (iblk1 V c 2 t) (iblk1 V c 3 t) (iblk1 V c 4 t) (ix2 r j)
      = pre P inp (lyr t.val) r (col (gte t.val) j) := by
  refine (pay9_at xb _ _ _ r j).trans ?_
  rw [cell_iblk_b V c t j, cell_iblk_z V c t r j, E.hb, E.hz]
  show _ = ((∑ k : Fin 1024, inp r k * P.Wih (ix3 (lyr t.val) (col (gte t.val) j) k)) + P.bih (ix2 (lyr t.val) (col (gte t.val) j)))
    + recur P (lyr t.val) r (col (gte t.val) j)
  refine congrArg (· + _) (congrArg (· + _) (Finset.sum_congr rfl fun k _ => ?_))
  rw [hx r k, cell_iblk_w V c t j k, E.hW]

/-- The new cell state from the three stored activations and the old cell state's block. -/
theorem cell_c_at {c : Dev nD} {P : Params} (E : Entered V c P) (t : Fin cfg1.N) (inp : Mat) (f i g : Vec Ideal S128x1024 .f32)
    (hi : ∀ r j, i (ix2 r j) = Ideal.logistic (pre P inp (lyr t.val) r (col 0 j)))
    (hf : ∀ r j, f (ix2 r j) = Ideal.logistic (pre P inp (lyr t.val) r (col 1 j)))
    (hg : ∀ r j, g (ix2 r j) = Ideal.tanh (pre P inp (lyr t.val) r (col 2 j))) (r : Fin 128) (j : Fin 1024) :
    k1_pay2 (F := Ideal) f (iblk1 V c 1 t) i g (ix2 r j) = cellC P inp (lyr t.val) r j := by
  rw [pay2_at, hf, hi, hg, cell_iblk_c V c t r j, E.hc]
  rfl

/-! ## The carried state, point by point -/

/-- What the carried state holds after the body at position n, with l the position's layer and `inp` the layer's
    input: the rounded input is `inp`; the input gate's activation is stored from gate 0 on, the forget gate's from
    gate 1 on, the candidate's from gate 2 on; and after gate 3 the two output blocks are the layer's new cell and
    hidden states, the hidden state also being the carried input. -/
structure Holds (P : Params) (X : Mat) (n : ℕ) (s : St Ideal) : Prop where
  inpB : ∀ r k, s.inpB (ix2 r k) = inpAt P X (lyr n).val r k
  gI : ∀ r j, s.gI (ix2 r j) = Ideal.logistic (pre P (inpAt P X (lyr n).val) (lyr n) r (col 0 j))
  gF : 1 ≤ n % 4 → ∀ r j, s.gF (ix2 r j) = Ideal.logistic (pre P (inpAt P X (lyr n).val) (lyr n) r (col 1 j))
  gG : 2 ≤ n % 4 → ∀ r j, s.gG (ix2 r j) = Ideal.tanh (pre P (inpAt P X (lyr n).val) (lyr n) r (col 2 j))
  oC : n % 4 = 3 → ∀ r j, s.oC (ix3 (0 : Fin 1) r j) = cellC P (inpAt P X (lyr n).val) (lyr n) r j
  oH : n % 4 = 3 → ∀ r j, s.oH (ix3 (0 : Fin 1) r j) = cellH P (inpAt P X (lyr n).val) (lyr n) r j
  inp : n % 4 = 3 → ∀ r j, s.inp (ix2 r j) = cellH P (inpAt P X (lyr n).val) (lyr n) r j

/-- The data array as a matrix. -/
abbrev dataM (V : (c : Dev nD) → (b : Ref sig .tc) → Buf (Elt Ideal) ((c : Thread nD τ).loc b)) (c : Dev nD) : Mat :=
  matOf (V c main_arg0 : S128x1024.Idx → EReal)

theorem gte_eq (n : ℕ) (g : Fin 4) (h : n % 4 = g.val) : gte n = g := Fin.ext h

/-! ### What each step stores, as the body's stored values on what it read -/

theorem initA_inpB (c : Dev nD) (t : Fin cfg1.N) (h : t.val = 0) :
    (initA V c t h).inpB = k1_pay8 (F := Ideal) (k1_pay7 (F := Ideal) (iblk1 V c 0 t)) := by
  dsimp only [initA]
  exact pieceA_inpB (F := Ideal) c t h (iblk1 V c 0 t) (iblk1 V c 2 t) (iblk1 V c 3 t) (iblk1 V c 4 t)
theorem initA_gI (c : Dev nD) (t : Fin cfg1.N) (h : t.val = 0) :
    (initA V c t h).gI = k1_pay10 (F := Ideal) (k1_pay8 (F := Ideal) (k1_pay7 (F := Ideal) (iblk1 V c 0 t))) (iblk1 V c 2 t) (iblk1 V c 3 t) (iblk1 V c 4 t) := by
  dsimp only [initA]
  exact pieceA_gI (F := Ideal) c t h (iblk1 V c 0 t) (iblk1 V c 2 t) (iblk1 V c 3 t) (iblk1 V c 4 t)

theorem stepB_inpB (c : Dev nD) (t : Fin cfg1.N) (h : t.val % 4 = 0) (hz : t.val ≠ 0) (p : St Ideal) :
    (stepB V c t h hz p).inpB = k1_pay8 (F := Ideal) p.inp := by
  dsimp only [stepB]
  exact pieceB_inpB (F := Ideal) c t h hz p.inp (iblk1 V c 2 t) (iblk1 V c 3 t) (iblk1 V c 4 t)
theorem stepB_gI (c : Dev nD) (t : Fin cfg1.N) (h : t.val % 4 = 0) (hz : t.val ≠ 0) (p : St Ideal) :
    (stepB V c t h hz p).gI = k1_pay10 (F := Ideal) (k1_pay8 (F := Ideal) p.inp) (iblk1 V c 2 t) (iblk1 V c 3 t) (iblk1 V c 4 t) := by
  dsimp only [stepB]
  exact pieceB_gI (F := Ideal) c t h hz p.inp (iblk1 V c 2 t) (iblk1 V c 3 t) (iblk1 V c 4 t)

theorem stepC_inpB (c : Dev nD) (t : Fin cfg1.N) (h : t.val % 4 = 1) (p : St Ideal) : (stepC V c t h p).inpB = p.inpB := by dsimp only [stepC]
theorem stepC_gI (c : Dev nD) (t : Fin cfg1.N) (h : t.val % 4 = 1) (p : St Ideal) : (stepC V c t h p).gI = p.gI := by dsimp only [stepC]
theorem stepC_gF (c : Dev nD) (t : Fin cfg1.N) (h : t.val % 4 = 1) (p : St Ideal) :
    (stepC V c t h p).gF = k1_pay11 (F := Ideal) p.inpB (iblk1 V c 2 t) (iblk1 V c 3 t) (iblk1 V c 4 t) := by
  dsimp only [stepC]
  exact pieceC_gF (F := Ideal) c t h p.inpB (iblk1 V c 2 t) (iblk1 V c 3 t) (iblk1 V c 4 t)

theorem stepD_inpB (c : Dev nD) (t : Fin cfg1.N) (h : t.val % 4 = 2) (p : St Ideal) : (stepD V c t h p).inpB = p.inpB := by dsimp only [stepD]
theorem stepD_gI (c : Dev nD) (t : Fin cfg1.N) (h : t.val % 4 = 2) (p : St Ideal) : (stepD V c t h p).gI = p.gI := by dsimp only [stepD]
theorem stepD_gF (c : Dev nD) (t : Fin cfg1.N) (h : t.val % 4 = 2) (p : St Ideal) : (stepD V c t h p).gF = p.gF := by dsimp only [stepD]
theorem stepD_gG (c : Dev nD) (t : Fin cfg1.N) (h : t.val % 4 = 2) (p : St Ideal) :
    (stepD V c t h p).gG = k1_pay12 (F := Ideal) p.inpB (iblk1 V c 2 t) (iblk1 V c 3 t) (iblk1 V c 4 t) := by
  dsimp only [stepD]
  exact pieceD_gG (F := Ideal) c t h p.inpB (iblk1 V c 2 t) (iblk1 V c 3 t) (iblk1 V c 4 t)

theorem stepE_inpB (c : Dev nD) (t : Fin cfg1.N) (h : t.val % 4 = 3) (p : St Ideal) : (stepE V c t h p).inpB = p.inpB := by dsimp only [stepE]
theorem stepE_gI (c : Dev nD) (t : Fin cfg1.N) (h : t.val % 4 = 3) (p : St Ideal) : (stepE V c t h p).gI = p.gI := by dsimp only [stepE]
theorem stepE_gF (c : Dev nD) (t : Fin cfg1.N) (h : t.val % 4 = 3) (p : St Ideal) : (stepE V c t h p).gF = p.gF := by dsimp only [stepE]
theorem stepE_gG (c : Dev nD) (t : Fin cfg1.N) (h : t.val % 4 = 3) (p : St Ideal) : (stepE V c t h p).gG = p.gG := by dsimp only [stepE]
theorem stepE_oH (c : Dev nD) (t : Fin cfg1.N) (h : t.val % 4 = 3) (p : St Ideal) :
    (stepE V c t h p).oH = k1_pay4 (F := Ideal) p.gF (iblk1 V c 1 t) p.gI p.gG
      (k1_pay1 (F := Ideal) (k1_pay9 (F := Ideal) p.inpB (iblk1 V c 2 t) (iblk1 V c 3 t) (iblk1 V c 4 t))) := by
  dsimp only [stepE]
  exact pieceE_oH (F := Ideal) c t h p.inpB (iblk1 V c 2 t) (iblk1 V c 3 t) (iblk1 V c 4 t) (iblk1 V c 1 t) p.gI p.gF p.gG
theorem stepE_oC (c : Dev nD) (t : Fin cfg1.N) (h : t.val % 4 = 3) (p : St Ideal) :
    (stepE V c t h p).oC = k1_pay5 (F := Ideal) p.gF (iblk1 V c 1 t) p.gI p.gG := by
  dsimp only [stepE]
  exact pieceE_oC (F := Ideal) c t h p.inpB (iblk1 V c 2 t) (iblk1 V c 3 t) (iblk1 V c 4 t) (iblk1 V c 1 t) p.gI p.gF p.gG
theorem stepE_inp (c : Dev nD) (t : Fin cfg1.N) (h : t.val % 4 = 3) (p : St Ideal) :
    (stepE V c t h p).inp = k1_pay6 (F := Ideal) p.gF (iblk1 V c 1 t) p.gI p.gG
      (k1_pay1 (F := Ideal) (k1_pay9 (F := Ideal) p.inpB (iblk1 V c 2 t) (iblk1 V c 3 t) (iblk1 V c 4 t))) := by
  dsimp only [stepE]
  exact pieceE_inp (F := Ideal) c t h p.inpB (iblk1 V c 2 t) (iblk1 V c 3 t) (iblk1 V c 4 t) (iblk1 V c 1 t) p.gI p.gF p.gG

theorem stAt_zero (c : Dev nD) (hn : 0 < cfg1.N) : stAt V c 0 hn = initA V c ⟨0, hn⟩ rfl := rfl
theorem stAt_succ_B (c : Dev nD) (n : ℕ) (hn : n + 1 < cfg1.N) (h : (n + 1) % 4 = 0) :
    stAt V c (n + 1) hn = stepB V c ⟨n + 1, hn⟩ h (Nat.succ_ne_zero n) (stAt V c n (Nat.lt_of_succ_lt hn)) :=
  stAt_B V c ⟨n + 1, hn⟩ h (Nat.succ_ne_zero n)
theorem stAt_succ_C (c : Dev nD) (n : ℕ) (hn : n + 1 < cfg1.N) (h : (n + 1) % 4 = 1) :
    stAt V c (n + 1) hn = stepC V c ⟨n + 1, hn⟩ h (stAt V c n (Nat.lt_of_succ_lt hn)) :=
  stAt_C V c ⟨n + 1, hn⟩ h
theorem stAt_succ_D (c : Dev nD) (n : ℕ) (hn : n + 1 < cfg1.N) (h : (n + 1) % 4 = 2) :
    stAt V c (n + 1) hn = stepD V c ⟨n + 1, hn⟩ h (stAt V c n (Nat.lt_of_succ_lt hn)) :=
  stAt_D V c ⟨n + 1, hn⟩ h
theorem stAt_succ_E (c : Dev nD) (n : ℕ) (hn : n + 1 < cfg1.N) (h : (n + 1) % 4 = 3) :
    stAt V c (n + 1) hn = stepE V c ⟨n + 1, hn⟩ h (stAt V c n (Nat.lt_of_succ_lt hn)) :=
  stAt_E V c ⟨n + 1, hn⟩ h

/-- The first point: the data is rounded, and the first layer's input gate stored. -/
theorem holds_A {c : Dev nD} {P : Params} (E : Entered V c P) (t : Fin cfg1.N) (h : t.val = 0) :
    Holds P (dataM V c) t.val (initA V c t h) := by
  have hl : (lyr t.val).val = 0 := by show t.val / 4 % 4 = 0; omega
  have hB : ∀ r k, (initA V c t h).inpB (ix2 r k) = inpAt P (dataM V c) (lyr t.val).val r k := fun r k => by
    rw [initA_inpB, pay8_at, pay7_at, cell_iblk_x V c t r k, hl]
    rfl
  refine ⟨hB, fun r j => ?_, fun h' => absurd h' (by omega), fun h' => absurd h' (by omega), fun h' => absurd h' (by omega),
    fun h' => absurd h' (by omega), fun h' => absurd h' (by omega)⟩
  rw [initA_gI, pay10_at, cell_pre_at E t _ _ (fun r k => (congrFun (initA_inpB c t h) (ix2 r k)).symm.trans (hB r k)) r j,
    gte_eq t.val 0 (by show t.val % 4 = 0; omega)]

/-- Gate 0 of a later layer: the hidden state the layer below left is rounded, and the input gate stored. -/
theorem holds_B {c : Dev nD} {P : Params} (E : Entered V c P) (t : Fin cfg1.N) (h : t.val % 4 = 0) (hz : t.val ≠ 0) (p : St Ideal)
    (hp : Holds P (dataM V c) (t.val - 1) p) : Holds P (dataM V c) t.val (stepB V c t h hz p) := by
  have ht := cell_point_lt t
  have hs : (lyr (t.val - 1)).val + 1 = (lyr t.val).val := by
    show (t.val - 1) / 4 % 4 + 1 = t.val / 4 % 4
    omega
  have hin : ∀ r k, p.inp (ix2 r k) = inpAt P (dataM V c) (lyr t.val).val r k := fun r k => by
    refine (hp.inp (by omega) r k).trans ?_
    rw [← hs, inpAt_succ]
  have hB : ∀ r k, (stepB V c t h hz p).inpB (ix2 r k) = inpAt P (dataM V c) (lyr t.val).val r k := fun r k => by
    rw [stepB_inpB, pay8_at]
    exact hin r k
  refine ⟨hB, fun r j => ?_, fun h' => absurd h' (by omega), fun h' => absurd h' (by omega), fun h' => absurd h' (by omega),
    fun h' => absurd h' (by omega), fun h' => absurd h' (by omega)⟩
  rw [stepB_gI, pay10_at, cell_pre_at E t _ _ (fun r k => (pay8_at _ _).trans (hin r k)) r j, gte_eq t.val 0 (by show t.val % 4 = 0; omega)]

/-- Gate 1: the forget gate stored. -/
theorem holds_C {c : Dev nD} {P : Params} (E : Entered V c P) (t : Fin cfg1.N) (h : t.val % 4 = 1) (p : St Ideal)
    (hp : Holds P (dataM V c) (t.val - 1) p) : Holds P (dataM V c) t.val (stepC V c t h p) := by
  have hl : lyr (t.val - 1) = lyr t.val := Fin.ext (by show (t.val - 1) / 4 % 4 = t.val / 4 % 4; omega)
  have hB : ∀ r k, p.inpB (ix2 r k) = inpAt P (dataM V c) (lyr t.val).val r k := fun r k => by
    have := hp.inpB r k; rwa [hl] at this
  refine ⟨fun r k => by rw [stepC_inpB]; exact hB r k, fun r j => by rw [stepC_gI]; have := hp.gI r j; rwa [hl] at this, fun _ r j => ?_,
    fun h' => absurd h' (by omega), fun h' => absurd h' (by omega), fun h' => absurd h' (by omega), fun h' => absurd h' (by omega)⟩
  rw [stepC_gF, pay11_at, cell_pre_at E t _ _ hB r j, gte_eq t.val 1 (by show t.val % 4 = 1; omega)]

/-- Gate 2: the cell candidate stored. -/
theorem holds_D {c : Dev nD} {P : Params} (E : Entered V c P) (t : Fin cfg1.N) (h : t.val % 4 = 2) (p : St Ideal)
    (hp : Holds P (dataM V c) (t.val - 1) p) : Holds P (dataM V c) t.val (stepD V c t h p) := by
  have hl : lyr (t.val - 1) = lyr t.val := Fin.ext (by show (t.val - 1) / 4 % 4 = t.val / 4 % 4; omega)
  have hB : ∀ r k, p.inpB (ix2 r k) = inpAt P (dataM V c) (lyr t.val).val r k := fun r k => by
    have := hp.inpB r k; rwa [hl] at this
  refine ⟨fun r k => by rw [stepD_inpB]; exact hB r k, fun r j => by rw [stepD_gI]; have := hp.gI r j; rwa [hl] at this,
    fun _ r j => by rw [stepD_gF]; have := hp.gF (by omega) r j; rwa [hl] at this, fun _ r j => ?_,
    fun h' => absurd h' (by omega), fun h' => absurd h' (by omega), fun h' => absurd h' (by omega)⟩
  rw [stepD_gG, pay12_at, cell_pre_at E t _ _ hB r j, gte_eq t.val 2 (by show t.val % 4 = 2; omega)]

/-- Gate 3: the output gate, and from the four activations the layer's new cell and hidden states. -/
theorem holds_E {c : Dev nD} {P : Params} (E : Entered V c P) (t : Fin cfg1.N) (h : t.val % 4 = 3) (p : St Ideal)
    (hp : Holds P (dataM V c) (t.val - 1) p) : Holds P (dataM V c) t.val (stepE V c t h p) := by
  have hl : lyr (t.val - 1) = lyr t.val := Fin.ext (by show (t.val - 1) / 4 % 4 = t.val / 4 % 4; omega)
  have hB : ∀ r k, p.inpB (ix2 r k) = inpAt P (dataM V c) (lyr t.val).val r k := fun r k => by
    have := hp.inpB r k; rwa [hl] at this
  have hI : ∀ r j, p.gI (ix2 r j) = Ideal.logistic (pre P (inpAt P (dataM V c) (lyr t.val).val) (lyr t.val) r (col 0 j)) := fun r j => by
    have := hp.gI r j; rwa [hl] at this
  have hF : ∀ r j, p.gF (ix2 r j) = Ideal.logistic (pre P (inpAt P (dataM V c) (lyr t.val).val) (lyr t.val) r (col 1 j)) := fun r j => by
    have := hp.gF (by omega) r j; rwa [hl] at this
  have hG : ∀ r j, p.gG (ix2 r j) = Ideal.tanh (pre P (inpAt P (dataM V c) (lyr t.val).val) (lyr t.val) r (col 2 j)) := fun r j => by
    have := hp.gG (by omega) r j; rwa [hl] at this
  have hO : ∀ r j, k1_pay3 (F := Ideal) p.gF (iblk1 V c 1 t) p.gI p.gG
        (k1_pay1 (k1_pay9 (F := Ideal) p.inpB (iblk1 V c 2 t) (iblk1 V c 3 t) (iblk1 V c 4 t))) (ix2 r j)
      = cellH P (inpAt P (dataM V c) (lyr t.val).val) (lyr t.val) r j := fun r j => by
    rw [pay3_at, pay1_at, cell_pre_at E t _ _ hB r j, gte_eq t.val 3 (by show t.val % 4 = 3; omega),
      cell_c_at E t _ _ _ _ hI hF hG r j]
    rfl
  refine ⟨fun r k => by rw [stepE_inpB]; exact hB r k, fun r j => by rw [stepE_gI]; exact hI r j,
    fun _ r j => by rw [stepE_gF]; exact hF r j, fun _ r j => by rw [stepE_gG]; exact hG r j,
    fun _ r j => ?_, fun _ r j => ?_, fun _ r j => ?_⟩
  · rw [stepE_oC, pay5_at]
    exact cell_c_at E t _ _ _ _ hI hF hG r j
  · rw [stepE_oH, pay4_at]
    exact hO r j
  · rw [stepE_inp, pay6_at]
    exact hO r j

/-- After every point the carried state holds what the specification says. -/
theorem holds_all {c : Dev nD} {P : Params} (E : Entered V c P) :
    ∀ (n : ℕ) (hn : n < cfg1.N), Holds P (dataM V c) n (stAt V c n hn)
  | 0, hn => by
    rw [stAt_zero]
    exact holds_A E ⟨0, hn⟩ rfl
  | n + 1, hn => by
    have ih : Holds P (dataM V c) ((⟨n + 1, hn⟩ : Fin cfg1.N).val - 1) (stAt V c n (Nat.lt_of_succ_lt hn)) :=
      holds_all E n (Nat.lt_of_succ_lt hn)
    by_cases h0 : (n + 1) % 4 = 0
    · rw [stAt_succ_B c n hn h0]
      exact holds_B E ⟨n + 1, hn⟩ h0 (Nat.succ_ne_zero n) _ ih
    by_cases h1 : (n + 1) % 4 = 1
    · rw [stAt_succ_C c n hn h1]
      exact holds_C E ⟨n + 1, hn⟩ h1 _ ih
    by_cases h2 : (n + 1) % 4 = 2
    · rw [stAt_succ_D c n hn h2]
      exact holds_D E ⟨n + 1, hn⟩ h2 _ ih
    have h3 : (n + 1) % 4 = 3 := by omega
    rw [stAt_succ_E c n hn h3]
    exact holds_E E ⟨n + 1, hn⟩ h3 _ ih

/-! ## From the blocks to the arrays -/

variable (V)

/-- A block's own index, read as an index of the leading part that is written back (the whole block here). -/
theorem xinj5 (t : Fin cfg1.N) (r : Fin 128) (j : Fin 1024) :
    (cfg1.win 5).xinj (grid1.coords t) (ix3 (0 : Fin 1) r j) = ix3 (0 : Fin 1) r j :=
  funext fun a => match a with
    | ⟨0, _⟩ => rfl
    | ⟨1, _⟩ => rfl
    | ⟨2, _⟩ => rfl
theorem xinj6 (t : Fin cfg1.N) (r : Fin 128) (j : Fin 1024) :
    (cfg1.win 6).xinj (grid1.coords t) (ix3 (0 : Fin 1) r j) = ix3 (0 : Fin 1) r j :=
  funext fun a => match a with
    | ⟨0, _⟩ => rfl
    | ⟨1, _⟩ => rfl
    | ⟨2, _⟩ => rfl

/-- Where entry (0, r, j) of the hidden-state block of point t sits in its array: layer t / 4. -/
theorem emb5 (t : Fin cfg1.N) (r : Fin 128) (j : Fin 1024) :
    ((cfg1.win 5).blk t).view.emb (ix3 (0 : Fin 1) r j) = ix3 (lyr t.val) r j := by
  obtain ⟨-, -, -, -, -, -, -, -, -, -, -, -, -, -, e50, e51, e52, -⟩ := cell_index_maps t
  have hl := lyr_val t
  refine funext fun a => Fin.ext ?_
  match a with
  | ⟨0, _⟩ => show win1_5.index t (0 : Fin 3) * 1 + 1 * 0 = (lyr t.val).val; omega
  | ⟨1, _⟩ => show win1_5.index t (1 : Fin 3) * 128 + 1 * r.val = r.val; omega
  | ⟨2, _⟩ => show win1_5.index t (2 : Fin 3) * 1024 + 1 * j.val = j.val; omega
/-- The same for the cell-state block. -/
theorem emb6 (t : Fin cfg1.N) (r : Fin 128) (j : Fin 1024) :
    ((cfg1.win 6).blk t).view.emb (ix3 (0 : Fin 1) r j) = ix3 (lyr t.val) r j := by
  obtain ⟨-, -, -, -, -, -, -, -, -, -, -, -, -, -, -, -, -, e60, e61, e62⟩ := cell_index_maps t
  have hl := lyr_val t
  refine funext fun a => Fin.ext ?_
  match a with
  | ⟨0, _⟩ => show win1_6.index t (0 : Fin 3) * 1 + 1 * 0 = (lyr t.val).val; omega
  | ⟨1, _⟩ => show win1_6.index t (1 : Fin 3) * 128 + 1 * r.val = r.val; omega
  | ⟨2, _⟩ => show win1_6.index t (2 : Fin 3) * 1024 + 1 * j.val = j.val; omega

/-- What a last-gate point writes back to the hidden-state array is its layer of the specification's. -/
theorem cell_flushed_H {c : Dev nD} {P : Params} (E : Entered V c P) (t : Fin cfg1.N) (ht : t.val % 4 = 3) :
    (dat1 (F := Ideal) V c).flushed 5 t
      = ((cfg1.win 5).blk t).view.read (Elt Ideal) (outH P (V c main_arg0 : S128x1024.Idx → EReal)) := by
  show (cfg1.win 5).cut (grid1.coords t) ((dat1 (F := Ideal) V c).after 5 t) = _
  rw [after1_5]
  have H := holds_all E t.val t.isLt
  refine funext fun (j : S1x128x1024.Idx) => ?_
  obtain ⟨a, r, q, rfl⟩ : ∃ (a : Fin 1) (r : Fin 128) (q : Fin 1024), j = ix3 a r q := ⟨j 0, j 1, j 2, eq_ix3 j⟩
  obtain rfl : a = 0 := Subsingleton.elim _ _
  show (stAt V c t.val t.isLt).oH ((cfg1.win 5).xinj (grid1.coords t) (ix3 (0 : Fin 1) r q))
    = outH P (V c main_arg0 : S128x1024.Idx → EReal) (((cfg1.win 5).blk t).view.emb (ix3 (0 : Fin 1) r q))
  rw [xinj5, emb5, H.oH ht r q]
  rfl

/-- What a last-gate point writes back to the cell-state array is its layer of the specification's. -/
theorem cell_flushed_C {c : Dev nD} {P : Params} (E : Entered V c P) (t : Fin cfg1.N) (ht : t.val % 4 = 3) :
    (dat1 (F := Ideal) V c).flushed 6 t
      = ((cfg1.win 6).blk t).view.read (Elt Ideal) (outC P (V c main_arg0 : S128x1024.Idx → EReal)) := by
  show (cfg1.win 6).cut (grid1.coords t) ((dat1 (F := Ideal) V c).after 6 t) = _
  rw [after1_6]
  have H := holds_all E t.val t.isLt
  refine funext fun (j : S1x128x1024.Idx) => ?_
  obtain ⟨a, r, q, rfl⟩ : ∃ (a : Fin 1) (r : Fin 128) (q : Fin 1024), j = ix3 a r q := ⟨j 0, j 1, j 2, eq_ix3 j⟩
  obtain rfl : a = 0 := Subsingleton.elim _ _
  show (stAt V c t.val t.isLt).oC ((cfg1.win 6).xinj (grid1.coords t) (ix3 (0 : Fin 1) r q))
    = outC P (V c main_arg0 : S128x1024.Idx → EReal) (((cfg1.win 6).blk t).view.emb (ix3 (0 : Fin 1) r q))
  rw [xinj6, emb6, H.oC ht r q]
  rfl

/-- An index of the hidden-state array is in point t's block iff each coordinate is in the block's range on its axis. -/
theorem cell_mem_blk5 (t : Fin cfg1.N) (i : S4x128x1024.Idx) :
    i ∈ ((cfg1.win 5).blk t).view.set ↔ ∀ a : Fin 3, win1_5.index t a * S1x128x1024.size a ≤ (i a).val
      ∧ (i a).val < win1_5.index t a * S1x128x1024.size a + S1x128x1024.size a := by
  show i ∈ ((View.whole main_v3_0).slice (win1_5.rect t)).set ↔ _
  rw [View.set_slice_whole, Rect.mem_set_unit]
  exact Iff.rfl
theorem cell_mem_blk6 (t : Fin cfg1.N) (i : S4x128x1024.Idx) :
    i ∈ ((cfg1.win 6).blk t).view.set ↔ ∀ a : Fin 3, win1_6.index t a * S1x128x1024.size a ≤ (i a).val
      ∧ (i a).val < win1_6.index t a * S1x128x1024.size a + S1x128x1024.size a := by
  show i ∈ ((View.whole main_v3_1).slice (win1_6.rect t)).set ↔ _
  rw [View.set_slice_whole, Rect.mem_set_unit]
  exact Iff.rfl

/-- Every entry (l, r, j) of the hidden-state array is written back by the last-gate point of layer l. -/
theorem cell_cover5 (i : S4x128x1024.Idx) :
    ∃ t : Fin cfg1.N, (cfg1.win 5).flush t = true ∧ i ∈ ((cfg1.win 5).blk t).view.set := by
  have hi0 : (i 0).val < 4 := (i 0).isLt
  have hi1 : (i 1).val < 128 := (i 1).isLt
  have hi2 : (i 2).val < 1024 := (i 2).isLt
  let t : Fin cfg1.N := ⟨4 * (i 0).val + 3, by rw [show cfg1.N = 16 from N_1]; omega⟩
  have ht : t.val = 4 * (i 0).val + 3 := rfl
  obtain ⟨-, -, -, -, -, -, -, -, -, -, -, -, -, -, e50, e51, e52, -⟩ := cell_index_maps t
  refine ⟨t, (flush1_5 t).mpr (by omega), ?_⟩
  rw [cell_mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 128 ≤ (i 1).val ∧ (i 1).val < win1_5.index t (1 : Fin 3) * 128 + 128; omega
  | ⟨2, _⟩ => show win1_5.index t (2 : Fin 3) * 1024 ≤ (i 2).val ∧ (i 2).val < win1_5.index t (2 : Fin 3) * 1024 + 1024; omega
theorem cell_cover6 (i : S4x128x1024.Idx) :
    ∃ t : Fin cfg1.N, (cfg1.win 6).flush t = true ∧ i ∈ ((cfg1.win 6).blk t).view.set := by
  have hi0 : (i 0).val < 4 := (i 0).isLt
  have hi1 : (i 1).val < 128 := (i 1).isLt
  have hi2 : (i 2).val < 1024 := (i 2).isLt
  let t : Fin cfg1.N := ⟨4 * (i 0).val + 3, by rw [show cfg1.N = 16 from N_1]; omega⟩
  have ht : t.val = 4 * (i 0).val + 3 := rfl
  obtain ⟨-, -, -, -, -, -, -, -, -, -, -, -, -, -, -, -, -, e60, e61, e62⟩ := cell_index_maps t
  refine ⟨t, (flush1_6 t).mpr (by omega), ?_⟩
  rw [cell_mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 128 ≤ (i 1).val ∧ (i 1).val < win1_6.index t (1 : Fin 3) * 128 + 128; omega
  | ⟨2, _⟩ => show win1_6.index t (2 : Fin 3) * 1024 ≤ (i 2).val ∧ (i 2).val < win1_6.index t (2 : Fin 3) * 1024 + 1024; omega

/-- What the region leaves in its two output arrays: every layer's new hidden state and new cell state, as the
    specification defines them from the data and the parameters. -/
theorem lstm_final (c : Dev nD) (P : Cert.Lstm.Params)
    (hW : (V c main_arg3 : S4x4096x1024.Idx → EReal) = P.Wih) (hc : (V c main_arg2 : S4x128x1024.Idx → EReal) = P.c0)
    (hb : ∀ (l : Fin 4) (q : Fin 4096), V c main_v0 (ix3 l (0 : Fin 1) q) = P.bih (ix2 l q))
    (hz : ∀ (l : Fin 4) (r : Fin 128) (q : Fin 4096), V c main_v2 (ix3 l r q) = Cert.Lstm.recur P l r q) :
    (dat1 (F := Ideal) V c).arrAt 5 cfg1.N = Cert.Lstm.outH P (V c main_arg0)
      ∧ (dat1 (F := Ideal) V c).arrAt 6 cfg1.N = Cert.Lstm.outC P (V c main_arg0) :=
  have E : Entered V c P := ⟨hW, hc, hb, hz⟩
  ⟨(dat1 (F := Ideal) V c).arrAt_eq_of_cover 5 (outH P (V c main_arg0 : S128x1024.Idx → EReal))
      (fun t hf => cell_flushed_H V E t ((flush1_5 t).mp hf)) cell_cover5,
    (dat1 (F := Ideal) V c).arrAt_eq_of_cover 6 (outC P (V c main_arg0 : S128x1024.Idx → EReal))
      (fun t hf => cell_flushed_C V E t ((flush1_6 t).mp hf)) cell_cover6⟩

end Cert.KernelIdeal.Hand

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.Ref.Layout.lean ====
/-
  The layout steps of one layer of the reference program, read entry by entry.

  The reference keeps the four layers' states, weights and biases stacked along a leading axis. Layer `o` takes its
  slice, drops the unit axis, and (for a weight matrix) transposes it before the product; a bias vector is first made a
  one-row matrix and then repeated down the 128 rows; and each of the four gates is a block of 1024 columns of the
  [128, 4096] pre-activation. Every one of these steps only moves entries: each lemma here names the entry of the
  stacked array that a given entry of the moved array is.
-/
import proofs.«115084_j79534204387582_2_alg».proof.Proof.Gen.ReferenceIdeal
import proofs.«115084_j79534204387582_2_alg».proof.Proof.Spec
import proofs.«115084_j79534204387582_2_alg».proof.Proof.LibHostRows
import Idealize.ShloMosaic.Lib.Pipeline.Value
import Idealize.ShloMosaic.Lib.ValueIdx

noncomputable section

namespace Cert.Lstm.Ref

open Idealize.ShloMosaic Idealize.ShloMosaic.ValueIdx Cert.ReferenceIdeal

variable {α : Type}

/-- Layer `o`'s slice of a stacked [4, 128, 1024] array seen as a matrix: its entry (r, k) is the stacked array's
    entry (o, r, k). -/
theorem state_at (o : ℕ) (ho : o < 4) (A : S4x128x1024.Idx → α) (hs : S4x128x1024.Slices ![o, 0, 0] S1x128x1024)
    (hc : S1x128x1024.ShapeCasts S128x1024) (r : Fin 128) (k : Fin 1024) :
    shapeCast S128x1024 (extractStridedSlice S1x128x1024 ![o, 0, 0] A hs) hc (ix2 r k) = A (ix3 ⟨o, ho⟩ r k) := by
  refine (shapeCast_apply _ hc (ix2 r k) (ix3 (0 : Fin 1) r k) ?_).trans ?_
  · rw [Shape.rowMajor_val_three, Shape.rowMajor_val_two]
    show (0 * 128 + r.val) * 1024 + k.val = r.val * 1024 + k.val
    omega
  · refine extractStridedSlice_apply _ A hs (ix3 (0 : Fin 1) r k) (ix3 ⟨o, ho⟩ r k) fun a => ?_
    match a with
    | ⟨0, _⟩ => show o = o + 0; omega
    | ⟨1, _⟩ => show r.val = 0 + r.val; omega
    | ⟨2, _⟩ => show k.val = 0 + k.val; omega

/-- Layer `o`'s slice of a stacked [4, 4096, 1024] weight array, seen as a matrix and transposed: its entry (k, q) is
    the stacked array's entry (o, q, k). -/
theorem weightT_at (o : ℕ) (ho : o < 4) (W : S4x4096x1024.Idx → α) (hs : S4x4096x1024.Slices ![o, 0, 0] S1x4096x1024)
    (hc : S1x4096x1024.ShapeCasts S4096x1024) (ht : S4096x1024.Transposes [1, 0] S1024x4096) (k : Fin 1024) (q : Fin 4096) :
    transpose S1024x4096 [1, 0] (shapeCast S4096x1024 (extractStridedSlice S1x4096x1024 ![o, 0, 0] W hs) hc) ht (ix2 k q)
      = W (ix3 ⟨o, ho⟩ q k) := by
  refine (transpose_apply _ _ ht (ix2 k q) (ix2 q k) (fun b => match b with | ⟨0, _⟩ => rfl | ⟨1, _⟩ => rfl)).trans ?_
  refine (shapeCast_apply _ hc (ix2 q k) (ix3 (0 : Fin 1) q k) ?_).trans ?_
  · rw [Shape.rowMajor_val_three, Shape.rowMajor_val_two]
    show (0 * 4096 + q.val) * 1024 + k.val = q.val * 1024 + k.val
    omega
  · refine extractStridedSlice_apply _ W hs (ix3 (0 : Fin 1) q k) (ix3 ⟨o, ho⟩ q k) fun a => ?_
    match a with
    | ⟨0, _⟩ => show o = o + 0; omega
    | ⟨1, _⟩ => show q.val = 0 + q.val; omega
    | ⟨2, _⟩ => show k.val = 0 + k.val; omega

/-- Layer `o`'s slice of a stacked [4, 4096] bias array, made a one-row matrix and repeated down the 128 rows: its
    entry (r, q) is the stacked array's entry (o, q). -/
theorem bias_at (o : ℕ) (ho : o < 4) (b : S4x4096.Idx → α) (hs : S4x4096.Slices ![o, 0] S1x4096)
    (hc : S1x4096.ShapeCasts S4096) (h1 : S4096.BroadcastsInDim S1x4096 (![1] : Fin 1 → Fin S1x4096.rank))
    (h2 : S1x4096.BroadcastsInDim S128x4096 (![0, 1] : Fin 2 → Fin S128x4096.rank)) (r : Fin 128) (q : Fin 4096) :
    broadcastInDim S128x4096 ![0, 1] h2 (broadcastInDim S1x4096 ![1] h1 (shapeCast S4096 (extractStridedSlice S1x4096 ![o, 0] b hs) hc))
        (ix2 r q)
      = b (ix2 ⟨o, ho⟩ q) := by
  refine (Cert.LibHostRows.bcast_1b_ab_at _ rfl rfl h2 _ r q).trans ?_
  refine (Cert.LibHostRows.bcast_b_1b_at _ rfl h1 _ (0 : Fin 1) q).trans ?_
  refine (shapeCast_apply _ hc (ix1 q) (ix2 (0 : Fin 1) q) ?_).trans ?_
  · rw [Shape.rowMajor_val_two, Shape.rowMajor_val_one]
    show 0 * 4096 + q.val = q.val
    omega
  · refine extractStridedSlice_apply _ b hs (ix2 (0 : Fin 1) q) (ix2 ⟨o, ho⟩ q) fun a => ?_
    match a with
    | ⟨0, _⟩ => show o = o + 0; omega
    | ⟨1, _⟩ => show q.val = 0 + q.val; omega

/-- Gate block `g` of a [128, 4096] matrix, the 1024 columns from `off = 1024·g` on: its entry (r, j) is the matrix's
    entry (r, 1024·g + j). -/
theorem gate_at (g : Fin 4) (off : ℕ) (hoff : off = g.val * 1024) (Z : S128x4096.Idx → α)
    (hs : S128x4096.Slices ![0, off] S128x1024) (r : Fin 128) (j : Fin 1024) :
    extractStridedSlice S128x1024 ![0, off] Z hs (ix2 r j) = Z (ix2 r (col g j)) := by
  refine extractStridedSlice_apply _ Z hs (ix2 r j) (ix2 r (col g j)) fun a => ?_
  match a with
  | ⟨0, _⟩ => show r.val = 0 + r.val; omega
  | ⟨1, _⟩ => show g.val * 1024 + j.val = off + j.val; omega

/-- A matrix repeated as the one member of a [1, 128, 1024] stack: the stack's entry (0, r, j) is the matrix's (r, j). -/
theorem member_at (A : S128x1024.Idx → α) (h : S128x1024.BroadcastsInDim S1x128x1024 (![1, 2] : Fin 2 → Fin S1x128x1024.rank))
    (u : Fin 1) (r : Fin 128) (j : Fin 1024) :
    broadcastInDim S1x128x1024 ![1, 2] h A (ix3 u r j) = A (ix2 r j) := by
  refine broadcastInDim_apply _ h A (ix3 u r j) (ix2 r j) fun a => ?_
  match a with
  | ⟨0, _⟩ => rfl
  | ⟨1, _⟩ => rfl

end Cert.Lstm.Ref

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«115084_j79534204387582_2_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.Ref.Layer.lean ====
/-
  One layer of the reference program's arithmetic, read entry by entry on the extended reals.

  With the layout steps named (the module beside this one), a layer's pre-activation is two plain matrix products
  and two repeated bias rows added left to right; entry (r, q) of it is the specification's `pre`, whose four
  summands are bracketed differently (sums of extended reals are associative). The reference spells the sigmoid as
  the word of 1.0 divided by the sum of that word and the exponential of the negated entry, which is the logistic
  function. The new cell state and hidden state are then products and one sum of such entries. Everything is stated
  over VARIABLES for the layer's input, its pre-activation and its cell state, so the same lemma serves all four
  layers, each layer's input being the hidden state of the layer below.
-/
import proofs.«115084_j79534204387582_2_alg».proof.Proof.Ref.Layout
import proofs.«115084_j79534204387582_2_alg».proof.Proof.LibPlainDot
import proofs.«115084_j79534204387582_2_alg».proof.Proof.LibSigmoid
import Idealize.ShloMosaic.Lib.IdealHost

noncomputable section

open scoped BigOperators

namespace Cert.Lstm.Ref

open Idealize.ShloMosaic Idealize.ShloMosaic.ValueIdx Cert.ReferenceIdeal

/-- The reference's products contract the left operand's columns with the right operand's rows: the plain product. -/
theorem dot_plain : dot_S128x1024_S1024x4096_S128x4096_1_0_0_1_n_n = DotDims.plain 128 1024 4096 := rfl

/-- The sigmoid as the reference spells it is the logistic function of the entry. -/
theorem sigmoid_at (v : FVec Ideal S128x1024 .f32) (hb : S_.BroadcastsInDim S128x1024 (![] : Fin 0 → Fin S128x1024.rank))
    (i : S128x1024.Idx) :
    Host.divf (broadcastInDim S128x1024 ![] hb (constant (F := Ideal) S_ .f32 0x3F800000#32))
        (addf (broadcastInDim S128x1024 ![] hb (constant (F := Ideal) S_ .f32 0x3F800000#32)) (Host.exp (Host.negf v))) i
      = Ideal.logistic (v i) := by
  refine (hostDivf_apply _ _ i).trans ?_
  rw [addf_apply, broadcastInDim_scalar_apply, constant_apply]
  exact Cert.LibSigmoid.logistic_spelt (v i)

/-- Entry (r, q) of layer `o`'s pre-activation as the reference adds it up — input product, input bias, recurrent
    product, recurrent bias, left to right — is the specification's `pre` on the layer's input. -/
theorem pre_at (o : ℕ) (ho : o < 4) (inp : FVec Ideal S128x1024 .f32) (h0 c0 : FVec Ideal S4x128x1024 .f32)
    (Wih Whh : FVec Ideal S4x4096x1024 .f32) (bih bhh : FVec Ideal S4x4096 .f32)
    (hsH : S4x128x1024.Slices ![o, 0, 0] S1x128x1024) (hcH : S1x128x1024.ShapeCasts S128x1024)
    (hsW : S4x4096x1024.Slices ![o, 0, 0] S1x4096x1024) (hcW : S1x4096x1024.ShapeCasts S4096x1024)
    (ht : S4096x1024.Transposes [1, 0] S1024x4096)
    (hsB : S4x4096.Slices ![o, 0] S1x4096) (hcB : S1x4096.ShapeCasts S4096)
    (hb1 : S4096.BroadcastsInDim S1x4096 (![1] : Fin 1 → Fin S1x4096.rank))
    (hb2 : S1x4096.BroadcastsInDim S128x4096 (![0, 1] : Fin 2 → Fin S128x4096.rank)) (r : Fin 128) (q : Fin 4096) :
    addf (addf (addf
          (Host.dotGeneral dot_S128x1024_S1024x4096_S128x4096_1_0_0_1_n_n none inp
            (transpose S1024x4096 [1, 0] (shapeCast S4096x1024 (extractStridedSlice S1x4096x1024 ![o, 0, 0] Wih hsW) hcW) ht))
          (broadcastInDim S128x4096 ![0, 1] hb2 (broadcastInDim S1x4096 ![1] hb1
            (shapeCast S4096 (extractStridedSlice S1x4096 ![o, 0] bih hsB) hcB))))
        (Host.dotGeneral dot_S128x1024_S1024x4096_S128x4096_1_0_0_1_n_n none
          (shapeCast S128x1024 (extractStridedSlice S1x128x1024 ![o, 0, 0] h0 hsH) hcH)
          (transpose S1024x4096 [1, 0] (shapeCast S4096x1024 (extractStridedSlice S1x4096x1024 ![o, 0, 0] Whh hsW) hcW) ht)))
      (broadcastInDim S128x4096 ![0, 1] hb2 (broadcastInDim S1x4096 ![1] hb1
        (shapeCast S4096 (extractStridedSlice S1x4096 ![o, 0] bhh hsB) hcB))) (ix2 r q)
      = pre ⟨h0, c0, Wih, Whh, bih, bhh⟩ (fun r k => inp (ix2 r k)) ⟨o, ho⟩ r q := by
  rw [addf_apply, addf_apply, addf_apply, dot_plain, Cert.LibPlainDot.dotGeneral_apply, Cert.LibPlainDot.dotGeneral_apply,
    bias_at o ho, bias_at o ho]
  simp only [weightT_at o ho, state_at o ho]
  exact pre_assoc ⟨h0, c0, Wih, Whh, bih, bhh⟩ (fun r k => inp (ix2 r k)) ⟨o, ho⟩ r q

/-- Entry (r, j) of layer `o`'s new cell state as the reference computes it from a pre-activation `Z` whose entries are
    the specification's: forget gate times the old cell state plus input gate times the candidate. -/
theorem cellC_at (o : ℕ) (ho : o < 4) (P : Params) (inp : Mat) (Z : FVec Ideal S128x4096 .f32)
    (hZ : ∀ r q, Z (ix2 r q) = pre P inp ⟨o, ho⟩ r q)
    (c0 : FVec Ideal S4x128x1024 .f32) (hc0 : ∀ r j, c0 (ix3 ⟨o, ho⟩ r j) = P.c0 (ix3 ⟨o, ho⟩ r j))
    (hb : S_.BroadcastsInDim S128x1024 (![] : Fin 0 → Fin S128x1024.rank))
    (hs0 : S128x4096.Slices ![0, 0] S128x1024) (hs1 : S128x4096.Slices ![0, 1024] S128x1024)
    (hs2 : S128x4096.Slices ![0, 2048] S128x1024)
    (hsH : S4x128x1024.Slices ![o, 0, 0] S1x128x1024) (hcH : S1x128x1024.ShapeCasts S128x1024) (r : Fin 128) (j : Fin 1024) :
    addf
        (mulf (Host.divf (broadcastInDim S128x1024 ![] hb (constant (F := Ideal) S_ .f32 0x3F800000#32))
            (addf (broadcastInDim S128x1024 ![] hb (constant (F := Ideal) S_ .f32 0x3F800000#32))
              (Host.exp (Host.negf (extractStridedSlice S128x1024 ![0, 1024] Z hs1)))))
          (shapeCast S128x1024 (extractStridedSlice S1x128x1024 ![o, 0, 0] c0 hsH) hcH))
        (mulf (Host.divf (broadcastInDim S128x1024 ![] hb (constant (F := Ideal) S_ .f32 0x3F800000#32))
            (addf (broadcastInDim S128x1024 ![] hb (constant (F := Ideal) S_ .f32 0x3F800000#32))
              (Host.exp (Host.negf (extractStridedSlice S128x1024 ![0, 0] Z hs0)))))
          (Host.tanh (extractStridedSlice S128x1024 ![0, 2048] Z hs2))) (ix2 r j)
      = cellC P inp ⟨o, ho⟩ r j := by
  rw [addf_apply, mulf_apply, mulf_apply, sigmoid_at, sigmoid_at, state_at o ho, hc0,
    gate_at 1 1024 rfl, gate_at 0 0 rfl, hZ, hZ]
  show _ * _ + _ * Ideal.tanh (extractStridedSlice S128x1024 ![0, 2048] Z hs2 (ix2 r j)) = _
  rw [gate_at 2 2048 rfl, hZ]
  rfl

/-- Entry (r, j) of layer `o`'s new hidden state: output gate times the hyperbolic tangent of the new cell state. -/
theorem cellH_at (o : ℕ) (ho : o < 4) (P : Params) (inp : Mat) (Z : FVec Ideal S128x4096 .f32)
    (hZ : ∀ r q, Z (ix2 r q) = pre P inp ⟨o, ho⟩ r q) (C : FVec Ideal S128x1024 .f32)
    (hC : ∀ r j, C (ix2 r j) = cellC P inp ⟨o, ho⟩ r j)
    (hb : S_.BroadcastsInDim S128x1024 (![] : Fin 0 → Fin S128x1024.rank))
    (hs3 : S128x4096.Slices ![0, 3072] S128x1024) (r : Fin 128) (j : Fin 1024) :
    mulf (Host.divf (broadcastInDim S128x1024 ![] hb (constant (F := Ideal) S_ .f32 0x3F800000#32))
          (addf (broadcastInDim S128x1024 ![] hb (constant (F := Ideal) S_ .f32 0x3F800000#32))
            (Host.exp (Host.negf (extractStridedSlice S128x1024 ![0, 3072] Z hs3)))))
        (Host.tanh C) (ix2 r j)
      = cellH P inp ⟨o, ho⟩ r j := by
  rw [mulf_apply, sigmoid_at, gate_at 3 3072 rfl, hZ]
  show _ * Ideal.tanh (C (ix2 r j)) = _
  rw [hC]
  rfl

end Cert.Lstm.Ref

end
-- ==== Proof.LibConcatSame.lean ====
/-
  A concatenation of three or of four pieces of ONE shape along an axis, read at an index: the piece is the one the
  axis coordinate names when divided by the pieces' common extent on that axis, read at the index whose axis
  coordinate is the remainder and whose other coordinates are unchanged. The pieces are given as a literal list, the
  way a program prints a concatenation of three or four operands; the general statement for a family of pieces is
  the library's.
-/
import Idealize.ShloMosaic.Lib.Pipeline.Value
import Idealize.ShloMosaic.Lib.ValueIdx

noncomputable section

namespace Cert.LibConcatSame

open Idealize.ShloMosaic

variable {α : Type} {t s₁ : Shape}

/-- Three pieces of one shape: entry `j` is piece `(j a) / K` at `j` with its axis coordinate reduced modulo `K`. -/
theorem concat3_apply (a : Fin t.rank) (x0 x1 x2 : s₁.Idx → α)
    (h : Shape.Concatenates (([⟨s₁, x0⟩, ⟨s₁, x1⟩, ⟨s₁, x2⟩] : List ((s : Shape) × (s.Idx → α))).map (·.1)) t a)
    (hr : s₁.rank = t.rank) (K : Nat) (hK : s₁.size (a.cast hr.symm) = K) (j : t.Idx) (n : Fin 3)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩] h j = (![x0, x1, x2] : Fin 3 → s₁.Idx → α) n i :=
  concatenate_ofFn_apply a (![x0, x1, x2] : Fin 3 → s₁.Idx → α) h hr K hK j n hn i hia hi

/-- Four pieces of one shape, the same way. -/
theorem concat4_apply (a : Fin t.rank) (x0 x1 x2 x3 : s₁.Idx → α)
    (h : Shape.Concatenates (([⟨s₁, x0⟩, ⟨s₁, x1⟩, ⟨s₁, x2⟩, ⟨s₁, x3⟩] : List ((s : Shape) × (s.Idx → α))).map (·.1)) t a)
    (hr : s₁.rank = t.rank) (K : Nat) (hK : s₁.size (a.cast hr.symm) = K) (j : t.Idx) (n : Fin 4)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩] h j = (![x0, x1, x2, x3] : Fin 4 → s₁.Idx → α) n i :=
  concatenate_ofFn_apply a (![x0, x1, x2, x3] : Fin 4 → s₁.Idx → α) h hr K hK j n hn i hia hi

end Cert.LibConcatSame

end
-- ==== Proof.Ref.Value.lean ====
/-
  The reference program's three results are the specification's, entry by entry.

  The program's run ends with its results at terms built from named intermediates: each layer's pre-activation,
  new cell state and new hidden state. Layer by layer, from the bottom, those intermediates are the specification's
  `pre`, `cellC` and `cellH` on the layer's input (the data for layer 0, the hidden state of the layer below
  otherwise), by the one-layer lemmas. The first result is the top layer's hidden state; the second and third stack the
  four hidden states and the four cell states along a new leading axis.
-/
import proofs.«115084_j79534204387582_2_alg».proof.Proof.Ref.Layer
import proofs.«115084_j79534204387582_2_alg».proof.Proof.Gen.ReferenceIdeal.Run
import proofs.«115084_j79534204387582_2_alg».proof.Proof.LibConcatSame

noncomputable section

namespace Cert.Lstm.Ref

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Value

/-- The specification's six parameter arrays, from the program's argument arrays 1 … 6 in order: the old hidden and
    cell states, the input and recurrent weights, the input and recurrent biases. -/
def paramsOf (a1 a2 : FVec Ideal S4x128x1024 .f32) (a3 a4 : FVec Ideal S4x4096x1024 .f32) (a5 a6 : FVec Ideal S4x4096 .f32) :
    Params := ⟨a1, a2, a3, a4, a5, a6⟩

/-- The specification's data array: the program's argument array 0. -/
def dataOf (a0 : FVec Ideal S128x1024 .f32) : SX.Idx → EReal := a0

/-- Four matrices stacked along a new leading axis: member `l` of the stack, at (r, j), is the `l`-th matrix there. -/
theorem stack4_at (x0 x1 x2 x3 : FVec Ideal S128x1024 .f32)
    (hb : S128x1024.BroadcastsInDim S1x128x1024 (![1, 2] : Fin 2 → Fin S1x128x1024.rank))
    (hcat : Shape.Concatenates [S1x128x1024, S1x128x1024, S1x128x1024, S1x128x1024] S4x128x1024 0)
    (l : Fin 4) (r : Fin 128) (j : Fin 1024) :
    concatenate S4x128x1024 0 [⟨S1x128x1024, broadcastInDim S1x128x1024 ![1, 2] hb x0⟩,
        ⟨S1x128x1024, broadcastInDim S1x128x1024 ![1, 2] hb x1⟩, ⟨S1x128x1024, broadcastInDim S1x128x1024 ![1, 2] hb x2⟩,
        ⟨S1x128x1024, broadcastInDim S1x128x1024 ![1, 2] hb x3⟩] hcat (ix3 l r j)
      = (![x0, x1, x2, x3] : Fin 4 → FVec Ideal S128x1024 .f32) l (ix2 r j) := by
  refine (Cert.LibConcatSame.concat4_apply (t := S4x128x1024) (s₁ := S1x128x1024) (0 : Fin 3) _ _ _ _ hcat rfl 1 rfl (ix3 l r j) l ?_
    (ix3 (0 : Fin 1) r j) ?_ ?_).trans ?_
  · show l.val / 1 = l.val
    omega
  · show 0 = l.val % 1
    omega
  · intro b hb'
    match b with
    | ⟨0, _⟩ => exact absurd rfl hb'
    | ⟨1, _⟩ => rfl
    | ⟨2, _⟩ => rfl
  · match l with
    | ⟨0, _⟩ => exact member_at x0 hb 0 r j
    | ⟨1, _⟩ => exact member_at x1 hb 0 r j
    | ⟨2, _⟩ => exact member_at x2 hb 0 r j
    | ⟨3, _⟩ => exact member_at x3 hb 0 r j

section Layers

variable (V0 : Valuation τ sig (Elt Ideal))

/-- The parameter arrays held by a valuation of the program's buffers. -/
abbrev PV : Params :=
  paramsOf (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6))

/-- The data array held by a valuation of the program's buffers, as a matrix by coordinates. -/
abbrev XV : Mat := matOf (dataOf (V0 (Proc.devRef .tc main_arg0)))

/-! ### Layer 0, on the data -/

theorem pre0 (r : Fin 128) (q : Fin 4096) : res_main_v22 V0 (ix2 r q) = pre (PV V0) (inpAt (PV V0) (XV V0) 0) 0 r q :=
  pre_at 0 (by decide) (V0 (Proc.devRef .tc main_arg0)) _ (V0 (Proc.devRef .tc main_arg2)) _ _ _ _ _ _ _ _ _ _ _ _ _ r q

theorem cell0 (r : Fin 128) (j : Fin 1024) : res_main_v48 V0 (ix2 r j) = cellC (PV V0) (inpAt (PV V0) (XV V0) 0) 0 r j :=
  cellC_at 0 (by decide) (PV V0) _ (res_main_v22 V0) (pre0 V0) (V0 (Proc.devRef .tc main_arg2)) (fun _ _ => rfl) _ _ _ _ _ _ r j

theorem hid0 (r : Fin 128) (j : Fin 1024) : res_main_v50 V0 (ix2 r j) = cellH (PV V0) (inpAt (PV V0) (XV V0) 0) 0 r j :=
  cellH_at 0 (by decide) (PV V0) _ (res_main_v22 V0) (pre0 V0) (res_main_v48 V0) (cell0 V0) _ _ r j

/-- Layer 0's new hidden state is the input of layer 1. -/
theorem inp1 : (fun r k => res_main_v50 V0 (ix2 r k)) = inpAt (PV V0) (XV V0) 1 :=
  funext fun r => funext fun k => (hid0 V0 r k).trans (congrFun (congrFun (inpAt_succ (PV V0) (XV V0) 0) r) k).symm

/-! ### Layer 1, on layer 0's hidden state -/

theorem pre1 (r : Fin 128) (q : Fin 4096) : res_main_v73 V0 (ix2 r q) = pre (PV V0) (inpAt (PV V0) (XV V0) 1) 1 r q :=
  (pre_at 1 (by decide) (res_main_v50 V0) _ (V0 (Proc.devRef .tc main_arg2)) _ _ _ _ _ _ _ _ _ _ _ _ _ r q).trans
    (congrArg (fun I => pre (PV V0) I 1 r q) (inp1 V0))

theorem cell1 (r : Fin 128) (j : Fin 1024) : res_main_v99 V0 (ix2 r j) = cellC (PV V0) (inpAt (PV V0) (XV V0) 1) 1 r j :=
  cellC_at 1 (by decide) (PV V0) _ (res_main_v73 V0) (pre1 V0) (V0 (Proc.devRef .tc main_arg2)) (fun _ _ => rfl) _ _ _ _ _ _ r j

theorem hid1 (r : Fin 128) (j : Fin 1024) : res_main_v101 V0 (ix2 r j) = cellH (PV V0) (inpAt (PV V0) (XV V0) 1) 1 r j :=
  cellH_at 1 (by decide) (PV V0) _ (res_main_v73 V0) (pre1 V0) (res_main_v99 V0) (cell1 V0) _ _ r j

/-- Layer 1's new hidden state is the input of layer 2. -/
theorem inp2 : (fun r k => res_main_v101 V0 (ix2 r k)) = inpAt (PV V0) (XV V0) 2 :=
  funext fun r => funext fun k => (hid1 V0 r k).trans (congrFun (congrFun (inpAt_succ (PV V0) (XV V0) 1) r) k).symm

/-! ### Layer 2, on layer 1's hidden state -/

theorem pre2 (r : Fin 128) (q : Fin 4096) : res_main_v124 V0 (ix2 r q) = pre (PV V0) (inpAt (PV V0) (XV V0) 2) 2 r q :=
  (pre_at 2 (by decide) (res_main_v101 V0) _ (V0 (Proc.devRef .tc main_arg2)) _ _ _ _ _ _ _ _ _ _ _ _ _ r q).trans
    (congrArg (fun I => pre (PV V0) I 2 r q) (inp2 V0))

theorem cell2 (r : Fin 128) (j : Fin 1024) : res_main_v150 V0 (ix2 r j) = cellC (PV V0) (inpAt (PV V0) (XV V0) 2) 2 r j :=
  cellC_at 2 (by decide) (PV V0) _ (res_main_v124 V0) (pre2 V0) (V0 (Proc.devRef .tc main_arg2)) (fun _ _ => rfl) _ _ _ _ _ _ r j

theorem hid2 (r : Fin 128) (j : Fin 1024) : res_main_v152 V0 (ix2 r j) = cellH (PV V0) (inpAt (PV V0) (XV V0) 2) 2 r j :=
  cellH_at 2 (by decide) (PV V0) _ (res_main_v124 V0) (pre2 V0) (res_main_v150 V0) (cell2 V0) _ _ r j

/-- Layer 2's new hidden state is the input of layer 3. -/
theorem inp3 : (fun r k => res_main_v152 V0 (ix2 r k)) = inpAt (PV V0) (XV V0) 3 :=
  funext fun r => funext fun k => (hid2 V0 r k).trans (congrFun (congrFun (inpAt_succ (PV V0) (XV V0) 2) r) k).symm

/-! ### Layer 3, on layer 2's hidden state -/

theorem pre3 (r : Fin 128) (q : Fin 4096) : res_main_v175 V0 (ix2 r q) = pre (PV V0) (inpAt (PV V0) (XV V0) 3) 3 r q :=
  (pre_at 3 (by decide) (res_main_v152 V0) _ (V0 (Proc.devRef .tc main_arg2)) _ _ _ _ _ _ _ _ _ _ _ _ _ r q).trans
    (congrArg (fun I => pre (PV V0) I 3 r q) (inp3 V0))

theorem cell3 (r : Fin 128) (j : Fin 1024) : res_main_v201 V0 (ix2 r j) = cellC (PV V0) (inpAt (PV V0) (XV V0) 3) 3 r j :=
  cellC_at 3 (by decide) (PV V0) _ (res_main_v175 V0) (pre3 V0) (V0 (Proc.devRef .tc main_arg2)) (fun _ _ => rfl) _ _ _ _ _ _ r j

/-- The top layer's new hidden state, which the program does not name: the output gate's sigmoid times the hyperbolic
    tangent of the top layer's new cell state. -/
abbrev top : FVec Ideal S128x1024 .f32 :=
  mulf (Host.divf (broadcastInDim S128x1024 ![] bcast_S_S128x1024 (constant S_ .f32 0x3F800000#32))
      (addf (broadcastInDim S128x1024 ![] bcast_S_S128x1024 (constant S_ .f32 0x3F800000#32))
        (Host.exp (Host.negf (extractStridedSlice S128x1024 ![0, 3072] (res_main_v175 V0) slices_S128x4096_S128x1024_0_3072)))))
    (Host.tanh (res_main_v201 V0))

theorem hid3 (r : Fin 128) (j : Fin 1024) : top V0 (ix2 r j) = cellH (PV V0) (inpAt (PV V0) (XV V0) 3) 3 r j :=
  cellH_at 3 (by decide) (PV V0) _ (res_main_v175 V0) (pre3 V0) (res_main_v201 V0) (cell3 V0) _ _ r j

/-! ### The three results -/

/-- The first result is the specification's: the top layer's new hidden state. -/
theorem top_eq : top V0 = outTop (PV V0) (dataOf (V0 (Proc.devRef .tc main_arg0))) := by
  funext i
  obtain ⟨r, j, rfl⟩ : ∃ r j, i = ix2 r j := ⟨i 0, i 1, eq_ix2 i⟩
  exact (hid3 V0 r j).trans (congrFun (congrFun (inpAt_succ (PV V0) (XV V0) 3) r) j).symm

/-- The second result is the specification's: the four new hidden states, stacked. -/
theorem allH_eq :
    concatenate S4x128x1024 0 [⟨S1x128x1024, broadcastInDim S1x128x1024 ![1, 2] bcast_S128x1024_S1x128x1024_1_2 (res_main_v50 V0)⟩,
        ⟨S1x128x1024, broadcastInDim S1x128x1024 ![1, 2] bcast_S128x1024_S1x128x1024_1_2 (res_main_v101 V0)⟩,
        ⟨S1x128x1024, broadcastInDim S1x128x1024 ![1, 2] bcast_S128x1024_S1x128x1024_1_2 (res_main_v152 V0)⟩,
        ⟨S1x128x1024, broadcastInDim S1x128x1024 ![1, 2] bcast_S128x1024_S1x128x1024_1_2 (top V0)⟩]
        concatenates_S1x128x1024_S1x128x1024_S1x128x1024_S1x128x1024_S4x128x1024_d0
      = outH (PV V0) (dataOf (V0 (Proc.devRef .tc main_arg0))) := by
  funext i
  obtain ⟨l, r, j, rfl⟩ : ∃ l r j, i = ix3 l r j := ⟨i 0, i 1, i 2, eq_ix3 i⟩
  refine (stack4_at _ _ _ _ _ _ l r j).trans ?_
  match l with
  | ⟨0, _⟩ => exact hid0 V0 r j
  | ⟨1, _⟩ => exact hid1 V0 r j
  | ⟨2, _⟩ => exact hid2 V0 r j
  | ⟨3, _⟩ => exact hid3 V0 r j

/-- The third result is the specification's: the four new cell states, stacked. -/
theorem allC_eq :
    concatenate S4x128x1024 0 [⟨S1x128x1024, broadcastInDim S1x128x1024 ![1, 2] bcast_S128x1024_S1x128x1024_1_2 (res_main_v48 V0)⟩,
        ⟨S1x128x1024, broadcastInDim S1x128x1024 ![1, 2] bcast_S128x1024_S1x128x1024_1_2 (res_main_v99 V0)⟩,
        ⟨S1x128x1024, broadcastInDim S1x128x1024 ![1, 2] bcast_S128x1024_S1x128x1024_1_2 (res_main_v150 V0)⟩,
        ⟨S1x128x1024, broadcastInDim S1x128x1024 ![1, 2] bcast_S128x1024_S1x128x1024_1_2 (res_main_v201 V0)⟩]
        concatenates_S1x128x1024_S1x128x1024_S1x128x1024_S1x128x1024_S4x128x1024_d0
      = outC (PV V0) (dataOf (V0 (Proc.devRef .tc main_arg0))) := by
  funext i
  obtain ⟨l, r, j, rfl⟩ : ∃ l r j, i = ix3 l r j := ⟨i 0, i 1, i 2, eq_ix3 i⟩
  refine (stack4_at _ _ _ _ _ _ l r j).trans ?_
  match l with
  | ⟨0, _⟩ => exact cell0 V0 r j
  | ⟨1, _⟩ => exact cell1 V0 r j
  | ⟨2, _⟩ => exact cell2 V0 r j
  | ⟨3, _⟩ => exact cell3 V0 r j

end Layers

/-- On every device, from any memory with zero counters, every weakly fair execution of the reference program
    terminates with its three results at the specification's functions of the argument arrays, and the argument
    arrays unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v203)
          = outTop (paramsOf (m' ((c.tc : Thread nD τ).loc main_arg1)) (m' ((c.tc : Thread nD τ).loc main_arg2))
              (m' ((c.tc : Thread nD τ).loc main_arg3)) (m' ((c.tc : Thread nD τ).loc main_arg4))
              (m' ((c.tc : Thread nD τ).loc main_arg5)) (m' ((c.tc : Thread nD τ).loc main_arg6)))
            (dataOf (m' ((c.tc : Thread nD τ).loc main_arg0)))
      ∧ r.2.mem ((c.tc : Thread nD τ).loc main_v208)
          = outH (paramsOf (m' ((c.tc : Thread nD τ).loc main_arg1)) (m' ((c.tc : Thread nD τ).loc main_arg2))
              (m' ((c.tc : Thread nD τ).loc main_arg3)) (m' ((c.tc : Thread nD τ).loc main_arg4))
              (m' ((c.tc : Thread nD τ).loc main_arg5)) (m' ((c.tc : Thread nD τ).loc main_arg6)))
            (dataOf (m' ((c.tc : Thread nD τ).loc main_arg0)))
      ∧ r.2.mem ((c.tc : Thread nD τ).loc main_v213)
          = outC (paramsOf (m' ((c.tc : Thread nD τ).loc main_arg1)) (m' ((c.tc : Thread nD τ).loc main_arg2))
              (m' ((c.tc : Thread nD τ).loc main_arg3)) (m' ((c.tc : Thread nD τ).loc main_arg4))
              (m' ((c.tc : Thread nD τ).loc main_arg5)) (m' ((c.tc : Thread nD τ).loc main_arg6)))
            (dataOf (m' ((c.tc : Thread nD τ).loc main_arg0)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  (θ_run (defs (F := Ideal)) _ _).mono
    (fun _ h c => ⟨(h c).1.trans (top_eq (launchContents m' c)), (h c).2.1.trans (allH_eq (launchContents m' c)),
      (h c).2.2.1.trans (allC_eq (launchContents m' c)), (h c).2.2.2⟩)
    (Cert.ReferenceIdeal.Value.run (F := Ideal) m' ρ')

/-- The same run, keeping only that the seven argument arrays end unchanged. -/
theorem run_args (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  (θ_run (defs (F := Ideal)) _ _).mono (fun _ h c => (h c).2.2.2) (run m' ρ')

end Cert.Lstm.Ref

end
-- ==== Proof.KI.Bridge.lean ====
/-
  The kernel program's three results are the specification's, and so equal the reference program's.

  The run of the program leaves, in every buffer, the contents obtained by folding its four segments over the launch
  memory. Read back through that fold:

  * the recurrent region is entered with the old hidden states, the recurrent weights and the recurrent bias reshaped
    to [4, 1, 4096], and leaves in its output the specification's recurrent part (a [4, 4096] array cast to
    [4, 1, 4096] reads, at (l, 0, q), the array at (l, q));
  * the cell region is entered with the data, the old cell states, the input weights, the input bias reshaped the
    same way, and that recurrent part; it leaves every layer's new hidden and cell states in its two outputs;
  * the last host stretch slices layer 3 out of the hidden states and drops the unit axis: the specification's first
    result, which is by definition the top layer's new hidden state.

  Both programs therefore end at the same three functions of the argument arrays; from launch memories that agree
  on the arguments their results are equal.
-/
import proofs.«115084_j79534204387582_2_alg».proof.Defs
import proofs.«115084_j79534204387582_2_alg».proof.Proof.KI.Run
import proofs.«115084_j79534204387582_2_alg».proof.Proof.KI.ZhhValue
import proofs.«115084_j79534204387582_2_alg».proof.Proof.KI.CellFinal
import proofs.«115084_j79534204387582_2_alg».proof.Proof.Ref.Value
import proofs.«115084_j79534204387582_2_alg».proof.Proof.LibBlockLayout
import proofs.«115084_j79534204387582_2_alg».proof.Proof.Gen.Pre_finite_inputs
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The specification's parameter arrays as core c's launch memory holds them, -/
abbrev launchParams (c : Dev nD) : Cert.Lstm.Params :=
  Cert.Lstm.Ref.paramsOf (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
/-- and the data array. -/
abbrev launchData (c : Dev nD) : Cert.Lstm.SX.Idx → EReal := Cert.Lstm.Ref.dataOf (m ((c.tc : Thread nD τ).loc main_arg0))

/-- A [4, 4096] array cast to [4, 1, 4096], read at (l, 0, q), is the array at (l, q). -/
theorem bias_cast_at (a : S4x4096.Idx → EReal) (h : S4x4096.ShapeCasts S4x1x4096) (l : Fin 4) (q : Fin 4096) :
    shapeCast S4x1x4096 a h (ix3 l (0 : Fin 1) q) = a (ix2 l q) := by
  refine shapeCast_apply a h (ix3 l (0 : Fin 1) q) (ix2 l q) ?_
  rw [Shape.rowMajor_val_two, Shape.rowMajor_val_three]
  show l.val * 4096 + q.val = (l.val * 1 + 0) * 4096 + q.val
  omega

/-- The cell region is entered with the specification's recurrent part in the first region's output array. -/
theorem entered_recur (c : Dev nD) (l : Fin 4) (r : Fin 128) (q : Fin 4096) :
    (V2 m ρ c main_v2 : S4x128x4096.Idx → EReal) (ix3 l r q) = Cert.Lstm.recur (launchParams m c) l r q := by
  have h1 := zhh_final (V1 m ρ) c
  rw [V1_main_arg1 m ρ c, V1_main_arg4 m ρ c, V1_main_v1 m ρ c] at h1
  refine (congrFun ((V2_main_v2 m ρ c).trans h1) (ix3 l r q)).trans ?_
  unfold Cert.Lstm.recur' Cert.Lstm.recur
  exact congrArg₂ (· + ·) rfl (bias_cast_at _ _ l q)

/-- The cell region is entered with the input bias reshaped. -/
theorem entered_bias (c : Dev nD) (l : Fin 4) (q : Fin 4096) :
    (V2 m ρ c main_v0 : S4x1x4096.Idx → EReal) (ix3 l (0 : Fin 1) q) = (launchParams m c).bih (ix2 l q) := by
  rw [V2_main_v0 m ρ c]
  exact bias_cast_at _ _ l q

/-- What the cell region leaves in its two output arrays, in terms of the launch memory. -/
theorem cell_arrays (c : Dev nD) :
    (dat1 (F := Ideal) (V2 m ρ) c).arrAt 5 cfg1.N = Cert.Lstm.outH (launchParams m c) (launchData m c)
      ∧ (dat1 (F := Ideal) (V2 m ρ) c).arrAt 6 cfg1.N = Cert.Lstm.outC (launchParams m c) (launchData m c) := by
  have h := lstm_final (V2 m ρ) c (launchParams m c) (V2_main_arg3 m ρ c) (V2_main_arg2 m ρ c) (entered_bias m ρ c)
    (entered_recur m ρ c)
  rw [V2_main_arg0 m ρ c] at h
  exact h

/-- The first result: layer 3 of the hidden states with the unit axis dropped is the top layer's hidden state. -/
theorem top_array (c : Dev nD) :
    (W4 m ρ c (Proc.devRef .tc main_v5) : S128x1024.Idx → EReal) = Cert.Lstm.outTop (launchParams m c) (launchData m c) := by
  rw [W4_main_v5 m ρ c, (cell_arrays m ρ c).1]
  funext i
  obtain ⟨r, j, rfl⟩ : ∃ (r : Fin 128) (j : Fin 1024), i = ix2 r j := ⟨i 0, i 1, eq_ix2 i⟩
  refine (Cert.LibBlockLayout.dropUnit_at _ shapeCasts_S1x128x1024_S128x1024 r j).trans ?_
  refine (extractStridedSlice_apply ![3, 0, 0] _ slices_S4x128x1024_S1x128x1024_3_0_0 (ix3 (0 : Fin 1) r j)
    (ix3 (3 : Fin 4) r j) ?_).trans ?_
  · intro a
    match a with
    | ⟨0, _⟩ => rfl
    | ⟨1, _⟩ => show r.val = 0 + r.val; omega
    | ⟨2, _⟩ => show j.val = 0 + j.val; omega
  · exact (Cert.Lstm.outTop_eq (launchParams m c) (launchData m c) r j).symm

/-- The kernel program's run: its three results at the specification's functions of the launch memory's argument
    arrays, and the seven argument arrays unchanged. -/
theorem kernel_run : θ_run (defs (F := Ideal)) (onTc (τ := τ) (main (F := Ideal))) ⟨m, fun _ => 0, ρ⟩ (fun r => ∀ c : Dev nD,
      r.2.mem ((c.tc : Thread nD τ).loc main_v5) = Cert.Lstm.outTop (launchParams m c) (launchData m c)
      ∧ r.2.mem ((c.tc : Thread nD τ).loc main_v3_0) = Cert.Lstm.outH (launchParams m c) (launchData m c)
      ∧ r.2.mem ((c.tc : Thread nD τ).loc main_v3_1) = Cert.Lstm.outC (launchParams m c) (launchData m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_post m ρ fun s h c =>
    ⟨(h c _ (mem_uc main_v5 (by decide))).trans (top_array m ρ c),
     (h c _ (mem_uc main_v3_0 (by decide))).trans ((W4_main_v3_0 m ρ c).trans (cell_arrays m ρ c).1),
     (h c _ (mem_uc main_v3_1 (by decide))).trans ((W4_main_v3_1 m ρ c).trans (cell_arrays m ρ c).2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩

/-- At the ideal instance the two programs, from memories agreeing on the arguments, both run and end with equal
    results: both end at the specification's three functions of the argument arrays. -/
theorem algebraic : Cert.algebraic_KernelIdeal_ReferenceIdeal := by
  intro m ρ m' ρ' _ hagree
  refine ⟨fun c => Cert.Lstm.outTop (launchParams m c) (launchData m c), fun c => Cert.Lstm.outH (launchParams m c) (launchData m c),
    fun c => Cert.Lstm.outC (launchParams m c) (launchData m c), kernel_run m ρ, ?_⟩
  refine (θ_run Cert.ReferenceIdeal.defs _ _).mono (fun _ h c => ?_) (Cert.Lstm.Ref.run m' ρ')
  obtain ⟨a0, a1, a2, a3, a4, a5, a6⟩ := hagree c
  refine ⟨(h c).1.trans ?_, (h c).2.1.trans ?_, (h c).2.2.1.trans ?_, (h c).2.2.2⟩
  all_goals rw [a0, a1, a2, a3, a4, a5, a6]

end Cert.KernelIdeal.Hand

end
-- ==== Proof.lean ====
/-
  One time step of a four-layer LSTM: two pipelined TensorCore kernels against the plain reference, equal on the
  extended reals.

  The kernel side computes, first, for every layer at once, the recurrent half of the pre-activation (the old hidden
  state against the recurrent weights, plus their bias); then, layer by layer and gate by gate over a 4 × 4 grid, the
  input half (the layer's input against the input weights, plus their bias), adds the two halves, applies the
  logistic function or the hyperbolic tangent to each gate's 1024 columns, and at a layer's last gate forms the new
  cell state  c' = σ(f)·c + σ(i)·tanh(g)  and hidden state  h' = σ(o)·tanh(c'),  the hidden state becoming the next
  layer's input. The reference does the same with whole-matrix operations, adding the four summands of the
  pre-activation from left to right and spelling the logistic function as 1 / (1 + e⁻ᶻ).

  On the extended reals a change of float format is the identity, addition is associative and commutative, and the
  quotient 1 / (1 + e⁻ᶻ) IS the logistic function; so both programs compute the functions of Proof/Spec.lean
  (outTop, outH, outC) of the seven argument arrays, entry by entry. No finiteness of the inputs is used.

  Each program's frame (it terminates, faults nowhere, leaves its arguments unchanged) is read off its run: for the
  two kernel programs, the run of their two pipelined regions between host reshapes and a final slice, proved once
  for any float instance and read at both; for the reference, the run of its host operations.
-/
import proofs.«115084_j79534204387582_2_alg».proof.Defs
import proofs.«115084_j79534204387582_2_alg».proof.Proof.Gen.Kernel
import proofs.«115084_j79534204387582_2_alg».proof.Proof.Gen.KernelIdeal
import proofs.«115084_j79534204387582_2_alg».proof.Proof.Gen.ReferenceIdeal
import proofs.«115084_j79534204387582_2_alg».proof.Proof.Gen.Pre_finite_inputs
import proofs.«115084_j79534204387582_2_alg».proof.Proof.K.Run
import proofs.«115084_j79534204387582_2_alg».proof.Proof.KI.Run
import proofs.«115084_j79534204387582_2_alg».proof.Proof.KI.Bridge
import proofs.«115084_j79534204387582_2_alg».proof.Proof.Ref.Value

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    fun m ρ _ => Cert.Lstm.Ref.run_args m ρ,
    trivial,
    Cert.KernelIdeal.Hand.algebraic⟩

end Cert.Proof

end
